-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S4096x4096 : Shape := ⟨2, ![4096, 4096]⟩
abbrev S4096x2048 : Shape := ⟨2, ![4096, 2048]⟩
abbrev S4096x1 : Shape := ⟨2, ![4096, 1]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x2048 : S_.BroadcastsInDim S4096x2048 (![] : Fin 0 → Fin S4096x2048.rank)
  reducesTo_S4096x2048_S_d0_1 : S4096x2048.ReducesTo [0, 1] S_
  bcast_S_S4096x1 : S_.BroadcastsInDim S4096x1 (![] : Fin 0 → Fin S4096x1.rank)
  reducesTo_S4096x1_S_d0_1 : S4096x1.ReducesTo [0, 1] S_

variable [Facts]

def fn_part4 {F : FTy → Type} [FloatOps F] (main_arg14 : FVec F S4096x1 .f32) (main_v63 : IVec S_ 1) (main_v67 : IVec S_ 1) : IVec S_ 1 :=
  let main_v68 : IVec S_ 1 := andi main_v63 main_v67
  let main_v69 : FVec F S4096x1 .f32 := Host.absf main_arg14
  let main_cst_26 : FVec F S_ .f32 := constant S_ .f32 0x7F800000#32
  let main_v70 : FVec F S4096x1 .f32 := broadcastInDim S4096x1 ![] bcast_S_S4096x1 main_cst_26
  let main_v71 : IVec S4096x1 1 := cmpf .olt main_v69 main_v70
  let main_c_27 : IVec S_ 1 := constantI S_ 1 1#1
  let main_v72 : IVec S_ 1 := (fun x v => Host.reduce IntOp.andi x v reducesTo_S4096x1_S_d0_1 h_S_) main_v71 main_c_27
  let main_v73 : IVec S_ 1 := andi main_v68 main_v72
  main_v73

def fn_part3 {F : FTy → Type} [FloatOps F] (main_arg11 : FVec F S4096x1 .f32) (main_arg12 : FVec F S4096x2048 .f32) (main_arg13 : FVec F S4096x4096 .f32) (main_arg14 : FVec F S4096x1 .f32) (main_v48 : IVec S_ 1) (main_v49 : FVec F S4096x4096 .f32) (main_v50 : FVec F S4096x4096 .f32) : IVec S_ 1 :=
  let main_v51 : IVec S4096x4096 1 := cmpf .olt main_v49 main_v50
  let main_c_19 : IVec S_ 1 := constantI S_ 1 1#1
  let main_v52 : IVec S_ 1 := (fun x v => Host.reduce IntOp.andi x v reducesTo_S4096x4096_S_d0_1 h_S_) main_v51 main_c_19
  let main_v53 : IVec S_ 1 := andi main_v48 main_v52
  let main_v54 : FVec F S4096x1 .f32 := Host.absf main_arg11
  let main_cst_20 : FVec F S_ .f32 := constant S_ .f32 0x7F800000#32
  let main_v55 : FVec F S4096x1 .f32 := broadcastInDim S4096x1 ![] bcast_S_S4096x1 main_cst_20
  let main_v56 : IVec S4096x1 1 := cmpf .olt main_v54 main_v55
  let main_c_21 : IVec S_ 1 := constantI S_ 1 1#1
  let main_v57 : IVec S_ 1 := (fun x v => Host.reduce IntOp.andi x v reducesTo_S4096x1_S_d0_1 h_S_) main_v56 main_c_21
  let main_v58 : IVec S_ 1 := andi main_v53 main_v57
  let main_v59 : FVec F S4096x2048 .f32 := Host.absf main_arg12
  let main_cst_22 : FVec F S_ .f32 := constant S_ .f32 0x7F800000#32
  let main_v60 : FVec F S4096x2048 .f32 := broadcastInDim S4096x2048 ![] bcast_S_S4096x2048 main_cst_22
  let main_v61 : IVec S4096x2048 1 := cmpf .olt main_v59 main_v60
  let main_c_23 : IVec S_ 1 := constantI S_ 1 1#1
  let main_v62 : IVec S_ 1 := (fun x v => Host.reduce IntOp.andi x v reducesTo_S4096x2048_S_d0_1 h_S_) main_v61 main_c_23
  let main_v63 : IVec S_ 1 := andi main_v58 main_v62
  let main_v64 : FVec F S4096x4096 .f32 := Host.absf main_arg13
  let main_cst_24 : FVec F S_ .f32 := constant S_ .f32 0x7F800000#32
  let main_v65 : FVec F S4096x4096 .f32 := broadcastInDim S4096x4096 ![] bcast_S_S4096x4096 main_cst_24
  let main_v66 : IVec S4096x4096 1 := cmpf .olt main_v64 main_v65
  let main_c_25 : IVec S_ 1 := constantI S_ 1 1#1
  let main_v67 : IVec S_ 1 := (fun x v => Host.reduce IntOp.andi x v reducesTo_S4096x4096_S_d0_1 h_S_) main_v66 main_c_25
  fn_part4 (F := F) main_arg14 main_v63 main_v67

def fn_part2 {F : FTy → Type} [FloatOps F] (main_arg7 : FVec F S4096x4096 .f32) (main_arg8 : FVec F S4096x1 .f32) (main_arg9 : FVec F S4096x2048 .f32) (main_arg10 : FVec F S4096x4096 .f32) (main_arg11 : FVec F S4096x1 .f32) (main_arg12 : FVec F S4096x2048 .f32) (main_arg13 : FVec F S4096x4096 .f32) (main_arg14 : FVec F S4096x1 .f32) (main_v33 : IVec S_ 1) : IVec S_ 1 :=
  let main_v34 : FVec F S4096x4096 .f32 := Host.absf main_arg7
  let main_cst_12 : FVec F S_ .f32 := constant S_ .f32 0x7F800000#32
  let main_v35 : FVec F S4096x4096 .f32 := broadcastInDim S4096x4096 ![] bcast_S_S4096x4096 main_cst_12
  let main_v36 : IVec S4096x4096 1 := cmpf .olt main_v34 main_v35
  let main_c_13 : IVec S_ 1 := constantI S_ 1 1#1
  let main_v37 : IVec S_ 1 := (fun x v => Host.reduce IntOp.andi x v reducesTo_S4096x4096_S_d0_1 h_S_) main_v36 main_c_13
  let main_v38 : IVec S_ 1 := andi main_v33 main_v37
  let main_v39 : FVec F S4096x1 .f32 := Host.absf main_arg8
  let main_cst_14 : FVec F S_ .f32 := constant S_ .f32 0x7F800000#32
  let main_v40 : FVec F S4096x1 .f32 := broadcastInDim S4096x1 ![] bcast_S_S4096x1 main_cst_14
  let main_v41 : IVec S4096x1 1 := cmpf .olt main_v39 main_v40
  let main_c_15 : IVec S_ 1 := constantI S_ 1 1#1
  let main_v42 : IVec S_ 1 := (fun x v => Host.reduce IntOp.andi x v reducesTo_S4096x1_S_d0_1 h_S_) main_v41 main_c_15
  let main_v43 : IVec S_ 1 := andi main_v38 main_v42
  let main_v44 : FVec F S4096x2048 .f32 := Host.absf main_arg9
  let main_cst_16 : FVec F S_ .f32 := constant S_ .f32 0x7F800000#32
  let main_v45 : FVec F S4096x2048 .f32 := broadcastInDim S4096x2048 ![] bcast_S_S4096x2048 main_cst_16
  let main_v46 : IVec S4096x2048 1 := cmpf .olt main_v44 main_v45
  let main_c_17 : IVec S_ 1 := constantI S_ 1 1#1
  let main_v47 : IVec S_ 1 := (fun x v => Host.reduce IntOp.andi x v reducesTo_S4096x2048_S_d0_1 h_S_) main_v46 main_c_17
  let main_v48 : IVec S_ 1 := andi main_v43 main_v47
  let main_v49 : FVec F S4096x4096 .f32 := Host.absf main_arg10
  let main_cst_18 : FVec F S_ .f32 := constant S_ .f32 0x7F800000#32
  let main_v50 : FVec F S4096x4096 .f32 := broadcastInDim S4096x4096 ![] bcast_S_S4096x4096 main_cst_18
  fn_part3 (F := F) main_arg11 main_arg12 main_arg13 main_arg14 main_v48 main_v49 main_v50

def fn_part1 {F : FTy → Type} [FloatOps F] (main_arg4 : FVec F S4096x4096 .f32) (main_arg5 : FVec F S4096x1 .f32) (main_arg6 : FVec F S4096x2048 .f32) (main_arg7 : FVec F S4096x4096 .f32) (main_arg8 : FVec F S4096x1 .f32) (main_arg9 : FVec F S4096x2048 .f32) (main_arg10 : FVec F S4096x4096 .f32) (main_arg11 : FVec F S4096x1 .f32) (main_arg12 : FVec F S4096x2048 .f32) (main_arg13 : FVec F S4096x4096 .f32) (main_arg14 : FVec F S4096x1 .f32) (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S4096x1 .f32 := Host.absf main_arg5
  let main_cst_8 : FVec F S_ .f32 := constant S_ .f32 0x7F800000#32
  let main_v25 : FVec F S4096x1 .f32 := broadcastInDim S4096x1 ![] bcast_S_S4096x1 main_cst_8
  let main_v26 : IVec S4096x1 1 := cmpf .olt main_v24 main_v25
  let main_c_9 : IVec S_ 1 := constantI S_ 1 1#1
  let main_v27 : IVec S_ 1 := (fun x v => Host.reduce IntOp.andi x v reducesTo_S4096x1_S_d0_1 h_S_) main_v26 main_c_9
  let main_v28 : IVec S_ 1 := andi main_v23 main_v27
  let main_v29 : FVec F S4096x2048 .f32 := Host.absf main_arg6
  let main_cst_10 : FVec F S_ .f32 := constant S_ .f32 0x7F800000#32
  let main_v30 : FVec F S4096x2048 .f32 := broadcastInDim S4096x2048 ![] bcast_S_S4096x2048 main_cst_10
  let main_v31 : IVec S4096x2048 1 := cmpf .olt main_v29 main_v30
  let main_c_11 : IVec S_ 1 := constantI S_ 1 1#1
  let main_v32 : IVec S_ 1 := (fun x v => Host.reduce IntOp.andi x v reducesTo_S4096x2048_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S2048x4096 .f32) (main_arg1 : FVec F S4096x4096 .f32) (main_arg2 : FVec F S4096x4096 .f32) (main_arg3 : FVec F S4096x2048 .f32) (main_arg4 : FVec F S4096x4096 .f32) (main_arg5 : FVec F S4096x1 .f32) (main_arg6 : FVec F S4096x2048 .f32) (main_arg7 : FVec F S4096x4096 .f32) (main_arg8 : FVec F S4096x1 .f32) (main_arg9 : FVec F S4096x2048 .f32) (main_arg10 : FVec F S4096x4096 .f32) (main_arg11 : FVec F S4096x1 .f32) (main_arg12 : FVec F S4096x2048 .f32) (main_arg13 : FVec F S4096x4096 .f32) (main_arg14 : FVec F S4096x1 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S2048x4096 : Shape := ⟨2, ![2048, 4096]⟩
abbrev S4096x4096 : Shape := ⟨2, ![4096, 4096]⟩
abbrev S4096x2048 : Shape := ⟨2, ![4096, 2048]⟩
abbrev S4096x1 : Shape := ⟨2, ![4096, 1]⟩
abbrev S512x1024 : Shape := ⟨2, ![512, 1024]⟩
abbrev S512x512 : Shape := ⟨2, ![512, 512]⟩
abbrev S512x1 : Shape := ⟨2, ![512, 1]⟩

abbrev nBuf : Space → Nat
  | .hbm => 27
  | .vmem => 38
  | .smem => 0
  | _ => 0

abbrev bufTy : (tb : Table) → Fin (tcTables nBuf tb) → BufTy
  | .hbm, ⟨0, _⟩ => ⟨S2048x4096, .f32⟩
  | .hbm, ⟨1, _⟩ => ⟨S4096x4096, .f32⟩
  | .hbm, ⟨2, _⟩ => ⟨S4096x4096, .f32⟩
  | .hbm, ⟨3, _⟩ => ⟨S4096x2048, .f32⟩
  | .hbm, ⟨4, _⟩ => ⟨S4096x4096, .f32⟩
  | .hbm, ⟨5, _⟩ => ⟨S4096x1, .f32⟩
  | .hbm, ⟨6, _⟩ => ⟨S4096x2048, .f32⟩
  | .hbm, ⟨7, _⟩ => ⟨S4096x4096, .f32⟩
  | .hbm, ⟨8, _⟩ => ⟨S4096x1, .f32⟩
  | .hbm, ⟨9, _⟩ => ⟨S4096x2048, .f32⟩
  | .hbm, ⟨10, _⟩ => ⟨S4096x4096, .f32⟩
  | .hbm, ⟨11, _⟩ => ⟨S4096x1, .f32⟩
  | .hbm, ⟨12, _⟩ => ⟨S4096x2048, .f32⟩
  | .hbm, ⟨13, _⟩ => ⟨S4096x4096, .f32⟩
  | .hbm, ⟨14, _⟩ => ⟨S4096x1, .f32⟩
  | .hbm, ⟨15, _⟩ => ⟨S2048x4096, .bf16⟩
  | .hbm, ⟨16, _⟩ => ⟨S4096x4096, .bf16⟩
  | .hbm, ⟨17, _⟩ => ⟨S4096x2048, .bf16⟩
  | .hbm, ⟨18, _⟩ => ⟨S4096x4096, .bf16⟩
  | .hbm, ⟨19, _⟩ => ⟨S4096x2048, .bf16⟩
  | .hbm, ⟨20, _⟩ => ⟨S4096x4096, .bf16⟩
  | .hbm, ⟨21, _⟩ => ⟨S4096x2048, .bf16⟩
  | .hbm, ⟨22, _⟩ => ⟨S4096x4096, .bf16⟩
  | .hbm, ⟨23, _⟩ => ⟨S4096x2048, .bf16⟩
  | .hbm, ⟨24, _⟩ => ⟨S4096x4096, .bf16⟩
  | .hbm, ⟨25, _⟩ => ⟨S4096x4096, .f32⟩
  | .hbm, ⟨26, _⟩ => ⟨S4096x4096, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x1, .f32⟩
  | .local _ .vmem, ⟨11, _⟩ => ⟨S512x1, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x1, .f32⟩
  | .local _ .vmem, ⟨17, _⟩ => ⟨S512x1, .f32⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x1, .f32⟩
  | .local _ .vmem, ⟨23, _⟩ => ⟨S512x1, .f32⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | .local _ .vmem, ⟨28, _⟩ => ⟨S512x1, .f32⟩
  | .local _ .vmem, ⟨29, _⟩ => ⟨S512x1, .f32⟩
  | .local _ .vmem, ⟨30, _⟩ => ⟨S512x1024, .f32⟩
  | .local _ .vmem, ⟨31, _⟩ => ⟨S512x1024, .f32⟩
  | .local _ .vmem, ⟨32, _⟩ => ⟨S512x1024, .f32⟩
  | .local _ .vmem, ⟨33, _⟩ => ⟨S512x1024, .f32⟩
  | .local _ .vmem, ⟨34, _⟩ => ⟨S512x1024, .f32⟩
  | .local _ .vmem, ⟨35, _⟩ => ⟨S512x1024, .f32⟩
  | .local _ .vmem, ⟨36, _⟩ => ⟨S512x1024, .f32⟩
  | .local _ .vmem, ⟨37, _⟩ => ⟨S512x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10_0 : Ref sig .tc := ⟨.hbm, 25, rfl⟩
abbrev main_v10_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_scratch0 : Ref sig .tc := ⟨.vmem, 34, rfl⟩
abbrev cc0_scratch1 : Ref sig .tc := ⟨.vmem, 35, rfl⟩
abbrev cc0_scratch2 : Ref sig .tc := ⟨.vmem, 36, rfl⟩
abbrev cc0_scratch3 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨3, ![8, 4, 12], ![false, false, false]⟩

def k0_cond4 (i : grid0.Coords) : BitVec 1 :=
  let arg2 : BitVec 32 := BitVec.ofNat 32 (i 2).val
  let c11_i32 : BitVec 32 := 11#32
  let v9 : BitVec 1 := Scalar.cmpi .eq arg2 c11_i32
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 1 := Scalar.cmpi .slt arg2 c4_i32
  let c3_i32 : BitVec 32 := 3#32
  let v1 : BitVec 32 := Scalar.select v0 arg2 c3_i32
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 1 := Scalar.cmpi .sge arg2 c4_i32
  let c4_i32_0 : BitVec 32 := 4#32
  let v1 : BitVec 32 := Scalar.subi arg2 c4_i32_0
  let c0_i32 : BitVec 32 := 0#32
  let v2 : BitVec 32 := Scalar.select v0 v1 c0_i32
  let c0_i32_1 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 1 := Scalar.cmpi .slt arg2 c4_i32
  let c3_i32 : BitVec 32 := 3#32
  let v1 : BitVec 32 := Scalar.select v0 arg2 c3_i32
  let c0_i32 : BitVec 32 := 0#32
  ![arg0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 1 := Scalar.cmpi .sge arg2 c4_i32
  let c4_i32_0 : BitVec 32 := 4#32
  let v1 : BitVec 32 := Scalar.subi arg2 c4_i32_0
  let c0_i32 : BitVec 32 := 0#32
  let v2 : BitVec 32 := Scalar.select v0 v1 c0_i32
  let c0_i32_1 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 1 := Scalar.cmpi .slt arg2 c4_i32
  let c3_i32 : BitVec 32 := 3#32
  let v1 : BitVec 32 := Scalar.select v0 arg2 c3_i32
  let c0_i32 : BitVec 32 := 0#32
  ![arg0.toNat, v1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 1 := Scalar.cmpi .sge arg2 c4_i32
  let c4_i32_0 : BitVec 32 := 4#32
  let v1 : BitVec 32 := Scalar.subi arg2 c4_i32_0
  let c0_i32 : BitVec 32 := 0#32
  let v2 : BitVec 32 := Scalar.select v0 v1 c0_i32
  let c0_i32_1 : BitVec 32 := 0#32
  ![arg0.toNat, v2.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 1 := Scalar.cmpi .slt arg2 c4_i32
  let c3_i32 : BitVec 32 := 3#32
  let v1 : BitVec 32 := Scalar.select v0 arg2 c3_i32
  let c0_i32 : BitVec 32 := 0#32
  ![arg0.toNat, v1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 1 := Scalar.cmpi .sge arg2 c4_i32
  let c4_i32_0 : BitVec 32 := 4#32
  let v1 : BitVec 32 := Scalar.subi arg2 c4_i32_0
  let c0_i32 : BitVec 32 := 0#32
  let v2 : BitVec 32 := Scalar.select v0 v1 c0_i32
  let c0_i32_1 : BitVec 32 := 0#32
  ![arg0.toNat, v2.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 1 := Scalar.cmpi .slt arg2 c4_i32
  let c3_i32 : BitVec 32 := 3#32
  let v1 : BitVec 32 := Scalar.select v0 arg2 c3_i32
  let c0_i32 : BitVec 32 := 0#32
  ![arg0.toNat, v1.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 1 := Scalar.cmpi .sge arg2 c4_i32
  let c4_i32_0 : BitVec 32 := 4#32
  let v1 : BitVec 32 := Scalar.subi arg2 c4_i32_0
  let c0_i32 : BitVec 32 := 0#32
  let v2 : BitVec 32 := Scalar.select v0 v1 c0_i32
  let c0_i32_1 : BitVec 32 := 0#32
  ![arg0.toNat, v2.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_16 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, true]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, true]

abbrev stage0_11 : Fin 2 → Memref sig .tc .vmem S512x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false, true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false, true]

abbrev stage0_14 : Fin 2 → Memref sig .tc .vmem S512x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false, false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, false]

class Facts₀ : Prop where
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x1024 : S512x1.Broadcasts S512x1024
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S2048x4096.size a
  hwx0_0 : ∀ i : grid0.Coords, EltTy.bits .bf16 = 32 ∨ (Rect.block (s := S2048x4096) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .bf16 = 32 ∨ (Rect.block (s := S4096x4096) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x4096.size a
  hwx0_2 : ∀ i : grid0.Coords, EltTy.bits .f32 = 32 ∨ (Rect.block (s := S4096x4096) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x2048.size a
  hwx0_3 : ∀ i : grid0.Coords, EltTy.bits .bf16 = 32 ∨ (Rect.block (s := S4096x2048) S512x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S4096x4096.size a
  hwx0_4 : ∀ i : grid0.Coords, EltTy.bits .bf16 = 32 ∨ (Rect.block (s := S4096x4096) S512x512.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S4096x1.size a
  hwx0_5 : ∀ i : grid0.Coords, EltTy.bits .f32 = 32 ∨ (Rect.block (s := S4096x1) S512x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S4096x2048.size a
  hwx0_6 : ∀ i : grid0.Coords, EltTy.bits .bf16 = 32 ∨ (Rect.block (s := S4096x2048) S512x512.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S4096x4096.size a
  hwx0_7 : ∀ i : grid0.Coords, EltTy.bits .bf16 = 32 ∨ (Rect.block (s := S4096x4096) S512x512.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1.size a ≤ S4096x1.size a
  hwx0_8 : ∀ i : grid0.Coords, EltTy.bits .f32 = 32 ∨ (Rect.block (s := S4096x1) S512x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S4096x2048.size a
  hwx0_9 : ∀ i : grid0.Coords, EltTy.bits .bf16 = 32 ∨ (Rect.block (s := S4096x2048) S512x512.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x512.size a ≤ S4096x4096.size a
  hwx0_10 : ∀ i : grid0.Coords, EltTy.bits .bf16 = 32 ∨ (Rect.block (s := S4096x4096) S512x512.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x1.size a ≤ S4096x1.size a
  hwx0_11 : ∀ i : grid0.Coords, EltTy.bits .f32 = 32 ∨ (Rect.block (s := S4096x1) S512x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x512.size a ≤ S4096x2048.size a
  hwx0_12 : ∀ i : grid0.Coords, EltTy.bits .bf16 = 32 ∨ (Rect.block (s := S4096x2048) S512x512.size (cc0_transform_12 i) (hinb0_12 i)).WholeWords (EltTy.packing .bf16)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S512x512.size a ≤ S4096x4096.size a
  hwx0_13 : ∀ i : grid0.Coords, EltTy.bits .bf16 = 32 ∨ (Rect.block (s := S4096x4096) S512x512.size (cc0_transform_13 i) (hinb0_13 i)).WholeWords (EltTy.packing .bf16)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S512x1.size a ≤ S4096x1.size a
  hwx0_14 : ∀ i : grid0.Coords, EltTy.bits .f32 = 32 ∨ (Rect.block (s := S4096x1) S512x1.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S512x1024.size a ≤ S4096x4096.size a
  hwx0_15 : ∀ i : grid0.Coords, EltTy.bits .f32 = 32 ∨ (Rect.block (s := S4096x4096) S512x1024.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S512x1024.size a ≤ S4096x4096.size a
  hwx0_16 : ∀ i : grid0.Coords, EltTy.bits .f32 = 32 ∨ (Rect.block (s := S4096x4096) S512x1024.size (cc0_transform_16 i) (hinb0_16 i)).WholeWords (EltTy.packing .f32)

variable [Facts₀]

def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4) S512x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5) S512x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S512x1.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v6) S512x512.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v7) S512x512.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S512x1.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v8) S512x512.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v9) S512x512.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S512x1.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v10_0) S512x1024.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v10_1) S512x1024.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

abbrev idle0 : Fin 17 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun i => !(k0_cond4 i == 1#1) | 16 => fun i => !(k0_cond4 i == 1#1) | ⟨_ + 17, h⟩ => absurd h (Nat.not_lt.2 (Nat.le_add_left _ _))

class Facts : Prop extends Facts₀ where

variable [Facts]
-- ==== ReferenceIdeal.lean ====
abbrev S2048x4096 : Shape := ⟨2, ![2048, 4096]⟩
abbrev S4096x4096 : Shape := ⟨2, ![4096, 4096]⟩
abbrev S4096x2048 : Shape := ⟨2, ![4096, 2048]⟩
abbrev S4096x1 : Shape := ⟨2, ![4096, 1]⟩
abbrev S_ : Shape := ⟨0, ![]⟩

abbrev nBuf : Space → Nat
  | .hbm => 65
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x4096, .f32⟩
  | .hbm, ⟨2, _⟩ => ⟨S4096x4096, .f32⟩
  | .hbm, ⟨3, _⟩ => ⟨S4096x2048, .f32⟩
  | .hbm, ⟨4, _⟩ => ⟨S4096x4096, .f32⟩
  | .hbm, ⟨5, _⟩ => ⟨S4096x1, .f32⟩
  | .hbm, ⟨6, _⟩ => ⟨S4096x2048, .f32⟩
  | .hbm, ⟨7, _⟩ => ⟨S4096x4096, .f32⟩
  | .hbm, ⟨8, _⟩ => ⟨S4096x1, .f32⟩
  | .hbm, ⟨9, _⟩ => ⟨S4096x2048, .f32⟩
  | .hbm, ⟨10, _⟩ => ⟨S4096x4096, .f32⟩
  | .hbm, ⟨11, _⟩ => ⟨S4096x1, .f32⟩
  | .hbm, ⟨12, _⟩ => ⟨S4096x2048, .f32⟩
  | .hbm, ⟨13, _⟩ => ⟨S4096x4096, .f32⟩
  | .hbm, ⟨14, _⟩ => ⟨S4096x1, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S4096x4096, .f32⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S_, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S4096x4096, .f32⟩
  | .hbm, ⟨43, _⟩ => ⟨S4096x4096, .f32⟩
  | .hbm, ⟨44, _⟩ => ⟨S4096x4096, .f32⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S4096x4096, .f32⟩
  | .hbm, ⟨51, _⟩ => ⟨S4096x4096, .f32⟩
  | .hbm, ⟨52, _⟩ => ⟨S4096x4096, .f32⟩
  | .hbm, ⟨53, _⟩ => ⟨S4096x4096, .f32⟩
  | .hbm, ⟨54, _⟩ => ⟨S_, .f32⟩
  | .hbm, ⟨55, _⟩ => ⟨S4096x4096, .f32⟩
  | .hbm, ⟨56, _⟩ => ⟨S4096x4096, .f32⟩
  | .hbm, ⟨57, _⟩ => ⟨S_, .f32⟩
  | .hbm, ⟨58, _⟩ => ⟨S4096x4096, .f32⟩
  | .hbm, ⟨59, _⟩ => ⟨S4096x4096, .f32⟩
  | .hbm, ⟨60, _⟩ => ⟨S4096x4096, .f32⟩
  | .hbm, ⟨61, _⟩ => ⟨S4096x4096, .f32⟩
  | .hbm, ⟨62, _⟩ => ⟨S4096x4096, .f32⟩
  | .hbm, ⟨63, _⟩ => ⟨S4096x4096, .f32⟩
  | .hbm, ⟨64, _⟩ => ⟨S4096x4096, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_1 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_3 : Ref sig .tc := ⟨.hbm, 54, rfl⟩
abbrev main_v35 : Ref sig .tc := ⟨.hbm, 55, rfl⟩
abbrev main_v36 : Ref sig .tc := ⟨.hbm, 56, rfl⟩
abbrev main_cst_4 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩

abbrev nD : Nat := 1
abbrev τ : Topo := Topo.v7x

variable {F : FTy → Type} [FloatOps F]

class Facts₀ : Prop where
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  dot_S4096x2048_S2048x4096_S4096x4096_1_0_0_1_n_n_wf : DotDims.WF S4096x2048 S2048x4096 S4096x4096 [1] [0] [0] [1] [] []
  dot_S4096x4096_S4096x4096_S4096x4096_1_0_0_1_n_n_wf : DotDims.WF S4096x4096 S4096x4096 S4096x4096 [1] [0] [0] [1] [] []

variable [Facts₀]

def dot_S4096x2048_S2048x4096_S4096x4096_1_0_0_1_n_n : DotDims S4096x2048 S2048x4096 S4096x4096 where
  lhsContracting := [1]
  rhsContracting := [0]
  lhsNonContracting := [0]
  rhsNonContracting := [1]
  lhsBatch := []
  rhsBatch := []
  wf := dot_S4096x2048_S2048x4096_S4096x4096_1_0_0_1_n_n_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.Bits.Cases.lean ====
/-
  One step of an LSTM cell, tiled: the grid is 8 row tiles x 4 column tiles x 12 contraction steps, and the last
  coordinate k = t mod 12 decides what the body does at point t. It clears its four gate accumulators when k = 0,
  adds a 512-deep slice of (input weights) x (input) when k < 4, a 512-deep slice of (recurrent weights) x
  (previous output) when k >= 4, and applies the gates and writes both results when k = 11. This module states
  the four conditions as the body computes them from the coordinates, their closed forms in t mod 12, where the
  two result windows are idle (every point with k /= 11), and the memory the body is handed: each window's
  current staging buffer and the four accumulators, which live in scratch memory and are kept between points.
-/
import proofs.«125515_j24756191494330_2_alg».proof.Proof.Gen.Kernel.Frame
import proofs.«125515_j24756191494330_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's four conditions, from the last grid coordinate -/

/-- k = 0: the accumulators are cleared. -/
abbrev cond0_0 (i : grid0.Coords) : Prop := (Scalar.cmpi .ne (Scalar.extui (Scalar.cmpi .eq (BitVec.ofNat 32 (i 2).val) 0#32)) 0#32) = 1#1
/-- k < 4: a slice of the input product is added. -/
abbrev cond0_1 (i : grid0.Coords) : Prop := (Scalar.cmpi .ne (Scalar.extui (Scalar.cmpi .slt (BitVec.ofNat 32 (i 2).val) 4#32)) 0#32) = 1#1
/-- k >= 4: a slice of the recurrent product is added. -/
abbrev cond0_2 (i : grid0.Coords) : Prop := (Scalar.cmpi .ne (Scalar.extui (Scalar.cmpi .sge (BitVec.ofNat 32 (i 2).val) 4#32)) 0#32) = 1#1
/-- k = 11: the gates are applied and the results stored. -/
abbrev cond0_3 (i : grid0.Coords) : Prop := k0_cond4 i = 1#1

theorem hcond0_0 : ∀ t : Fin cfg0.N, cond0_0 (grid0.coords t) ↔ t.val % 12 = 0 :=
  (by decide +kernel : ∀ t : Fin grid0.N, cond0_0 (grid0.coords t) ↔ t.val % 12 = 0)
theorem hcond0_1 : ∀ t : Fin cfg0.N, cond0_1 (grid0.coords t) ↔ t.val % 12 < 4 :=
  (by decide +kernel : ∀ t : Fin grid0.N, cond0_1 (grid0.coords t) ↔ t.val % 12 < 4)
theorem hcond0_2 : ∀ t : Fin cfg0.N, cond0_2 (grid0.coords t) ↔ 4 ≤ t.val % 12 :=
  (by decide +kernel : ∀ t : Fin grid0.N, cond0_2 (grid0.coords t) ↔ 4 ≤ t.val % 12)
theorem hcond0_3 : ∀ t : Fin cfg0.N, cond0_3 (grid0.coords t) ↔ t.val % 12 = 11 :=
  (by decide +kernel : ∀ t : Fin grid0.N, cond0_3 (grid0.coords t) ↔ t.val % 12 = 11)

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl
theorem liveAt0_11 : ∀ t : Fin cfg0.N, cfg0.idle 11 (grid0.coords t) = false := fun _ => rfl
theorem liveAt0_12 : ∀ t : Fin cfg0.N, cfg0.idle 12 (grid0.coords t) = false := fun _ => rfl
theorem liveAt0_13 : ∀ t : Fin cfg0.N, cfg0.idle 13 (grid0.coords t) = false := fun _ => rfl
theorem liveAt0_14 : ∀ t : Fin cfg0.N, cfg0.idle 14 (grid0.coords t) = false := fun _ => rfl
/-- Away from k = 11 result window 15 is idle: nothing is stored into it and it is not written back. -/
theorem idleAt0_15 : ∀ t : Fin cfg0.N, ¬cond0_3 (grid0.coords t) → cfg0.idle 15 (grid0.coords t) = true := by decide +kernel
theorem noFlush0_15 : ∀ t : Fin cfg0.N, ¬cond0_3 (grid0.coords t) → (cfg0.win 15).flush t = false := by decide +kernel
/-- At k = 11 it is live. -/
theorem liveAt0_15_last : ∀ t : Fin cfg0.N, cond0_3 (grid0.coords t) → cfg0.idle 15 (grid0.coords t) = false := by decide +kernel
/-- Away from k = 11 result window 16 is idle: nothing is stored into it and it is not written back. -/
theorem idleAt0_16 : ∀ t : Fin cfg0.N, ¬cond0_3 (grid0.coords t) → cfg0.idle 16 (grid0.coords t) = true := by decide +kernel
theorem noFlush0_16 : ∀ t : Fin cfg0.N, ¬cond0_3 (grid0.coords t) → (cfg0.win 16).flush t = false := by decide +kernel
/-- At k = 11 it is live. -/
theorem liveAt0_16_last : ∀ t : Fin cfg0.N, cond0_3 (grid0.coords t) → cfg0.idle 16 (grid0.coords t) = false := by decide +kernel

/-! ## The memory the body is handed -/

abbrev ms0_0 (t : Fin cfg0.N) : Memref sig .tc .vmem S512x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x512 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x512 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x1 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S512x512 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S512x512 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S512x1 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S512x1024 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S512x1024 .f32 := win0_16.stage (cfg0.slots t 16)
abbrev hs0_16 (t : Fin cfg0.N) : (ms0_16 t).IsWhole := hstage0_16 ((cfg0.slots t 16).cast nbuf0_16)
/-- One staging buffer of result window 15: what the body leaves there is stated through its view. -/
abbrev VO0_15 : View sig .tc .vmem S512x1024 .f32 := (Memref.whole cc0_stg15_0 : Memref sig .tc .vmem S512x1024 .f32).view
/-- One staging buffer of result window 16: what the body leaves there is stated through its view. -/
abbrev VO0_16 : View sig .tc .vmem S512x1024 .f32 := (Memref.whole cc0_stg16_0 : Memref sig .tc .vmem S512x1024 .f32).view
/-- Gate accumulator 0, a whole scratch buffer. -/
abbrev scM0_0 : Memref sig .tc .vmem S512x1024 .f32 := Memref.whole cc0_scratch0
abbrev VS0_0 : View sig .tc .vmem S512x1024 .f32 := scM0_0.view
/-- Gate accumulator 1, a whole scratch buffer. -/
abbrev scM0_1 : Memref sig .tc .vmem S512x1024 .f32 := Memref.whole cc0_scratch1
abbrev VS0_1 : View sig .tc .vmem S512x1024 .f32 := scM0_1.view
/-- Gate accumulator 2, a whole scratch buffer. -/
abbrev scM0_2 : Memref sig .tc .vmem S512x1024 .f32 := Memref.whole cc0_scratch2
abbrev VS0_2 : View sig .tc .vmem S512x1024 .f32 := scM0_2.view
/-- Gate accumulator 3, a whole scratch buffer. -/
abbrev scM0_3 : Memref sig .tc .vmem S512x1024 .f32 := Memref.whole cc0_scratch3
abbrev VS0_3 : View sig .tc .vmem S512x1024 .f32 := scM0_3.view

/-- What the region lends the body besides the windows: the four accumulators, each whole at some contents, and
    the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Gen

end
-- ==== Proof.Bits.RunFirst.lean ====
/-
  The kernel body run once, symbolically, at a point with k = 0: the four accumulators are cleared, then the first slice of (input weights) x (input) is added to each. Nothing the accumulators held before is read after the clearing stores, so they may hold anything on entry; the result windows are idle and handed back as they came.
  The run is a triple: from the windows' staging buffers at given contents and the accumulators, the body runs to its
  end without a fault, leaves every input buffer as it was, and leaves in each buffer it stores into the list of
  rectangles written with their values (the witness the run finds).
-/
import proofs.«125515_j24756191494330_2_alg».proof.Proof.Bits.Cases

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's triple when k = 0: the four accumulators are cleared, then the first slice of (input weights) x (input) is added to each. Nothing the accumulators held before is read after the clearing stores, so they may hold anything on entry; the result windows are idle and handed back as they came. -/
noncomputable def runFirst (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x1 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x1 .f32) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x1 .f32) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x1 .f32) (harg17 : arg17.IsWhole) (arg18 : Memref sig .tc .vmem S512x1024 .f32) (harg18 : arg18.IsWhole) (arg19 : Memref sig .tc .vmem S512x1024 .f32) (harg19 : arg19.IsWhole) (arg20 : Memref sig .tc .vmem S512x1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1024 .f32) (harg23 : arg23.IsWhole) (hc0 : cond0_0 i) (hc1 : cond0_1 i) (hc2 : ¬cond0_2 i) (hc3 : ¬cond0_3 i)
    (x0 : Vec F S512x1024 .bf16) (x1 : Vec F S512x1024 .bf16) (x2 : Vec F S512x1024 .f32) (x3 : Vec F S512x512 .bf16) (x4 : Vec F S512x512 .bf16) (x5 : Vec F S512x1 .f32) (x6 : Vec F S512x512 .bf16) (x7 : Vec F S512x512 .bf16) (x8 : Vec F S512x1 .f32) (x9 : Vec F S512x512 .bf16) (x10 : Vec F S512x512 .bf16) (x11 : Vec F S512x1 .f32) (x12 : Vec F S512x512 .bf16) (x13 : Vec F S512x512 .bf16) (x14 : Vec F S512x1 .f32) :
    Σ' (L15 : List (View.Piece (Elt F) S512x1024 .f32)) (L16 : List (View.Piece (Elt F) S512x1024 .f32)) (LS0 : List (View.Piece (Elt F) S512x1024 .f32)) (LS1 : List (View.Piece (Elt F) S512x1024 .f32)) (LS2 : List (View.Piece (Elt F) S512x1024 .f32)), { LS3 : List (View.Piece (Elt F) S512x1024 .f32) //
      ∀ (xi15 xi16 : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare xi15 ∗ owns (c : Thread nD τ) arg19 fullShare xi16 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare xi15 ∗ owns (c : Thread nD τ) arg19 fullShare xi16 ∗ (∃ f, arg20.view.loc (c : Thread nD τ) ↦[arg20.view.set]{fullShare} arg20.view.writes (Elt F) f LS0) ∗ (∃ f, arg21.view.loc (c : Thread nD τ) ↦[arg21.view.set]{fullShare} arg21.view.writes (Elt F) f LS1) ∗ (∃ f, arg22.view.loc (c : Thread nD τ) ↦[arg22.view.set]{fullShare} arg22.view.writes (Elt F) f LS2) ∗ (∃ f, arg23.view.loc (c : Thread nD τ) ↦[arg23.view.set]{fullShare} arg23.view.writes (Elt F) f LS3)) -∗ K ⟨⟩))
          ⊢ wp frame (wpE (defs₀ (F := F)) Variants.none c none) E (cc0__lstm_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨[], [], ?_, ?_, ?_, ?_, fun xi15 xi16 E K => ?run⟩
  case run =>
    simp only [cc0__lstm_kernel_eq_skeleton]; unfold cc0__lstm_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    isplitl [H16]
    · iexists _; isplitr; · ipureintro; exact harg19.read_unread _
      iexact H16
    isplitl [HS0]; · iexists _; iexact HS0
    isplitl [HS1]; · iexists _; iexact HS1
    isplitl [HS2]; · iexists _; iexact HS2
    iexists _; iexact HS3

end Cert.Kernel.Gen

end
-- ==== Proof.Bits.RunInput.lean ====
/-
  The kernel body run once, symbolically, at a point with 1 <= k <= 3: one more slice of (input weights) x (input) is added to each accumulator, over what the point before left in it; the result windows are idle.
  The run is a triple: from the windows' staging buffers at given contents and the accumulators, the body runs to its
  end without a fault, leaves every input buffer as it was, and leaves in each buffer it stores into the list of
  rectangles written with their values (the witness the run finds).
-/
import proofs.«125515_j24756191494330_2_alg».proof.Proof.Bits.RunFirst

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's triple when 1 <= k <= 3: one more slice of (input weights) x (input) is added to each accumulator, over what the point before left in it; the result windows are idle. -/
noncomputable def runInput (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x1 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x1 .f32) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x1 .f32) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x1 .f32) (harg17 : arg17.IsWhole) (arg18 : Memref sig .tc .vmem S512x1024 .f32) (harg18 : arg18.IsWhole) (arg19 : Memref sig .tc .vmem S512x1024 .f32) (harg19 : arg19.IsWhole) (arg20 : Memref sig .tc .vmem S512x1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1024 .f32) (harg23 : arg23.IsWhole) (hc0 : ¬cond0_0 i) (hc1 : cond0_1 i) (hc2 : ¬cond0_2 i) (hc3 : ¬cond0_3 i)
    (x0 : Vec F S512x1024 .bf16) (x1 : Vec F S512x1024 .bf16) (x2 : Vec F S512x1024 .f32) (x3 : Vec F S512x512 .bf16) (x4 : Vec F S512x512 .bf16) (x5 : Vec F S512x1 .f32) (x6 : Vec F S512x512 .bf16) (x7 : Vec F S512x512 .bf16) (x8 : Vec F S512x1 .f32) (x9 : Vec F S512x512 .bf16) (x10 : Vec F S512x512 .bf16) (x11 : Vec F S512x1 .f32) (x12 : Vec F S512x512 .bf16) (x13 : Vec F S512x512 .bf16) (x14 : Vec F S512x1 .f32) (xs0 xs1 xs2 xs3 : Vec F S512x1024 .f32) :
    Σ' (L15 : List (View.Piece (Elt F) S512x1024 .f32)) (L16 : List (View.Piece (Elt F) S512x1024 .f32)) (LS0 : List (View.Piece (Elt F) S512x1024 .f32)) (LS1 : List (View.Piece (Elt F) S512x1024 .f32)) (LS2 : List (View.Piece (Elt F) S512x1024 .f32)), { LS3 : List (View.Piece (Elt F) S512x1024 .f32) //
      ∀ (xi15 xi16 : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare xi15 ∗ owns (c : Thread nD τ) arg19 fullShare xi16 ∗ owns (c : Thread nD τ) arg20 fullShare xs0 ∗ owns (c : Thread nD τ) arg21 fullShare xs1 ∗ owns (c : Thread nD τ) arg22 fullShare xs2 ∗ owns (c : Thread nD τ) arg23 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare xi15 ∗ owns (c : Thread nD τ) arg19 fullShare xi16 ∗ (∃ f, arg20.view.loc (c : Thread nD τ) ↦[arg20.view.set]{fullShare} arg20.view.writes (Elt F) f LS0) ∗ (∃ f, arg21.view.loc (c : Thread nD τ) ↦[arg21.view.set]{fullShare} arg21.view.writes (Elt F) f LS1) ∗ (∃ f, arg22.view.loc (c : Thread nD τ) ↦[arg22.view.set]{fullShare} arg22.view.writes (Elt F) f LS2) ∗ (∃ f, arg23.view.loc (c : Thread nD τ) ↦[arg23.view.set]{fullShare} arg23.view.writes (Elt F) f LS3)) -∗ K ⟨⟩))
          ⊢ wp frame (wpE (defs₀ (F := F)) Variants.none c none) E (cc0__lstm_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨[], [], ?_, ?_, ?_, ?_, fun xi15 xi16 E K => ?run⟩
  case run =>
    simp only [cc0__lstm_kernel_eq_skeleton]; unfold cc0__lstm_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hfs0; obtain rfl := harg21.eq_unread hfs1; obtain rfl := harg22.eq_unread hfs2; obtain rfl := harg23.eq_unread hfs3
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    isplitl [H16]
    · iexists _; isplitr; · ipureintro; exact harg19.read_unread _
      iexact H16
    isplitl [HS0]; · iexists _; iexact HS0
    isplitl [HS1]; · iexists _; iexact HS1
    isplitl [HS2]; · iexists _; iexact HS2
    iexists _; iexact HS3

end Cert.Kernel.Gen

end
-- ==== Proof.Bits.RunHidden.lean ====
/-
  The kernel body run once, symbolically, at a point with 4 <= k <= 10: one slice of (recurrent weights) x (previous output) is added to each accumulator, over what the point before left in it; the result windows are idle.
  The run is a triple: from the windows' staging buffers at given contents and the accumulators, the body runs to its
  end without a fault, leaves every input buffer as it was, and leaves in each buffer it stores into the list of
  rectangles written with their values (the witness the run finds).
-/
import proofs.«125515_j24756191494330_2_alg».proof.Proof.Bits.RunInput

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's triple when 4 <= k <= 10: one slice of (recurrent weights) x (previous output) is added to each accumulator, over what the point before left in it; the result windows are idle. -/
noncomputable def runHidden (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x1 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x1 .f32) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x1 .f32) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x1 .f32) (harg17 : arg17.IsWhole) (arg18 : Memref sig .tc .vmem S512x1024 .f32) (harg18 : arg18.IsWhole) (arg19 : Memref sig .tc .vmem S512x1024 .f32) (harg19 : arg19.IsWhole) (arg20 : Memref sig .tc .vmem S512x1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1024 .f32) (harg23 : arg23.IsWhole) (hc0 : ¬cond0_0 i) (hc1 : ¬cond0_1 i) (hc2 : cond0_2 i) (hc3 : ¬cond0_3 i)
    (x0 : Vec F S512x1024 .bf16) (x1 : Vec F S512x1024 .bf16) (x2 : Vec F S512x1024 .f32) (x3 : Vec F S512x512 .bf16) (x4 : Vec F S512x512 .bf16) (x5 : Vec F S512x1 .f32) (x6 : Vec F S512x512 .bf16) (x7 : Vec F S512x512 .bf16) (x8 : Vec F S512x1 .f32) (x9 : Vec F S512x512 .bf16) (x10 : Vec F S512x512 .bf16) (x11 : Vec F S512x1 .f32) (x12 : Vec F S512x512 .bf16) (x13 : Vec F S512x512 .bf16) (x14 : Vec F S512x1 .f32) (xs0 xs1 xs2 xs3 : Vec F S512x1024 .f32) :
    Σ' (L15 : List (View.Piece (Elt F) S512x1024 .f32)) (L16 : List (View.Piece (Elt F) S512x1024 .f32)) (LS0 : List (View.Piece (Elt F) S512x1024 .f32)) (LS1 : List (View.Piece (Elt F) S512x1024 .f32)) (LS2 : List (View.Piece (Elt F) S512x1024 .f32)), { LS3 : List (View.Piece (Elt F) S512x1024 .f32) //
      ∀ (xi15 xi16 : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare xi15 ∗ owns (c : Thread nD τ) arg19 fullShare xi16 ∗ owns (c : Thread nD τ) arg20 fullShare xs0 ∗ owns (c : Thread nD τ) arg21 fullShare xs1 ∗ owns (c : Thread nD τ) arg22 fullShare xs2 ∗ owns (c : Thread nD τ) arg23 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare xi15 ∗ owns (c : Thread nD τ) arg19 fullShare xi16 ∗ (∃ f, arg20.view.loc (c : Thread nD τ) ↦[arg20.view.set]{fullShare} arg20.view.writes (Elt F) f LS0) ∗ (∃ f, arg21.view.loc (c : Thread nD τ) ↦[arg21.view.set]{fullShare} arg21.view.writes (Elt F) f LS1) ∗ (∃ f, arg22.view.loc (c : Thread nD τ) ↦[arg22.view.set]{fullShare} arg22.view.writes (Elt F) f LS2) ∗ (∃ f, arg23.view.loc (c : Thread nD τ) ↦[arg23.view.set]{fullShare} arg23.view.writes (Elt F) f LS3)) -∗ K ⟨⟩))
          ⊢ wp frame (wpE (defs₀ (F := F)) Variants.none c none) E (cc0__lstm_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨[], [], ?_, ?_, ?_, ?_, fun xi15 xi16 E K => ?run⟩
  case run =>
    simp only [cc0__lstm_kernel_eq_skeleton]; unfold cc0__lstm_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hfs0; obtain rfl := harg21.eq_unread hfs1; obtain rfl := harg22.eq_unread hfs2; obtain rfl := harg23.eq_unread hfs3
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    isplitl [H16]
    · iexists _; isplitr; · ipureintro; exact harg19.read_unread _
      iexact H16
    isplitl [HS0]; · iexists _; iexact HS0
    isplitl [HS1]; · iexists _; iexact HS1
    isplitl [HS2]; · iexists _; iexact HS2
    iexists _; iexact HS3

end Cert.Kernel.Gen

end
-- ==== Proof.Bits.RunLast.lean ====
/-
  The kernel body run once, symbolically, at a point with k = 11: the last recurrent slice is added, then each accumulator is overwritten by its gate (bias added, sigmoid or tanh applied), and the new state and the output are stored into the two result windows.
  The run is a triple: from the windows' staging buffers at given contents and the accumulators, the body runs to its
  end without a fault, leaves every input buffer as it was, and leaves in each buffer it stores into the list of
  rectangles written with their values (the witness the run finds).
-/
import proofs.«125515_j24756191494330_2_alg».proof.Proof.Bits.RunHidden

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's triple when k = 11: the last recurrent slice is added, then each accumulator is overwritten by its gate (bias added, sigmoid or tanh applied), and the new state and the output are stored into the two result windows. -/
noncomputable def runLast (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x1 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x1 .f32) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x1 .f32) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x1 .f32) (harg17 : arg17.IsWhole) (arg18 : Memref sig .tc .vmem S512x1024 .f32) (harg18 : arg18.IsWhole) (arg19 : Memref sig .tc .vmem S512x1024 .f32) (harg19 : arg19.IsWhole) (arg20 : Memref sig .tc .vmem S512x1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1024 .f32) (harg23 : arg23.IsWhole) (hc0 : ¬cond0_0 i) (hc1 : ¬cond0_1 i) (hc2 : cond0_2 i) (hc3 : cond0_3 i)
    (x0 : Vec F S512x1024 .bf16) (x1 : Vec F S512x1024 .bf16) (x2 : Vec F S512x1024 .f32) (x3 : Vec F S512x512 .bf16) (x4 : Vec F S512x512 .bf16) (x5 : Vec F S512x1 .f32) (x6 : Vec F S512x512 .bf16) (x7 : Vec F S512x512 .bf16) (x8 : Vec F S512x1 .f32) (x9 : Vec F S512x512 .bf16) (x10 : Vec F S512x512 .bf16) (x11 : Vec F S512x1 .f32) (x12 : Vec F S512x512 .bf16) (x13 : Vec F S512x512 .bf16) (x14 : Vec F S512x1 .f32) (xs0 xs1 xs2 xs3 : Vec F S512x1024 .f32) :
    Σ' (L15 : List (View.Piece (Elt F) S512x1024 .f32)) (L16 : List (View.Piece (Elt F) S512x1024 .f32)) (LS0 : List (View.Piece (Elt F) S512x1024 .f32)) (LS1 : List (View.Piece (Elt F) S512x1024 .f32)) (LS2 : List (View.Piece (Elt F) S512x1024 .f32)), { LS3 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ (∃ d, owns (c : Thread nD τ) arg18 fullShare d) ∗ (∃ d, owns (c : Thread nD τ) arg19 fullShare d) ∗ owns (c : Thread nD τ) arg20 fullShare xs0 ∗ owns (c : Thread nD τ) arg21 fullShare xs1 ∗ owns (c : Thread nD τ) arg22 fullShare xs2 ∗ owns (c : Thread nD τ) arg23 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ (∃ f, arg18.view.loc (c : Thread nD τ) ↦[arg18.view.set]{fullShare} arg18.view.writes (Elt F) f L15) ∗ (∃ f, arg19.view.loc (c : Thread nD τ) ↦[arg19.view.set]{fullShare} arg19.view.writes (Elt F) f L16) ∗ (∃ f, arg20.view.loc (c : Thread nD τ) ↦[arg20.view.set]{fullShare} arg20.view.writes (Elt F) f LS0) ∗ (∃ f, arg21.view.loc (c : Thread nD τ) ↦[arg21.view.set]{fullShare} arg21.view.writes (Elt F) f LS1) ∗ (∃ f, arg22.view.loc (c : Thread nD τ) ↦[arg22.view.set]{fullShare} arg22.view.writes (Elt F) f LS2) ∗ (∃ f, arg23.view.loc (c : Thread nD τ) ↦[arg23.view.set]{fullShare} arg23.view.writes (Elt F) f LS3)) -∗ K ⟨⟩))
          ⊢ wp frame (wpE (defs₀ (F := F)) Variants.none c none) E (cc0__lstm_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, ?_, fun E K => ?run⟩
  case run =>
    simp only [cc0__lstm_kernel_eq_skeleton]; unfold cc0__lstm_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg20.eq_unread hfs0; obtain rfl := harg21.eq_unread hfs1; obtain rfl := harg22.eq_unread hfs2; obtain rfl := harg23.eq_unread hfs3
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]; · iexists _; iexact H15
    isplitl [H16]; · iexists _; iexact H16
    isplitl [HS0]; · iexists _; iexact HS0
    isplitl [HS1]; · iexists _; iexact HS1
    isplitl [HS2]; · iexists _; iexact HS2
    iexists _; iexact HS3

end Cert.Kernel.Gen

end
-- ==== Proof.Bits.Data.lean ====
/-
  What the body leaves behind, point by point. Each gate accumulator is a scratch buffer the kernel keeps between
  points, so what it holds after point t is defined by recursion on t: at k = 0 the case's own stores (the cleared
  buffer plus one slice), at every other k the case's stores over what point t - 1 left. The two result buffers hold
  the case's stores at k = 11 and are idle elsewhere. From this the pipeline's proof data: the arrays as the region
  finds them, each input buffer at its block, each result buffer and accumulator at the recursion's value, and the
  invariant that carries the accumulators from one point to the next.
-/
import proofs.«125515_j24756191494330_2_alg».proof.Proof.Bits.RunLast

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Every store covers its whole buffer -/

theorem coverFirst_LS0 (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x1 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x1 .f32) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x1 .f32) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x1 .f32) (harg17 : arg17.IsWhole) (arg18 : Memref sig .tc .vmem S512x1024 .f32) (harg18 : arg18.IsWhole) (arg19 : Memref sig .tc .vmem S512x1024 .f32) (harg19 : arg19.IsWhole) (arg20 : Memref sig .tc .vmem S512x1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1024 .f32) (harg23 : arg23.IsWhole) (hc0 : cond0_0 i) (hc1 : cond0_1 i) (hc2 : ¬cond0_2 i) (hc3 : ¬cond0_3 i)
    (x0 : Vec F S512x1024 .bf16) (x1 : Vec F S512x1024 .bf16) (x2 : Vec F S512x1024 .f32) (x3 : Vec F S512x512 .bf16) (x4 : Vec F S512x512 .bf16) (x5 : Vec F S512x1 .f32) (x6 : Vec F S512x512 .bf16) (x7 : Vec F S512x512 .bf16) (x8 : Vec F S512x1 .f32) (x9 : Vec F S512x512 .bf16) (x10 : Vec F S512x512 .bf16) (x11 : Vec F S512x1 .f32) (x12 : Vec F S512x512 .bf16) (x13 : Vec F S512x512 .bf16) (x14 : Vec F S512x1 .f32) (y : S512x1024.Idx) :
    ∃ pc ∈ (runFirst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14).2.2.1, y ∈ pc.1.set :=
  View.cover_of_tiledL (runFirst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14).2.2.1 S512x1024.size (by sl_kernel_rfl) y
theorem coverFirst_LS1 (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x1 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x1 .f32) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x1 .f32) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x1 .f32) (harg17 : arg17.IsWhole) (arg18 : Memref sig .tc .vmem S512x1024 .f32) (harg18 : arg18.IsWhole) (arg19 : Memref sig .tc .vmem S512x1024 .f32) (harg19 : arg19.IsWhole) (arg20 : Memref sig .tc .vmem S512x1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1024 .f32) (harg23 : arg23.IsWhole) (hc0 : cond0_0 i) (hc1 : cond0_1 i) (hc2 : ¬cond0_2 i) (hc3 : ¬cond0_3 i)
    (x0 : Vec F S512x1024 .bf16) (x1 : Vec F S512x1024 .bf16) (x2 : Vec F S512x1024 .f32) (x3 : Vec F S512x512 .bf16) (x4 : Vec F S512x512 .bf16) (x5 : Vec F S512x1 .f32) (x6 : Vec F S512x512 .bf16) (x7 : Vec F S512x512 .bf16) (x8 : Vec F S512x1 .f32) (x9 : Vec F S512x512 .bf16) (x10 : Vec F S512x512 .bf16) (x11 : Vec F S512x1 .f32) (x12 : Vec F S512x512 .bf16) (x13 : Vec F S512x512 .bf16) (x14 : Vec F S512x1 .f32) (y : S512x1024.Idx) :
    ∃ pc ∈ (runFirst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14).2.2.2.1, y ∈ pc.1.set :=
  View.cover_of_tiledL (runFirst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14).2.2.2.1 S512x1024.size (by sl_kernel_rfl) y
theorem coverFirst_LS2 (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x1 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x1 .f32) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x1 .f32) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x1 .f32) (harg17 : arg17.IsWhole) (arg18 : Memref sig .tc .vmem S512x1024 .f32) (harg18 : arg18.IsWhole) (arg19 : Memref sig .tc .vmem S512x1024 .f32) (harg19 : arg19.IsWhole) (arg20 : Memref sig .tc .vmem S512x1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1024 .f32) (harg23 : arg23.IsWhole) (hc0 : cond0_0 i) (hc1 : cond0_1 i) (hc2 : ¬cond0_2 i) (hc3 : ¬cond0_3 i)
    (x0 : Vec F S512x1024 .bf16) (x1 : Vec F S512x1024 .bf16) (x2 : Vec F S512x1024 .f32) (x3 : Vec F S512x512 .bf16) (x4 : Vec F S512x512 .bf16) (x5 : Vec F S512x1 .f32) (x6 : Vec F S512x512 .bf16) (x7 : Vec F S512x512 .bf16) (x8 : Vec F S512x1 .f32) (x9 : Vec F S512x512 .bf16) (x10 : Vec F S512x512 .bf16) (x11 : Vec F S512x1 .f32) (x12 : Vec F S512x512 .bf16) (x13 : Vec F S512x512 .bf16) (x14 : Vec F S512x1 .f32) (y : S512x1024.Idx) :
    ∃ pc ∈ (runFirst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14).2.2.2.2.1, y ∈ pc.1.set :=
  View.cover_of_tiledL (runFirst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14).2.2.2.2.1 S512x1024.size (by sl_kernel_rfl) y
theorem coverFirst_LS3 (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x1 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x1 .f32) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x1 .f32) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x1 .f32) (harg17 : arg17.IsWhole) (arg18 : Memref sig .tc .vmem S512x1024 .f32) (harg18 : arg18.IsWhole) (arg19 : Memref sig .tc .vmem S512x1024 .f32) (harg19 : arg19.IsWhole) (arg20 : Memref sig .tc .vmem S512x1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1024 .f32) (harg23 : arg23.IsWhole) (hc0 : cond0_0 i) (hc1 : cond0_1 i) (hc2 : ¬cond0_2 i) (hc3 : ¬cond0_3 i)
    (x0 : Vec F S512x1024 .bf16) (x1 : Vec F S512x1024 .bf16) (x2 : Vec F S512x1024 .f32) (x3 : Vec F S512x512 .bf16) (x4 : Vec F S512x512 .bf16) (x5 : Vec F S512x1 .f32) (x6 : Vec F S512x512 .bf16) (x7 : Vec F S512x512 .bf16) (x8 : Vec F S512x1 .f32) (x9 : Vec F S512x512 .bf16) (x10 : Vec F S512x512 .bf16) (x11 : Vec F S512x1 .f32) (x12 : Vec F S512x512 .bf16) (x13 : Vec F S512x512 .bf16) (x14 : Vec F S512x1 .f32) (y : S512x1024.Idx) :
    ∃ pc ∈ (runFirst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14).2.2.2.2.2.1, y ∈ pc.1.set :=
  View.cover_of_tiledL (runFirst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14).2.2.2.2.2.1 S512x1024.size (by sl_kernel_rfl) y
theorem coverInput_LS0 (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x1 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x1 .f32) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x1 .f32) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x1 .f32) (harg17 : arg17.IsWhole) (arg18 : Memref sig .tc .vmem S512x1024 .f32) (harg18 : arg18.IsWhole) (arg19 : Memref sig .tc .vmem S512x1024 .f32) (harg19 : arg19.IsWhole) (arg20 : Memref sig .tc .vmem S512x1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1024 .f32) (harg23 : arg23.IsWhole) (hc0 : ¬cond0_0 i) (hc1 : cond0_1 i) (hc2 : ¬cond0_2 i) (hc3 : ¬cond0_3 i)
    (x0 : Vec F S512x1024 .bf16) (x1 : Vec F S512x1024 .bf16) (x2 : Vec F S512x1024 .f32) (x3 : Vec F S512x512 .bf16) (x4 : Vec F S512x512 .bf16) (x5 : Vec F S512x1 .f32) (x6 : Vec F S512x512 .bf16) (x7 : Vec F S512x512 .bf16) (x8 : Vec F S512x1 .f32) (x9 : Vec F S512x512 .bf16) (x10 : Vec F S512x512 .bf16) (x11 : Vec F S512x1 .f32) (x12 : Vec F S512x512 .bf16) (x13 : Vec F S512x512 .bf16) (x14 : Vec F S512x1 .f32) (xs0 xs1 xs2 xs3 : Vec F S512x1024 .f32) (y : S512x1024.Idx) :
    ∃ pc ∈ (runInput c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14 xs0 xs1 xs2 xs3).2.2.1, y ∈ pc.1.set :=
  View.cover_of_tiledL (runInput c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14 xs0 xs1 xs2 xs3).2.2.1 S512x1024.size (by sl_kernel_rfl) y
theorem coverInput_LS1 (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x1 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x1 .f32) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x1 .f32) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x1 .f32) (harg17 : arg17.IsWhole) (arg18 : Memref sig .tc .vmem S512x1024 .f32) (harg18 : arg18.IsWhole) (arg19 : Memref sig .tc .vmem S512x1024 .f32) (harg19 : arg19.IsWhole) (arg20 : Memref sig .tc .vmem S512x1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1024 .f32) (harg23 : arg23.IsWhole) (hc0 : ¬cond0_0 i) (hc1 : cond0_1 i) (hc2 : ¬cond0_2 i) (hc3 : ¬cond0_3 i)
    (x0 : Vec F S512x1024 .bf16) (x1 : Vec F S512x1024 .bf16) (x2 : Vec F S512x1024 .f32) (x3 : Vec F S512x512 .bf16) (x4 : Vec F S512x512 .bf16) (x5 : Vec F S512x1 .f32) (x6 : Vec F S512x512 .bf16) (x7 : Vec F S512x512 .bf16) (x8 : Vec F S512x1 .f32) (x9 : Vec F S512x512 .bf16) (x10 : Vec F S512x512 .bf16) (x11 : Vec F S512x1 .f32) (x12 : Vec F S512x512 .bf16) (x13 : Vec F S512x512 .bf16) (x14 : Vec F S512x1 .f32) (xs0 xs1 xs2 xs3 : Vec F S512x1024 .f32) (y : S512x1024.Idx) :
    ∃ pc ∈ (runInput c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14 xs0 xs1 xs2 xs3).2.2.2.1, y ∈ pc.1.set :=
  View.cover_of_tiledL (runInput c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14 xs0 xs1 xs2 xs3).2.2.2.1 S512x1024.size (by sl_kernel_rfl) y
theorem coverInput_LS2 (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x1 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x1 .f32) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x1 .f32) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x1 .f32) (harg17 : arg17.IsWhole) (arg18 : Memref sig .tc .vmem S512x1024 .f32) (harg18 : arg18.IsWhole) (arg19 : Memref sig .tc .vmem S512x1024 .f32) (harg19 : arg19.IsWhole) (arg20 : Memref sig .tc .vmem S512x1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1024 .f32) (harg23 : arg23.IsWhole) (hc0 : ¬cond0_0 i) (hc1 : cond0_1 i) (hc2 : ¬cond0_2 i) (hc3 : ¬cond0_3 i)
    (x0 : Vec F S512x1024 .bf16) (x1 : Vec F S512x1024 .bf16) (x2 : Vec F S512x1024 .f32) (x3 : Vec F S512x512 .bf16) (x4 : Vec F S512x512 .bf16) (x5 : Vec F S512x1 .f32) (x6 : Vec F S512x512 .bf16) (x7 : Vec F S512x512 .bf16) (x8 : Vec F S512x1 .f32) (x9 : Vec F S512x512 .bf16) (x10 : Vec F S512x512 .bf16) (x11 : Vec F S512x1 .f32) (x12 : Vec F S512x512 .bf16) (x13 : Vec F S512x512 .bf16) (x14 : Vec F S512x1 .f32) (xs0 xs1 xs2 xs3 : Vec F S512x1024 .f32) (y : S512x1024.Idx) :
    ∃ pc ∈ (runInput c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14 xs0 xs1 xs2 xs3).2.2.2.2.1, y ∈ pc.1.set :=
  View.cover_of_tiledL (runInput c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14 xs0 xs1 xs2 xs3).2.2.2.2.1 S512x1024.size (by sl_kernel_rfl) y
theorem coverInput_LS3 (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x1 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x1 .f32) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x1 .f32) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x1 .f32) (harg17 : arg17.IsWhole) (arg18 : Memref sig .tc .vmem S512x1024 .f32) (harg18 : arg18.IsWhole) (arg19 : Memref sig .tc .vmem S512x1024 .f32) (harg19 : arg19.IsWhole) (arg20 : Memref sig .tc .vmem S512x1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1024 .f32) (harg23 : arg23.IsWhole) (hc0 : ¬cond0_0 i) (hc1 : cond0_1 i) (hc2 : ¬cond0_2 i) (hc3 : ¬cond0_3 i)
    (x0 : Vec F S512x1024 .bf16) (x1 : Vec F S512x1024 .bf16) (x2 : Vec F S512x1024 .f32) (x3 : Vec F S512x512 .bf16) (x4 : Vec F S512x512 .bf16) (x5 : Vec F S512x1 .f32) (x6 : Vec F S512x512 .bf16) (x7 : Vec F S512x512 .bf16) (x8 : Vec F S512x1 .f32) (x9 : Vec F S512x512 .bf16) (x10 : Vec F S512x512 .bf16) (x11 : Vec F S512x1 .f32) (x12 : Vec F S512x512 .bf16) (x13 : Vec F S512x512 .bf16) (x14 : Vec F S512x1 .f32) (xs0 xs1 xs2 xs3 : Vec F S512x1024 .f32) (y : S512x1024.Idx) :
    ∃ pc ∈ (runInput c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14 xs0 xs1 xs2 xs3).2.2.2.2.2.1, y ∈ pc.1.set :=
  View.cover_of_tiledL (runInput c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14 xs0 xs1 xs2 xs3).2.2.2.2.2.1 S512x1024.size (by sl_kernel_rfl) y
theorem coverHidden_LS0 (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x1 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x1 .f32) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x1 .f32) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x1 .f32) (harg17 : arg17.IsWhole) (arg18 : Memref sig .tc .vmem S512x1024 .f32) (harg18 : arg18.IsWhole) (arg19 : Memref sig .tc .vmem S512x1024 .f32) (harg19 : arg19.IsWhole) (arg20 : Memref sig .tc .vmem S512x1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1024 .f32) (harg23 : arg23.IsWhole) (hc0 : ¬cond0_0 i) (hc1 : ¬cond0_1 i) (hc2 : cond0_2 i) (hc3 : ¬cond0_3 i)
    (x0 : Vec F S512x1024 .bf16) (x1 : Vec F S512x1024 .bf16) (x2 : Vec F S512x1024 .f32) (x3 : Vec F S512x512 .bf16) (x4 : Vec F S512x512 .bf16) (x5 : Vec F S512x1 .f32) (x6 : Vec F S512x512 .bf16) (x7 : Vec F S512x512 .bf16) (x8 : Vec F S512x1 .f32) (x9 : Vec F S512x512 .bf16) (x10 : Vec F S512x512 .bf16) (x11 : Vec F S512x1 .f32) (x12 : Vec F S512x512 .bf16) (x13 : Vec F S512x512 .bf16) (x14 : Vec F S512x1 .f32) (xs0 xs1 xs2 xs3 : Vec F S512x1024 .f32) (y : S512x1024.Idx) :
    ∃ pc ∈ (runHidden c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14 xs0 xs1 xs2 xs3).2.2.1, y ∈ pc.1.set :=
  View.cover_of_tiledL (runHidden c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14 xs0 xs1 xs2 xs3).2.2.1 S512x1024.size (by sl_kernel_rfl) y
theorem coverHidden_LS1 (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x1 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x1 .f32) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x1 .f32) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x1 .f32) (harg17 : arg17.IsWhole) (arg18 : Memref sig .tc .vmem S512x1024 .f32) (harg18 : arg18.IsWhole) (arg19 : Memref sig .tc .vmem S512x1024 .f32) (harg19 : arg19.IsWhole) (arg20 : Memref sig .tc .vmem S512x1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1024 .f32) (harg23 : arg23.IsWhole) (hc0 : ¬cond0_0 i) (hc1 : ¬cond0_1 i) (hc2 : cond0_2 i) (hc3 : ¬cond0_3 i)
    (x0 : Vec F S512x1024 .bf16) (x1 : Vec F S512x1024 .bf16) (x2 : Vec F S512x1024 .f32) (x3 : Vec F S512x512 .bf16) (x4 : Vec F S512x512 .bf16) (x5 : Vec F S512x1 .f32) (x6 : Vec F S512x512 .bf16) (x7 : Vec F S512x512 .bf16) (x8 : Vec F S512x1 .f32) (x9 : Vec F S512x512 .bf16) (x10 : Vec F S512x512 .bf16) (x11 : Vec F S512x1 .f32) (x12 : Vec F S512x512 .bf16) (x13 : Vec F S512x512 .bf16) (x14 : Vec F S512x1 .f32) (xs0 xs1 xs2 xs3 : Vec F S512x1024 .f32) (y : S512x1024.Idx) :
    ∃ pc ∈ (runHidden c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14 xs0 xs1 xs2 xs3).2.2.2.1, y ∈ pc.1.set :=
  View.cover_of_tiledL (runHidden c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14 xs0 xs1 xs2 xs3).2.2.2.1 S512x1024.size (by sl_kernel_rfl) y
theorem coverHidden_LS2 (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x1 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x1 .f32) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x1 .f32) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x1 .f32) (harg17 : arg17.IsWhole) (arg18 : Memref sig .tc .vmem S512x1024 .f32) (harg18 : arg18.IsWhole) (arg19 : Memref sig .tc .vmem S512x1024 .f32) (harg19 : arg19.IsWhole) (arg20 : Memref sig .tc .vmem S512x1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1024 .f32) (harg23 : arg23.IsWhole) (hc0 : ¬cond0_0 i) (hc1 : ¬cond0_1 i) (hc2 : cond0_2 i) (hc3 : ¬cond0_3 i)
    (x0 : Vec F S512x1024 .bf16) (x1 : Vec F S512x1024 .bf16) (x2 : Vec F S512x1024 .f32) (x3 : Vec F S512x512 .bf16) (x4 : Vec F S512x512 .bf16) (x5 : Vec F S512x1 .f32) (x6 : Vec F S512x512 .bf16) (x7 : Vec F S512x512 .bf16) (x8 : Vec F S512x1 .f32) (x9 : Vec F S512x512 .bf16) (x10 : Vec F S512x512 .bf16) (x11 : Vec F S512x1 .f32) (x12 : Vec F S512x512 .bf16) (x13 : Vec F S512x512 .bf16) (x14 : Vec F S512x1 .f32) (xs0 xs1 xs2 xs3 : Vec F S512x1024 .f32) (y : S512x1024.Idx) :
    ∃ pc ∈ (runHidden c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14 xs0 xs1 xs2 xs3).2.2.2.2.1, y ∈ pc.1.set :=
  View.cover_of_tiledL (runHidden c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14 xs0 xs1 xs2 xs3).2.2.2.2.1 S512x1024.size (by sl_kernel_rfl) y
theorem coverHidden_LS3 (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x1 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x1 .f32) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x1 .f32) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x1 .f32) (harg17 : arg17.IsWhole) (arg18 : Memref sig .tc .vmem S512x1024 .f32) (harg18 : arg18.IsWhole) (arg19 : Memref sig .tc .vmem S512x1024 .f32) (harg19 : arg19.IsWhole) (arg20 : Memref sig .tc .vmem S512x1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1024 .f32) (harg23 : arg23.IsWhole) (hc0 : ¬cond0_0 i) (hc1 : ¬cond0_1 i) (hc2 : cond0_2 i) (hc3 : ¬cond0_3 i)
    (x0 : Vec F S512x1024 .bf16) (x1 : Vec F S512x1024 .bf16) (x2 : Vec F S512x1024 .f32) (x3 : Vec F S512x512 .bf16) (x4 : Vec F S512x512 .bf16) (x5 : Vec F S512x1 .f32) (x6 : Vec F S512x512 .bf16) (x7 : Vec F S512x512 .bf16) (x8 : Vec F S512x1 .f32) (x9 : Vec F S512x512 .bf16) (x10 : Vec F S512x512 .bf16) (x11 : Vec F S512x1 .f32) (x12 : Vec F S512x512 .bf16) (x13 : Vec F S512x512 .bf16) (x14 : Vec F S512x1 .f32) (xs0 xs1 xs2 xs3 : Vec F S512x1024 .f32) (y : S512x1024.Idx) :
    ∃ pc ∈ (runHidden c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14 xs0 xs1 xs2 xs3).2.2.2.2.2.1, y ∈ pc.1.set :=
  View.cover_of_tiledL (runHidden c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14 xs0 xs1 xs2 xs3).2.2.2.2.2.1 S512x1024.size (by sl_kernel_rfl) y
theorem coverLast_L15 (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x1 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x1 .f32) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x1 .f32) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x1 .f32) (harg17 : arg17.IsWhole) (arg18 : Memref sig .tc .vmem S512x1024 .f32) (harg18 : arg18.IsWhole) (arg19 : Memref sig .tc .vmem S512x1024 .f32) (harg19 : arg19.IsWhole) (arg20 : Memref sig .tc .vmem S512x1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1024 .f32) (harg23 : arg23.IsWhole) (hc0 : ¬cond0_0 i) (hc1 : ¬cond0_1 i) (hc2 : cond0_2 i) (hc3 : cond0_3 i)
    (x0 : Vec F S512x1024 .bf16) (x1 : Vec F S512x1024 .bf16) (x2 : Vec F S512x1024 .f32) (x3 : Vec F S512x512 .bf16) (x4 : Vec F S512x512 .bf16) (x5 : Vec F S512x1 .f32) (x6 : Vec F S512x512 .bf16) (x7 : Vec F S512x512 .bf16) (x8 : Vec F S512x1 .f32) (x9 : Vec F S512x512 .bf16) (x10 : Vec F S512x512 .bf16) (x11 : Vec F S512x1 .f32) (x12 : Vec F S512x512 .bf16) (x13 : Vec F S512x512 .bf16) (x14 : Vec F S512x1 .f32) (xs0 xs1 xs2 xs3 : Vec F S512x1024 .f32) (y : S512x1024.Idx) :
    ∃ pc ∈ (runLast c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14 xs0 xs1 xs2 xs3).1, y ∈ pc.1.set :=
  View.cover_of_tiledL (runLast c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14 xs0 xs1 xs2 xs3).1 S512x1024.size (by sl_kernel_rfl) y
theorem coverLast_L16 (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x1 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x1 .f32) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x1 .f32) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x1 .f32) (harg17 : arg17.IsWhole) (arg18 : Memref sig .tc .vmem S512x1024 .f32) (harg18 : arg18.IsWhole) (arg19 : Memref sig .tc .vmem S512x1024 .f32) (harg19 : arg19.IsWhole) (arg20 : Memref sig .tc .vmem S512x1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1024 .f32) (harg23 : arg23.IsWhole) (hc0 : ¬cond0_0 i) (hc1 : ¬cond0_1 i) (hc2 : cond0_2 i) (hc3 : cond0_3 i)
    (x0 : Vec F S512x1024 .bf16) (x1 : Vec F S512x1024 .bf16) (x2 : Vec F S512x1024 .f32) (x3 : Vec F S512x512 .bf16) (x4 : Vec F S512x512 .bf16) (x5 : Vec F S512x1 .f32) (x6 : Vec F S512x512 .bf16) (x7 : Vec F S512x512 .bf16) (x8 : Vec F S512x1 .f32) (x9 : Vec F S512x512 .bf16) (x10 : Vec F S512x512 .bf16) (x11 : Vec F S512x1 .f32) (x12 : Vec F S512x512 .bf16) (x13 : Vec F S512x512 .bf16) (x14 : Vec F S512x1 .f32) (xs0 xs1 xs2 xs3 : Vec F S512x1024 .f32) (y : S512x1024.Idx) :
    ∃ pc ∈ (runLast c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14 xs0 xs1 xs2 xs3).2.1, y ∈ pc.1.set :=
  View.cover_of_tiledL (runLast c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14 xs0 xs1 xs2 xs3).2.1 S512x1024.size (by sl_kernel_rfl) y
theorem coverLast_LS0 (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x1 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x1 .f32) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x1 .f32) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x1 .f32) (harg17 : arg17.IsWhole) (arg18 : Memref sig .tc .vmem S512x1024 .f32) (harg18 : arg18.IsWhole) (arg19 : Memref sig .tc .vmem S512x1024 .f32) (harg19 : arg19.IsWhole) (arg20 : Memref sig .tc .vmem S512x1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1024 .f32) (harg23 : arg23.IsWhole) (hc0 : ¬cond0_0 i) (hc1 : ¬cond0_1 i) (hc2 : cond0_2 i) (hc3 : cond0_3 i)
    (x0 : Vec F S512x1024 .bf16) (x1 : Vec F S512x1024 .bf16) (x2 : Vec F S512x1024 .f32) (x3 : Vec F S512x512 .bf16) (x4 : Vec F S512x512 .bf16) (x5 : Vec F S512x1 .f32) (x6 : Vec F S512x512 .bf16) (x7 : Vec F S512x512 .bf16) (x8 : Vec F S512x1 .f32) (x9 : Vec F S512x512 .bf16) (x10 : Vec F S512x512 .bf16) (x11 : Vec F S512x1 .f32) (x12 : Vec F S512x512 .bf16) (x13 : Vec F S512x512 .bf16) (x14 : Vec F S512x1 .f32) (xs0 xs1 xs2 xs3 : Vec F S512x1024 .f32) (y : S512x1024.Idx) :
    ∃ pc ∈ (runLast c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14 xs0 xs1 xs2 xs3).2.2.1, y ∈ pc.1.set :=
  View.cover_of_tiledL (runLast c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14 xs0 xs1 xs2 xs3).2.2.1 S512x1024.size (by sl_kernel_rfl) y
theorem coverLast_LS1 (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x1 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x1 .f32) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x1 .f32) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x1 .f32) (harg17 : arg17.IsWhole) (arg18 : Memref sig .tc .vmem S512x1024 .f32) (harg18 : arg18.IsWhole) (arg19 : Memref sig .tc .vmem S512x1024 .f32) (harg19 : arg19.IsWhole) (arg20 : Memref sig .tc .vmem S512x1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1024 .f32) (harg23 : arg23.IsWhole) (hc0 : ¬cond0_0 i) (hc1 : ¬cond0_1 i) (hc2 : cond0_2 i) (hc3 : cond0_3 i)
    (x0 : Vec F S512x1024 .bf16) (x1 : Vec F S512x1024 .bf16) (x2 : Vec F S512x1024 .f32) (x3 : Vec F S512x512 .bf16) (x4 : Vec F S512x512 .bf16) (x5 : Vec F S512x1 .f32) (x6 : Vec F S512x512 .bf16) (x7 : Vec F S512x512 .bf16) (x8 : Vec F S512x1 .f32) (x9 : Vec F S512x512 .bf16) (x10 : Vec F S512x512 .bf16) (x11 : Vec F S512x1 .f32) (x12 : Vec F S512x512 .bf16) (x13 : Vec F S512x512 .bf16) (x14 : Vec F S512x1 .f32) (xs0 xs1 xs2 xs3 : Vec F S512x1024 .f32) (y : S512x1024.Idx) :
    ∃ pc ∈ (runLast c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14 xs0 xs1 xs2 xs3).2.2.2.1, y ∈ pc.1.set :=
  View.cover_of_tiledL (runLast c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14 xs0 xs1 xs2 xs3).2.2.2.1 S512x1024.size (by sl_kernel_rfl) y
theorem coverLast_LS2 (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x1 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x1 .f32) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x1 .f32) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x1 .f32) (harg17 : arg17.IsWhole) (arg18 : Memref sig .tc .vmem S512x1024 .f32) (harg18 : arg18.IsWhole) (arg19 : Memref sig .tc .vmem S512x1024 .f32) (harg19 : arg19.IsWhole) (arg20 : Memref sig .tc .vmem S512x1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1024 .f32) (harg23 : arg23.IsWhole) (hc0 : ¬cond0_0 i) (hc1 : ¬cond0_1 i) (hc2 : cond0_2 i) (hc3 : cond0_3 i)
    (x0 : Vec F S512x1024 .bf16) (x1 : Vec F S512x1024 .bf16) (x2 : Vec F S512x1024 .f32) (x3 : Vec F S512x512 .bf16) (x4 : Vec F S512x512 .bf16) (x5 : Vec F S512x1 .f32) (x6 : Vec F S512x512 .bf16) (x7 : Vec F S512x512 .bf16) (x8 : Vec F S512x1 .f32) (x9 : Vec F S512x512 .bf16) (x10 : Vec F S512x512 .bf16) (x11 : Vec F S512x1 .f32) (x12 : Vec F S512x512 .bf16) (x13 : Vec F S512x512 .bf16) (x14 : Vec F S512x1 .f32) (xs0 xs1 xs2 xs3 : Vec F S512x1024 .f32) (y : S512x1024.Idx) :
    ∃ pc ∈ (runLast c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14 xs0 xs1 xs2 xs3).2.2.2.2.1, y ∈ pc.1.set :=
  View.cover_of_tiledL (runLast c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14 xs0 xs1 xs2 xs3).2.2.2.2.1 S512x1024.size (by sl_kernel_rfl) y
theorem coverLast_LS3 (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x1 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x1 .f32) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x1 .f32) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x1 .f32) (harg17 : arg17.IsWhole) (arg18 : Memref sig .tc .vmem S512x1024 .f32) (harg18 : arg18.IsWhole) (arg19 : Memref sig .tc .vmem S512x1024 .f32) (harg19 : arg19.IsWhole) (arg20 : Memref sig .tc .vmem S512x1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1024 .f32) (harg23 : arg23.IsWhole) (hc0 : ¬cond0_0 i) (hc1 : ¬cond0_1 i) (hc2 : cond0_2 i) (hc3 : cond0_3 i)
    (x0 : Vec F S512x1024 .bf16) (x1 : Vec F S512x1024 .bf16) (x2 : Vec F S512x1024 .f32) (x3 : Vec F S512x512 .bf16) (x4 : Vec F S512x512 .bf16) (x5 : Vec F S512x1 .f32) (x6 : Vec F S512x512 .bf16) (x7 : Vec F S512x512 .bf16) (x8 : Vec F S512x1 .f32) (x9 : Vec F S512x512 .bf16) (x10 : Vec F S512x512 .bf16) (x11 : Vec F S512x1 .f32) (x12 : Vec F S512x512 .bf16) (x13 : Vec F S512x512 .bf16) (x14 : Vec F S512x1 .f32) (xs0 xs1 xs2 xs3 : Vec F S512x1024 .f32) (y : S512x1024.Idx) :
    ∃ pc ∈ (runLast c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14 xs0 xs1 xs2 xs3).2.2.2.2.2.1, y ∈ pc.1.set :=
  View.cover_of_tiledL (runLast c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14 xs0 xs1 xs2 xs3).2.2.2.2.2.1 S512x1024.size (by sl_kernel_rfl) y

/-! ## The cases at a grid point -/

/-- What is held after a point: the two result buffers and the four accumulators. -/
structure Held (F : FTy → Type) [FloatOps F] where
  o15 : Vec F S512x1024 .f32
  o16 : Vec F S512x1024 .f32
  a0 : Vec F S512x1024 .f32
  a1 : Vec F S512x1024 .f32
  a2 : Vec F S512x1024 .f32
  a3 : Vec F S512x1024 .f32

/-- A result buffer at a point where its window is idle: nothing reads this value. -/
def idleOut : Vec F S512x1024 .f32 := View.canon (Val := Elt F) (s := S512x1024) (e := .f32) []

/-- The case's run at point `t`, on the buffers the pipeline passes there and the input blocks. -/
def atFirst (c : Dev nD) (t : Fin cfg0.N) (h : t.val % 12 = 0) :=
  runFirst (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) ((hcond0_0 t).mpr (by omega)) ((hcond0_1 t).mpr (by omega)) (fun hh => absurd ((hcond0_2 t).mp hh) (by omega)) (fun hh => absurd ((hcond0_3 t).mp hh) (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)

/-- What that run leaves. -/
def heldFirst (c : Dev nD) (t : Fin cfg0.N) (h : t.val % 12 = 0) : Held F :=
  ⟨idleOut, idleOut, View.canon (atFirst m c t h).2.2.1, View.canon (atFirst m c t h).2.2.2.1, View.canon (atFirst m c t h).2.2.2.2.1, View.canon (atFirst m c t h).2.2.2.2.2.1⟩

/-- The case's run at point `t`, on the buffers the pipeline passes there and the input blocks. -/
def atInput (c : Dev nD) (t : Fin cfg0.N) (h0 : ¬t.val % 12 = 0) (h1 : t.val % 12 < 4) (p : Held F) :=
  runInput (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (fun hh => absurd ((hcond0_0 t).mp hh) (by omega)) ((hcond0_1 t).mpr (by omega)) (fun hh => absurd ((hcond0_2 t).mp hh) (by omega)) (fun hh => absurd ((hcond0_3 t).mp hh) (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p.a0 p.a1 p.a2 p.a3

/-- What that run leaves. -/
def heldInput (c : Dev nD) (t : Fin cfg0.N) (h0 : ¬t.val % 12 = 0) (h1 : t.val % 12 < 4) (p : Held F) : Held F :=
  ⟨idleOut, idleOut, View.canon (atInput m c t h0 h1 p).2.2.1, View.canon (atInput m c t h0 h1 p).2.2.2.1, View.canon (atInput m c t h0 h1 p).2.2.2.2.1, View.canon (atInput m c t h0 h1 p).2.2.2.2.2.1⟩

/-- The case's run at point `t`, on the buffers the pipeline passes there and the input blocks. -/
def atHidden (c : Dev nD) (t : Fin cfg0.N) (h1 : ¬t.val % 12 < 4) (h3 : ¬t.val % 12 = 11) (p : Held F) :=
  runHidden (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (fun hh => absurd ((hcond0_0 t).mp hh) (by omega)) (fun hh => absurd ((hcond0_1 t).mp hh) (by omega)) ((hcond0_2 t).mpr (by omega)) (fun hh => absurd ((hcond0_3 t).mp hh) (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p.a0 p.a1 p.a2 p.a3

/-- What that run leaves. -/
def heldHidden (c : Dev nD) (t : Fin cfg0.N) (h1 : ¬t.val % 12 < 4) (h3 : ¬t.val % 12 = 11) (p : Held F) : Held F :=
  ⟨idleOut, idleOut, View.canon (atHidden m c t h1 h3 p).2.2.1, View.canon (atHidden m c t h1 h3 p).2.2.2.1, View.canon (atHidden m c t h1 h3 p).2.2.2.2.1, View.canon (atHidden m c t h1 h3 p).2.2.2.2.2.1⟩

/-- The case's run at point `t`, on the buffers the pipeline passes there and the input blocks. -/
def atLast (c : Dev nD) (t : Fin cfg0.N) (h3 : t.val % 12 = 11) (p : Held F) :=
  runLast (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (fun hh => absurd ((hcond0_0 t).mp hh) (by omega)) (fun hh => absurd ((hcond0_1 t).mp hh) (by omega)) ((hcond0_2 t).mpr (by omega)) ((hcond0_3 t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p.a0 p.a1 p.a2 p.a3

/-- What that run leaves. -/
def heldLast (c : Dev nD) (t : Fin cfg0.N) (h3 : t.val % 12 = 11) (p : Held F) : Held F :=
  ⟨View.canon (atLast m c t h3 p).1, View.canon (atLast m c t h3 p).2.1, View.canon (atLast m c t h3 p).2.2.1, View.canon (atLast m c t h3 p).2.2.2.1, View.canon (atLast m c t h3 p).2.2.2.2.1, View.canon (atLast m c t h3 p).2.2.2.2.2.1⟩

/-! ## The recursion over the points -/

/-- What the result buffers and the accumulators hold after the body at position `n`. -/
def heldAt (c : Dev nD) : (n : ℕ) → n < cfg0.N → Held F
  | 0, hn => heldFirst m c ⟨0, hn⟩ (Nat.zero_mod _)
  | n + 1, hn =>
    if h0 : (n + 1) % 12 = 0 then heldFirst m c ⟨n + 1, hn⟩ h0
    else if h1 : (n + 1) % 12 < 4 then heldInput m c ⟨n + 1, hn⟩ h0 h1 (heldAt c n (Nat.lt_of_succ_lt hn))
    else if h3 : (n + 1) % 12 = 11 then heldLast m c ⟨n + 1, hn⟩ h3 (heldAt c n (Nat.lt_of_succ_lt hn))
    else heldHidden m c ⟨n + 1, hn⟩ h1 h3 (heldAt c n (Nat.lt_of_succ_lt hn))

theorem heldAt_first (c : Dev nD) (t : Fin cfg0.N) (h : t.val % 12 = 0) :
    heldAt m c t.val t.isLt = heldFirst m c t h := by
  obtain ⟨n, hn⟩ := t
  cases n with
  | zero => rfl
  | succ n => exact dif_pos h

theorem heldAt_input (c : Dev nD) (t : Fin cfg0.N) (h0 : ¬t.val % 12 = 0) (h1 : t.val % 12 < 4) :
    heldAt m c t.val t.isLt = heldInput m c t h0 h1 (heldAt m c (t.val - 1) (Nat.lt_of_le_of_lt (Nat.sub_le _ _) t.isLt)) := by
  obtain ⟨n, hn⟩ := t
  cases n with
  | zero => exact absurd (Nat.zero_mod _) h0
  | succ n => exact (dif_neg h0).trans (dif_pos h1)

theorem heldAt_hidden (c : Dev nD) (t : Fin cfg0.N) (h1 : ¬t.val % 12 < 4) (h3 : ¬t.val % 12 = 11) :
    heldAt m c t.val t.isLt = heldHidden m c t h1 h3 (heldAt m c (t.val - 1) (Nat.lt_of_le_of_lt (Nat.sub_le _ _) t.isLt)) := by
  obtain ⟨n, hn⟩ := t
  cases n with
  | zero => exact absurd (show (0 : ℕ) % 12 < 4 by decide) h1
  | succ n => exact (dif_neg (fun h => h1 (show (n + 1) % 12 < 4 by omega))).trans ((dif_neg h1).trans (dif_neg h3))

theorem heldAt_last (c : Dev nD) (t : Fin cfg0.N) (h3 : t.val % 12 = 11) :
    heldAt m c t.val t.isLt = heldLast m c t h3 (heldAt m c (t.val - 1) (Nat.lt_of_le_of_lt (Nat.sub_le _ _) t.isLt)) := by
  obtain ⟨n, hn⟩ := t
  cases n with
  | zero => exact absurd h3 (show ¬(0 : ℕ) % 12 = 11 by decide)
  | succ n =>
    have h3' : (n + 1) % 12 = 11 := h3
    exact (dif_neg (fun h => by omega)).trans ((dif_neg (fun h => by omega)).trans (dif_pos h3))

/-! ## The invariant that carries the accumulators -/

/-- Before position `n`: at the start whatever the region lends; afterwards the four accumulators at what the point
    before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare (heldAt m c n hn).a0 ∗ owns (c : Thread nD τ) scM0_1 fullShare (heldAt m c n hn).a1 ∗ owns (c : Thread nD τ) scM0_2 fullShare (heldAt m c n hn).a2 ∗ owns (c : Thread nD τ) scM0_3 fullShare (heldAt m c n hn).a3) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (heldAt m c n hn).a0 ∗ owns (c : Thread nD τ) scM0_1 fullShare (heldAt m c n hn).a1 ∗ owns (c : Thread nD τ) scM0_2 fullShare (heldAt m c n hn).a2 ∗ owns (c : Thread nD τ) scM0_3 fullShare (heldAt m c n hn).a3) ∗ (∃ r, prngReg c r)) := rfl

theorem PhiS_pos (c : Dev nD) (n : ℕ) (h : n ≤ cfg0.N) (hz : n ≠ 0) :
    PhiS m c n h = iprop(iprop(owns (c : Thread nD τ) scM0_0 fullShare (heldAt m c (n - 1) (by omega)).a0 ∗ owns (c : Thread nD τ) scM0_1 fullShare (heldAt m c (n - 1) (by omega)).a1 ∗ owns (c : Thread nD τ) scM0_2 fullShare (heldAt m c (n - 1) (by omega)).a2 ∗ owns (c : Thread nD τ) scM0_3 fullShare (heldAt m c (n - 1) (by omega)).a3) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => (heldAt m c t.val t.isLt).o15
    | ⟨16, _⟩ => (heldAt m c t.val t.isLt).o16
    | ⟨_ + 17, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = (heldAt m c t.val t.isLt).o15 := by dsimp only [dats]
theorem after0_16 (c : Dev nD) (t : Fin cfg0.N) : (dats m 0 c).after 16 t = (heldAt m c t.val t.isLt).o16 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d

end Cert.Kernel.Gen

end
-- ==== Proof.Bits.Body.lean ====
/-
  The body obligation and the run. At any grid point the pipeline hands the body every window's current staging
  buffer and the invariant; which of the four cases applies is read off t mod 12, the inputs' buffers hold their blocks,
  the accumulators hold what the point before left (anything at the very first point), so that case's triple applies, and
  what it leaves is what the recursion says is held after the point. Launching the body over the whole grid then gives
  the frame: every execution of the program terminates without a fault and the argument arrays end as they began.
-/
import proofs.«125515_j24756191494330_2_alg».proof.Proof.Bits.Data

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t)

set_option maxHeartbeats 8000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).owesAt () t.succ = (dats m 0 c).owesAt () t.castSucc from rfl]
  rw [show (dats m 0 c).Φ t.succ = PhiS m c (t.val + 1) t.isLt from rfl, PhiS_succ]
  have hN : t.val < 384 := lt_of_lt_of_eq t.isLt (show cfg0.N = 384 from N_0)
  by_cases h : t.val % 12 = 0
  · -- k = 0
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    rw [show (dats m 0 c).leavesExact 9 t = owns (c : Thread nD τ) (ms0_9 t) fullShare ((dats m 0 c).after 9 t) from by
      unfold Dat.leavesExact; rw [liveAt0_9 t], after0_9]
    rw [show (dats m 0 c).leavesExact 10 t = owns (c : Thread nD τ) (ms0_10 t) fullShare ((dats m 0 c).after 10 t) from by
      unfold Dat.leavesExact; rw [liveAt0_10 t], after0_10]
    rw [show (dats m 0 c).leavesExact 11 t = owns (c : Thread nD τ) (ms0_11 t) fullShare ((dats m 0 c).after 11 t) from by
      unfold Dat.leavesExact; rw [liveAt0_11 t], after0_11]
    rw [show (dats m 0 c).leavesExact 12 t = owns (c : Thread nD τ) (ms0_12 t) fullShare ((dats m 0 c).after 12 t) from by
      unfold Dat.leavesExact; rw [liveAt0_12 t], after0_12]
    rw [show (dats m 0 c).leavesExact 13 t = owns (c : Thread nD τ) (ms0_13 t) fullShare ((dats m 0 c).after 13 t) from by
      unfold Dat.leavesExact; rw [liveAt0_13 t], after0_13]
    rw [show (dats m 0 c).leavesExact 14 t = owns (c : Thread nD τ) (ms0_14 t) fullShare ((dats m 0 c).after 14 t) from by
      unfold Dat.leavesExact; rw [liveAt0_14 t], after0_14]
    have hn3 : ¬cond0_3 (grid0.coords t) := fun hh => absurd ((hcond0_3 t).mp hh) (by omega)
    rw [Dat.leavesExact_idle (dats m 0 c) 15 t (idleAt0_15 t hn3) (noFlush0_15 t hn3)]
    rw [Dat.leavesExact_idle (dats m 0 c) 16 t (idleAt0_16 t hn3) (noFlush0_16 t hn3)]
    rw [heldAt_first m c t h]
    unfold heldFirst; (try dsimp only)
    by_cases hz : t.val = 0
    · rw [PhiS_castSucc m c t, PhiS_zero m c _ _ hz, PhiA0_eq]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply ((atFirst m c t h).2.2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [HS0]; · iexact HS0
      isplitl [HS1]; · iexact HS1
      isplitl [HS2]; · iexact HS2
      isplitl [HS3]; · iexact HS3
      iintro ⟨H0, H1, H2, H3, H4, H5, H6, H7, H8, H9, H10, H11, H12, H13, H14, H15, H16, ⟨%es0, HS0⟩, ⟨%es1, HS1⟩, ⟨%es2, HS2⟩, ⟨%es3, HS3⟩⟩
      isplitl [HS0 HS1 HS2 HS3 Hg]
      · isplitr [Hg]
        swap; · iexact Hg
        isplitl [HS0]
        · unfold owns; iexists _; isplitr
          swap; · iexact HS0
          ipureintro; exact View.read_writes_eq_canon _ _ _ (coverFirst_LS0 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_eq_canon _ _ _ (coverFirst_LS1 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [HS2]
        · unfold owns; iexists _; isplitr
          swap; · iexact HS2
          ipureintro; exact View.read_writes_eq_canon _ _ _ (coverFirst_LS2 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact HS3
        ipureintro; exact View.read_writes_eq_canon _ _ _ (coverFirst_LS3 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      iexists _; iexact H16
    · rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply ((atFirst m c t h).2.2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [HS0]; · iexists _; iexact HS0
      isplitl [HS1]; · iexists _; iexact HS1
      isplitl [HS2]; · iexists _; iexact HS2
      isplitl [HS3]; · iexists _; iexact HS3
      iintro ⟨H0, H1, H2, H3, H4, H5, H6, H7, H8, H9, H10, H11, H12, H13, H14, H15, H16, ⟨%es0, HS0⟩, ⟨%es1, HS1⟩, ⟨%es2, HS2⟩, ⟨%es3, HS3⟩⟩
      isplitl [HS0 HS1 HS2 HS3 Hg]
      · isplitr [Hg]
        swap; · iexact Hg
        isplitl [HS0]
        · unfold owns; iexists _; isplitr
          swap; · iexact HS0
          ipureintro; exact View.read_writes_eq_canon _ _ _ (coverFirst_LS0 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_eq_canon _ _ _ (coverFirst_LS1 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [HS2]
        · unfold owns; iexists _; isplitr
          swap; · iexact HS2
          ipureintro; exact View.read_writes_eq_canon _ _ _ (coverFirst_LS2 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact HS3
        ipureintro; exact View.read_writes_eq_canon _ _ _ (coverFirst_LS3 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      iexists _; iexact H16
  · have h0 : ¬t.val % 12 = 0 := h
    have hz : t.val ≠ 0 := fun hz => h (by rw [hz])
    by_cases h1 : t.val % 12 < 4
    · -- 1 <= k <= 3
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [show (dats m 0 c).leavesExact 8 t = owns (c : Thread nD τ) (ms0_8 t) fullShare ((dats m 0 c).after 8 t) from by
        unfold Dat.leavesExact; rw [liveAt0_8 t], after0_8]
      rw [show (dats m 0 c).leavesExact 9 t = owns (c : Thread nD τ) (ms0_9 t) fullShare ((dats m 0 c).after 9 t) from by
        unfold Dat.leavesExact; rw [liveAt0_9 t], after0_9]
      rw [show (dats m 0 c).leavesExact 10 t = owns (c : Thread nD τ) (ms0_10 t) fullShare ((dats m 0 c).after 10 t) from by
        unfold Dat.leavesExact; rw [liveAt0_10 t], after0_10]
      rw [show (dats m 0 c).leavesExact 11 t = owns (c : Thread nD τ) (ms0_11 t) fullShare ((dats m 0 c).after 11 t) from by
        unfold Dat.leavesExact; rw [liveAt0_11 t], after0_11]
      rw [show (dats m 0 c).leavesExact 12 t = owns (c : Thread nD τ) (ms0_12 t) fullShare ((dats m 0 c).after 12 t) from by
        unfold Dat.leavesExact; rw [liveAt0_12 t], after0_12]
      rw [show (dats m 0 c).leavesExact 13 t = owns (c : Thread nD τ) (ms0_13 t) fullShare ((dats m 0 c).after 13 t) from by
        unfold Dat.leavesExact; rw [liveAt0_13 t], after0_13]
      rw [show (dats m 0 c).leavesExact 14 t = owns (c : Thread nD τ) (ms0_14 t) fullShare ((dats m 0 c).after 14 t) from by
        unfold Dat.leavesExact; rw [liveAt0_14 t], after0_14]
      have hn3 : ¬cond0_3 (grid0.coords t) := fun hh => absurd ((hcond0_3 t).mp hh) (by omega)
      rw [Dat.leavesExact_idle (dats m 0 c) 15 t (idleAt0_15 t hn3) (noFlush0_15 t hn3)]
      rw [Dat.leavesExact_idle (dats m 0 c) 16 t (idleAt0_16 t hn3) (noFlush0_16 t hn3)]
      rw [heldAt_input m c t h0 h1]
      unfold heldInput; (try dsimp only)
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply ((atInput m c t h0 h1 _).2.2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [HS0]; · iexact HS0
      isplitl [HS1]; · iexact HS1
      isplitl [HS2]; · iexact HS2
      isplitl [HS3]; · iexact HS3
      iintro ⟨H0, H1, H2, H3, H4, H5, H6, H7, H8, H9, H10, H11, H12, H13, H14, H15, H16, ⟨%es0, HS0⟩, ⟨%es1, HS1⟩, ⟨%es2, HS2⟩, ⟨%es3, HS3⟩⟩
      isplitl [HS0 HS1 HS2 HS3 Hg]
      · isplitr [Hg]
        swap; · iexact Hg
        isplitl [HS0]
        · unfold owns; iexists _; isplitr
          swap; · iexact HS0
          ipureintro; exact View.read_writes_eq_canon _ _ _ (coverInput_LS0 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_eq_canon _ _ _ (coverInput_LS1 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [HS2]
        · unfold owns; iexists _; isplitr
          swap; · iexact HS2
          ipureintro; exact View.read_writes_eq_canon _ _ _ (coverInput_LS2 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact HS3
        ipureintro; exact View.read_writes_eq_canon _ _ _ (coverInput_LS3 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      iexists _; iexact H16
    · by_cases h3 : t.val % 12 = 11
      · -- k = 11
        rw [show (dats m 0 c).leavesExact 0 t = owns (c : Thread nD τ) (ms0_0 t) fullShare ((dats m 0 c).after 0 t) from by
          unfold Dat.leavesExact; rw [liveAt0_0 t], after0_0]
        rw [show (dats m 0 c).leavesExact 1 t = owns (c : Thread nD τ) (ms0_1 t) fullShare ((dats m 0 c).after 1 t) from by
          unfold Dat.leavesExact; rw [liveAt0_1 t], after0_1]
        rw [show (dats m 0 c).leavesExact 2 t = owns (c : Thread nD τ) (ms0_2 t) fullShare ((dats m 0 c).after 2 t) from by
          unfold Dat.leavesExact; rw [liveAt0_2 t], after0_2]
        rw [show (dats m 0 c).leavesExact 3 t = owns (c : Thread nD τ) (ms0_3 t) fullShare ((dats m 0 c).after 3 t) from by
          unfold Dat.leavesExact; rw [liveAt0_3 t], after0_3]
        rw [show (dats m 0 c).leavesExact 4 t = owns (c : Thread nD τ) (ms0_4 t) fullShare ((dats m 0 c).after 4 t) from by
          unfold Dat.leavesExact; rw [liveAt0_4 t], after0_4]
        rw [show (dats m 0 c).leavesExact 5 t = owns (c : Thread nD τ) (ms0_5 t) fullShare ((dats m 0 c).after 5 t) from by
          unfold Dat.leavesExact; rw [liveAt0_5 t], after0_5]
        rw [show (dats m 0 c).leavesExact 6 t = owns (c : Thread nD τ) (ms0_6 t) fullShare ((dats m 0 c).after 6 t) from by
          unfold Dat.leavesExact; rw [liveAt0_6 t], after0_6]
        rw [show (dats m 0 c).leavesExact 7 t = owns (c : Thread nD τ) (ms0_7 t) fullShare ((dats m 0 c).after 7 t) from by
          unfold Dat.leavesExact; rw [liveAt0_7 t], after0_7]
        rw [show (dats m 0 c).leavesExact 8 t = owns (c : Thread nD τ) (ms0_8 t) fullShare ((dats m 0 c).after 8 t) from by
          unfold Dat.leavesExact; rw [liveAt0_8 t], after0_8]
        rw [show (dats m 0 c).leavesExact 9 t = owns (c : Thread nD τ) (ms0_9 t) fullShare ((dats m 0 c).after 9 t) from by
          unfold Dat.leavesExact; rw [liveAt0_9 t], after0_9]
        rw [show (dats m 0 c).leavesExact 10 t = owns (c : Thread nD τ) (ms0_10 t) fullShare ((dats m 0 c).after 10 t) from by
          unfold Dat.leavesExact; rw [liveAt0_10 t], after0_10]
        rw [show (dats m 0 c).leavesExact 11 t = owns (c : Thread nD τ) (ms0_11 t) fullShare ((dats m 0 c).after 11 t) from by
          unfold Dat.leavesExact; rw [liveAt0_11 t], after0_11]
        rw [show (dats m 0 c).leavesExact 12 t = owns (c : Thread nD τ) (ms0_12 t) fullShare ((dats m 0 c).after 12 t) from by
          unfold Dat.leavesExact; rw [liveAt0_12 t], after0_12]
        rw [show (dats m 0 c).leavesExact 13 t = owns (c : Thread nD τ) (ms0_13 t) fullShare ((dats m 0 c).after 13 t) from by
          unfold Dat.leavesExact; rw [liveAt0_13 t], after0_13]
        rw [show (dats m 0 c).leavesExact 14 t = owns (c : Thread nD τ) (ms0_14 t) fullShare ((dats m 0 c).after 14 t) from by
          unfold Dat.leavesExact; rw [liveAt0_14 t], after0_14]
        have hy3 : cond0_3 (grid0.coords t) := (hcond0_3 t).mpr h3
        rw [show (dats m 0 c).leavesExact 15 t = owns (c : Thread nD τ) (ms0_15 t) fullShare ((dats m 0 c).after 15 t) from by
          unfold Dat.leavesExact; rw [liveAt0_15_last t hy3], after0_15]
        rw [show (dats m 0 c).leavesExact 16 t = owns (c : Thread nD τ) (ms0_16 t) fullShare ((dats m 0 c).after 16 t) from by
          unfold Dat.leavesExact; rw [liveAt0_16_last t hy3], after0_16]
        rw [heldAt_last m c t h3]
        unfold heldLast; (try dsimp only)
        rw [PhiS_castSucc m c t, PhiS_pos m c _ _ hz]
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
        iapply ((atLast m c t h3 _).2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexists _; iexact H15
        isplitl [H16]; · iexists _; iexact H16
        isplitl [HS0]; · iexact HS0
        isplitl [HS1]; · iexact HS1
        isplitl [HS2]; · iexact HS2
        isplitl [HS3]; · iexact HS3
        iintro ⟨H0, H1, H2, H3, H4, H5, H6, H7, H8, H9, H10, H11, H12, H13, H14, ⟨%e15, H15⟩, ⟨%e16, H16⟩, ⟨%es0, HS0⟩, ⟨%es1, HS1⟩, ⟨%es2, HS2⟩, ⟨%es3, HS3⟩⟩
        isplitl [HS0 HS1 HS2 HS3 Hg]
        · isplitr [Hg]
          swap; · iexact Hg
          isplitl [HS0]
          · unfold owns; iexists _; isplitr
            swap; · iexact HS0
            ipureintro; exact View.read_writes_eq_canon _ _ _ (coverLast_LS0 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_eq_canon _ _ _ (coverLast_LS1 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_eq_canon _ _ _ (coverLast_LS2 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact HS3
          ipureintro; exact View.read_writes_eq_canon _ _ _ (coverLast_LS3 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]
        · unfold owns; iexists _; isplitr
          swap; · iexact H15
          ipureintro; exact View.read_writes_eq_canon _ _ _ (coverLast_L15 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact H16
        ipureintro; exact View.read_writes_eq_canon _ _ _ (coverLast_L16 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      · -- 4 <= k <= 10
        rw [show (dats m 0 c).leavesExact 0 t = owns (c : Thread nD τ) (ms0_0 t) fullShare ((dats m 0 c).after 0 t) from by
          unfold Dat.leavesExact; rw [liveAt0_0 t], after0_0]
        rw [show (dats m 0 c).leavesExact 1 t = owns (c : Thread nD τ) (ms0_1 t) fullShare ((dats m 0 c).after 1 t) from by
          unfold Dat.leavesExact; rw [liveAt0_1 t], after0_1]
        rw [show (dats m 0 c).leavesExact 2 t = owns (c : Thread nD τ) (ms0_2 t) fullShare ((dats m 0 c).after 2 t) from by
          unfold Dat.leavesExact; rw [liveAt0_2 t], after0_2]
        rw [show (dats m 0 c).leavesExact 3 t = owns (c : Thread nD τ) (ms0_3 t) fullShare ((dats m 0 c).after 3 t) from by
          unfold Dat.leavesExact; rw [liveAt0_3 t], after0_3]
        rw [show (dats m 0 c).leavesExact 4 t = owns (c : Thread nD τ) (ms0_4 t) fullShare ((dats m 0 c).after 4 t) from by
          unfold Dat.leavesExact; rw [liveAt0_4 t], after0_4]
        rw [show (dats m 0 c).leavesExact 5 t = owns (c : Thread nD τ) (ms0_5 t) fullShare ((dats m 0 c).after 5 t) from by
          unfold Dat.leavesExact; rw [liveAt0_5 t], after0_5]
        rw [show (dats m 0 c).leavesExact 6 t = owns (c : Thread nD τ) (ms0_6 t) fullShare ((dats m 0 c).after 6 t) from by
          unfold Dat.leavesExact; rw [liveAt0_6 t], after0_6]
        rw [show (dats m 0 c).leavesExact 7 t = owns (c : Thread nD τ) (ms0_7 t) fullShare ((dats m 0 c).after 7 t) from by
          unfold Dat.leavesExact; rw [liveAt0_7 t], after0_7]
        rw [show (dats m 0 c).leavesExact 8 t = owns (c : Thread nD τ) (ms0_8 t) fullShare ((dats m 0 c).after 8 t) from by
          unfold Dat.leavesExact; rw [liveAt0_8 t], after0_8]
        rw [show (dats m 0 c).leavesExact 9 t = owns (c : Thread nD τ) (ms0_9 t) fullShare ((dats m 0 c).after 9 t) from by
          unfold Dat.leavesExact; rw [liveAt0_9 t], after0_9]
        rw [show (dats m 0 c).leavesExact 10 t = owns (c : Thread nD τ) (ms0_10 t) fullShare ((dats m 0 c).after 10 t) from by
          unfold Dat.leavesExact; rw [liveAt0_10 t], after0_10]
        rw [show (dats m 0 c).leavesExact 11 t = owns (c : Thread nD τ) (ms0_11 t) fullShare ((dats m 0 c).after 11 t) from by
          unfold Dat.leavesExact; rw [liveAt0_11 t], after0_11]
        rw [show (dats m 0 c).leavesExact 12 t = owns (c : Thread nD τ) (ms0_12 t) fullShare ((dats m 0 c).after 12 t) from by
          unfold Dat.leavesExact; rw [liveAt0_12 t], after0_12]
        rw [show (dats m 0 c).leavesExact 13 t = owns (c : Thread nD τ) (ms0_13 t) fullShare ((dats m 0 c).after 13 t) from by
          unfold Dat.leavesExact; rw [liveAt0_13 t], after0_13]
        rw [show (dats m 0 c).leavesExact 14 t = owns (c : Thread nD τ) (ms0_14 t) fullShare ((dats m 0 c).after 14 t) from by
          unfold Dat.leavesExact; rw [liveAt0_14 t], after0_14]
        have hn3 : ¬cond0_3 (grid0.coords t) := fun hh => absurd ((hcond0_3 t).mp hh) (by omega)
        rw [Dat.leavesExact_idle (dats m 0 c) 15 t (idleAt0_15 t hn3) (noFlush0_15 t hn3)]
        rw [Dat.leavesExact_idle (dats m 0 c) 16 t (idleAt0_16 t hn3) (noFlush0_16 t hn3)]
        rw [heldAt_hidden m c t h1 h3]
        unfold heldHidden; (try dsimp only)
        rw [PhiS_castSucc m c t, PhiS_pos m c _ _ hz]
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
        iapply ((atHidden m c t h1 h3 _).2.2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [HS0]; · iexact HS0
        isplitl [HS1]; · iexact HS1
        isplitl [HS2]; · iexact HS2
        isplitl [HS3]; · iexact HS3
        iintro ⟨H0, H1, H2, H3, H4, H5, H6, H7, H8, H9, H10, H11, H12, H13, H14, H15, H16, ⟨%es0, HS0⟩, ⟨%es1, HS1⟩, ⟨%es2, HS2⟩, ⟨%es3, HS3⟩⟩
        isplitl [HS0 HS1 HS2 HS3 Hg]
        · isplitr [Hg]
          swap; · iexact Hg
          isplitl [HS0]
          · unfold owns; iexists _; isplitr
            swap; · iexact HS0
            ipureintro; exact View.read_writes_eq_canon _ _ _ (coverHidden_LS0 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_eq_canon _ _ _ (coverHidden_LS1 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_eq_canon _ _ _ (coverHidden_LS2 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact HS3
          ipureintro; exact View.read_writes_eq_canon _ _ _ (coverHidden_LS3 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexists _; iexact H15
        iexists _; iexact H16

/-- The body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitr [Hg]
  swap; · iexact Hg
  isplitl [HS0]; · iexists _; iexact HS0
  isplitl [HS1]; · iexists _; iexact HS1
  isplitl [HS2]; · iexists _; iexact HS2
  iexists _; iexact HS3

theorem hout (c : Dev nD) : (dats m 0 c).Φ (Fin.last cfg0.N) ⊢ Pipeline.ΦA spec0 c :=
  Phi_out m c _ (by rw [Fin.val_last]; have : cfg0.N = 384 := N_0; omega)

set_option backward.isDefEq.respectTransparency.types false in
/-- Every weakly fair execution of the program on the TensorCores terminates, and the final state has every array of
    the pipeline at what the proof data says and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

end Cert.Kernel.Gen

end
-- ==== Proof.Ideal.Cases.lean ====
/-
  One step of an LSTM cell, tiled: the grid is 8 row tiles x 4 column tiles x 12 contraction steps, and the last
  coordinate k = t mod 12 decides what the body does at point t. It clears its four gate accumulators when k = 0,
  adds a 512-deep slice of (input weights) x (input) when k < 4, a 512-deep slice of (recurrent weights) x
  (previous output) when k >= 4, and applies the gates and writes both results when k = 11. This module states
  the four conditions as the body computes them from the coordinates, their closed forms in t mod 12, where the
  two result windows are idle (every point with k /= 11), and the memory the body is handed: each window's
  current staging buffer and the four accumulators, which live in scratch memory and are kept between points.
-/
import proofs.«125515_j24756191494330_2_alg».proof.Proof.Gen.KernelIdeal.Frame
import proofs.«125515_j24756191494330_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's four conditions, from the last grid coordinate -/

/-- k = 0: the accumulators are cleared. -/
abbrev cond0_0 (i : grid0.Coords) : Prop := (Scalar.cmpi .ne (Scalar.extui (Scalar.cmpi .eq (BitVec.ofNat 32 (i 2).val) 0#32)) 0#32) = 1#1
/-- k < 4: a slice of the input product is added. -/
abbrev cond0_1 (i : grid0.Coords) : Prop := (Scalar.cmpi .ne (Scalar.extui (Scalar.cmpi .slt (BitVec.ofNat 32 (i 2).val) 4#32)) 0#32) = 1#1
/-- k >= 4: a slice of the recurrent product is added. -/
abbrev cond0_2 (i : grid0.Coords) : Prop := (Scalar.cmpi .ne (Scalar.extui (Scalar.cmpi .sge (BitVec.ofNat 32 (i 2).val) 4#32)) 0#32) = 1#1
/-- k = 11: the gates are applied and the results stored. -/
abbrev cond0_3 (i : grid0.Coords) : Prop := k0_cond4 i = 1#1

theorem hcond0_0 : ∀ t : Fin cfg0.N, cond0_0 (grid0.coords t) ↔ t.val % 12 = 0 :=
  (by decide +kernel : ∀ t : Fin grid0.N, cond0_0 (grid0.coords t) ↔ t.val % 12 = 0)
theorem hcond0_1 : ∀ t : Fin cfg0.N, cond0_1 (grid0.coords t) ↔ t.val % 12 < 4 :=
  (by decide +kernel : ∀ t : Fin grid0.N, cond0_1 (grid0.coords t) ↔ t.val % 12 < 4)
theorem hcond0_2 : ∀ t : Fin cfg0.N, cond0_2 (grid0.coords t) ↔ 4 ≤ t.val % 12 :=
  (by decide +kernel : ∀ t : Fin grid0.N, cond0_2 (grid0.coords t) ↔ 4 ≤ t.val % 12)
theorem hcond0_3 : ∀ t : Fin cfg0.N, cond0_3 (grid0.coords t) ↔ t.val % 12 = 11 :=
  (by decide +kernel : ∀ t : Fin grid0.N, cond0_3 (grid0.coords t) ↔ t.val % 12 = 11)

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl
theorem liveAt0_11 : ∀ t : Fin cfg0.N, cfg0.idle 11 (grid0.coords t) = false := fun _ => rfl
theorem liveAt0_12 : ∀ t : Fin cfg0.N, cfg0.idle 12 (grid0.coords t) = false := fun _ => rfl
theorem liveAt0_13 : ∀ t : Fin cfg0.N, cfg0.idle 13 (grid0.coords t) = false := fun _ => rfl
theorem liveAt0_14 : ∀ t : Fin cfg0.N, cfg0.idle 14 (grid0.coords t) = false := fun _ => rfl
/-- Away from k = 11 result window 15 is idle: nothing is stored into it and it is not written back. -/
theorem idleAt0_15 : ∀ t : Fin cfg0.N, ¬cond0_3 (grid0.coords t) → cfg0.idle 15 (grid0.coords t) = true := by decide +kernel
theorem noFlush0_15 : ∀ t : Fin cfg0.N, ¬cond0_3 (grid0.coords t) → (cfg0.win 15).flush t = false := by decide +kernel
/-- At k = 11 it is live. -/
theorem liveAt0_15_last : ∀ t : Fin cfg0.N, cond0_3 (grid0.coords t) → cfg0.idle 15 (grid0.coords t) = false := by decide +kernel
/-- Away from k = 11 result window 16 is idle: nothing is stored into it and it is not written back. -/
theorem idleAt0_16 : ∀ t : Fin cfg0.N, ¬cond0_3 (grid0.coords t) → cfg0.idle 16 (grid0.coords t) = true := by decide +kernel
theorem noFlush0_16 : ∀ t : Fin cfg0.N, ¬cond0_3 (grid0.coords t) → (cfg0.win 16).flush t = false := by decide +kernel
/-- At k = 11 it is live. -/
theorem liveAt0_16_last : ∀ t : Fin cfg0.N, cond0_3 (grid0.coords t) → cfg0.idle 16 (grid0.coords t) = false := by decide +kernel

/-! ## The memory the body is handed -/

abbrev ms0_0 (t : Fin cfg0.N) : Memref sig .tc .vmem S512x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x512 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x512 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x1 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S512x512 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S512x512 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S512x1 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S512x1024 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S512x1024 .f32 := win0_16.stage (cfg0.slots t 16)
abbrev hs0_16 (t : Fin cfg0.N) : (ms0_16 t).IsWhole := hstage0_16 ((cfg0.slots t 16).cast nbuf0_16)
/-- One staging buffer of result window 15: what the body leaves there is stated through its view. -/
abbrev VO0_15 : View sig .tc .vmem S512x1024 .f32 := (Memref.whole cc0_stg15_0 : Memref sig .tc .vmem S512x1024 .f32).view
/-- One staging buffer of result window 16: what the body leaves there is stated through its view. -/
abbrev VO0_16 : View sig .tc .vmem S512x1024 .f32 := (Memref.whole cc0_stg16_0 : Memref sig .tc .vmem S512x1024 .f32).view
/-- Gate accumulator 0, a whole scratch buffer. -/
abbrev scM0_0 : Memref sig .tc .vmem S512x1024 .f32 := Memref.whole cc0_scratch0
abbrev VS0_0 : View sig .tc .vmem S512x1024 .f32 := scM0_0.view
/-- Gate accumulator 1, a whole scratch buffer. -/
abbrev scM0_1 : Memref sig .tc .vmem S512x1024 .f32 := Memref.whole cc0_scratch1
abbrev VS0_1 : View sig .tc .vmem S512x1024 .f32 := scM0_1.view
/-- Gate accumulator 2, a whole scratch buffer. -/
abbrev scM0_2 : Memref sig .tc .vmem S512x1024 .f32 := Memref.whole cc0_scratch2
abbrev VS0_2 : View sig .tc .vmem S512x1024 .f32 := scM0_2.view
/-- Gate accumulator 3, a whole scratch buffer. -/
abbrev scM0_3 : Memref sig .tc .vmem S512x1024 .f32 := Memref.whole cc0_scratch3
abbrev VS0_3 : View sig .tc .vmem S512x1024 .f32 := scM0_3.view

/-- What the region lends the body besides the windows: the four accumulators, each whole at some contents, and
    the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Gen

end
-- ==== Proof.Ideal.RunFirst.lean ====
/-
  The kernel body run once, symbolically, at a point with k = 0: the four accumulators are cleared, then the first slice of (input weights) x (input) is added to each. Nothing the accumulators held before is read after the clearing stores, so they may hold anything on entry; the result windows are idle and handed back as they came.
  The run is a triple: from the windows' staging buffers at given contents and the accumulators, the body runs to its
  end without a fault, leaves every input buffer as it was, and leaves in each buffer it stores into the list of
  rectangles written with their values (the witness the run finds).
-/
import proofs.«125515_j24756191494330_2_alg».proof.Proof.Ideal.Cases

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's triple when k = 0: the four accumulators are cleared, then the first slice of (input weights) x (input) is added to each. Nothing the accumulators held before is read after the clearing stores, so they may hold anything on entry; the result windows are idle and handed back as they came. -/
noncomputable def runFirst (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x1 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x1 .f32) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x1 .f32) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x1 .f32) (harg17 : arg17.IsWhole) (arg18 : Memref sig .tc .vmem S512x1024 .f32) (harg18 : arg18.IsWhole) (arg19 : Memref sig .tc .vmem S512x1024 .f32) (harg19 : arg19.IsWhole) (arg20 : Memref sig .tc .vmem S512x1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1024 .f32) (harg23 : arg23.IsWhole) (hc0 : cond0_0 i) (hc1 : cond0_1 i) (hc2 : ¬cond0_2 i) (hc3 : ¬cond0_3 i)
    (x0 : Vec F S512x1024 .bf16) (x1 : Vec F S512x1024 .bf16) (x2 : Vec F S512x1024 .f32) (x3 : Vec F S512x512 .bf16) (x4 : Vec F S512x512 .bf16) (x5 : Vec F S512x1 .f32) (x6 : Vec F S512x512 .bf16) (x7 : Vec F S512x512 .bf16) (x8 : Vec F S512x1 .f32) (x9 : Vec F S512x512 .bf16) (x10 : Vec F S512x512 .bf16) (x11 : Vec F S512x1 .f32) (x12 : Vec F S512x512 .bf16) (x13 : Vec F S512x512 .bf16) (x14 : Vec F S512x1 .f32) :
    Σ' (L15 : List (View.Piece (Elt F) S512x1024 .f32)) (L16 : List (View.Piece (Elt F) S512x1024 .f32)) (LS0 : List (View.Piece (Elt F) S512x1024 .f32)) (LS1 : List (View.Piece (Elt F) S512x1024 .f32)) (LS2 : List (View.Piece (Elt F) S512x1024 .f32)), { LS3 : List (View.Piece (Elt F) S512x1024 .f32) //
      ∀ (xi15 xi16 : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare xi15 ∗ owns (c : Thread nD τ) arg19 fullShare xi16 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare xi15 ∗ owns (c : Thread nD τ) arg19 fullShare xi16 ∗ (∃ f, arg20.view.loc (c : Thread nD τ) ↦[arg20.view.set]{fullShare} arg20.view.writes (Elt F) f LS0) ∗ (∃ f, arg21.view.loc (c : Thread nD τ) ↦[arg21.view.set]{fullShare} arg21.view.writes (Elt F) f LS1) ∗ (∃ f, arg22.view.loc (c : Thread nD τ) ↦[arg22.view.set]{fullShare} arg22.view.writes (Elt F) f LS2) ∗ (∃ f, arg23.view.loc (c : Thread nD τ) ↦[arg23.view.set]{fullShare} arg23.view.writes (Elt F) f LS3)) -∗ K ⟨⟩))
          ⊢ wp frame (wpE (defs₀ (F := F)) Variants.none c none) E (cc0__lstm_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨[], [], ?_, ?_, ?_, ?_, fun xi15 xi16 E K => ?run⟩
  case run =>
    simp only [cc0__lstm_kernel_eq_skeleton]; unfold cc0__lstm_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    isplitl [H16]
    · iexists _; isplitr; · ipureintro; exact harg19.read_unread _
      iexact H16
    isplitl [HS0]; · iexists _; iexact HS0
    isplitl [HS1]; · iexists _; iexact HS1
    isplitl [HS2]; · iexists _; iexact HS2
    iexists _; iexact HS3

end Cert.KernelIdeal.Gen

end
-- ==== Proof.Ideal.RunInput.lean ====
/-
  The kernel body run once, symbolically, at a point with 1 <= k <= 3: one more slice of (input weights) x (input) is added to each accumulator, over what the point before left in it; the result windows are idle.
  The run is a triple: from the windows' staging buffers at given contents and the accumulators, the body runs to its
  end without a fault, leaves every input buffer as it was, and leaves in each buffer it stores into the list of
  rectangles written with their values (the witness the run finds).
-/
import proofs.«125515_j24756191494330_2_alg».proof.Proof.Ideal.RunFirst

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's triple when 1 <= k <= 3: one more slice of (input weights) x (input) is added to each accumulator, over what the point before left in it; the result windows are idle. -/
noncomputable def runInput (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x1 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x1 .f32) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x1 .f32) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x1 .f32) (harg17 : arg17.IsWhole) (arg18 : Memref sig .tc .vmem S512x1024 .f32) (harg18 : arg18.IsWhole) (arg19 : Memref sig .tc .vmem S512x1024 .f32) (harg19 : arg19.IsWhole) (arg20 : Memref sig .tc .vmem S512x1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1024 .f32) (harg23 : arg23.IsWhole) (hc0 : ¬cond0_0 i) (hc1 : cond0_1 i) (hc2 : ¬cond0_2 i) (hc3 : ¬cond0_3 i)
    (x0 : Vec F S512x1024 .bf16) (x1 : Vec F S512x1024 .bf16) (x2 : Vec F S512x1024 .f32) (x3 : Vec F S512x512 .bf16) (x4 : Vec F S512x512 .bf16) (x5 : Vec F S512x1 .f32) (x6 : Vec F S512x512 .bf16) (x7 : Vec F S512x512 .bf16) (x8 : Vec F S512x1 .f32) (x9 : Vec F S512x512 .bf16) (x10 : Vec F S512x512 .bf16) (x11 : Vec F S512x1 .f32) (x12 : Vec F S512x512 .bf16) (x13 : Vec F S512x512 .bf16) (x14 : Vec F S512x1 .f32) (xs0 xs1 xs2 xs3 : Vec F S512x1024 .f32) :
    Σ' (L15 : List (View.Piece (Elt F) S512x1024 .f32)) (L16 : List (View.Piece (Elt F) S512x1024 .f32)) (LS0 : List (View.Piece (Elt F) S512x1024 .f32)) (LS1 : List (View.Piece (Elt F) S512x1024 .f32)) (LS2 : List (View.Piece (Elt F) S512x1024 .f32)), { LS3 : List (View.Piece (Elt F) S512x1024 .f32) //
      ∀ (xi15 xi16 : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare xi15 ∗ owns (c : Thread nD τ) arg19 fullShare xi16 ∗ owns (c : Thread nD τ) arg20 fullShare xs0 ∗ owns (c : Thread nD τ) arg21 fullShare xs1 ∗ owns (c : Thread nD τ) arg22 fullShare xs2 ∗ owns (c : Thread nD τ) arg23 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare xi15 ∗ owns (c : Thread nD τ) arg19 fullShare xi16 ∗ (∃ f, arg20.view.loc (c : Thread nD τ) ↦[arg20.view.set]{fullShare} arg20.view.writes (Elt F) f LS0) ∗ (∃ f, arg21.view.loc (c : Thread nD τ) ↦[arg21.view.set]{fullShare} arg21.view.writes (Elt F) f LS1) ∗ (∃ f, arg22.view.loc (c : Thread nD τ) ↦[arg22.view.set]{fullShare} arg22.view.writes (Elt F) f LS2) ∗ (∃ f, arg23.view.loc (c : Thread nD τ) ↦[arg23.view.set]{fullShare} arg23.view.writes (Elt F) f LS3)) -∗ K ⟨⟩))
          ⊢ wp frame (wpE (defs₀ (F := F)) Variants.none c none) E (cc0__lstm_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨[], [], ?_, ?_, ?_, ?_, fun xi15 xi16 E K => ?run⟩
  case run =>
    simp only [cc0__lstm_kernel_eq_skeleton]; unfold cc0__lstm_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hfs0; obtain rfl := harg21.eq_unread hfs1; obtain rfl := harg22.eq_unread hfs2; obtain rfl := harg23.eq_unread hfs3
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    isplitl [H16]
    · iexists _; isplitr; · ipureintro; exact harg19.read_unread _
      iexact H16
    isplitl [HS0]; · iexists _; iexact HS0
    isplitl [HS1]; · iexists _; iexact HS1
    isplitl [HS2]; · iexists _; iexact HS2
    iexists _; iexact HS3

end Cert.KernelIdeal.Gen

end
-- ==== Proof.Ideal.RunHidden.lean ====
/-
  The kernel body run once, symbolically, at a point with 4 <= k <= 10: one slice of (recurrent weights) x (previous output) is added to each accumulator, over what the point before left in it; the result windows are idle.
  The run is a triple: from the windows' staging buffers at given contents and the accumulators, the body runs to its
  end without a fault, leaves every input buffer as it was, and leaves in each buffer it stores into the list of
  rectangles written with their values (the witness the run finds).
-/
import proofs.«125515_j24756191494330_2_alg».proof.Proof.Ideal.RunInput

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's triple when 4 <= k <= 10: one slice of (recurrent weights) x (previous output) is added to each accumulator, over what the point before left in it; the result windows are idle. -/
noncomputable def runHidden (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x1 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x1 .f32) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x1 .f32) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x1 .f32) (harg17 : arg17.IsWhole) (arg18 : Memref sig .tc .vmem S512x1024 .f32) (harg18 : arg18.IsWhole) (arg19 : Memref sig .tc .vmem S512x1024 .f32) (harg19 : arg19.IsWhole) (arg20 : Memref sig .tc .vmem S512x1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1024 .f32) (harg23 : arg23.IsWhole) (hc0 : ¬cond0_0 i) (hc1 : ¬cond0_1 i) (hc2 : cond0_2 i) (hc3 : ¬cond0_3 i)
    (x0 : Vec F S512x1024 .bf16) (x1 : Vec F S512x1024 .bf16) (x2 : Vec F S512x1024 .f32) (x3 : Vec F S512x512 .bf16) (x4 : Vec F S512x512 .bf16) (x5 : Vec F S512x1 .f32) (x6 : Vec F S512x512 .bf16) (x7 : Vec F S512x512 .bf16) (x8 : Vec F S512x1 .f32) (x9 : Vec F S512x512 .bf16) (x10 : Vec F S512x512 .bf16) (x11 : Vec F S512x1 .f32) (x12 : Vec F S512x512 .bf16) (x13 : Vec F S512x512 .bf16) (x14 : Vec F S512x1 .f32) (xs0 xs1 xs2 xs3 : Vec F S512x1024 .f32) :
    Σ' (L15 : List (View.Piece (Elt F) S512x1024 .f32)) (L16 : List (View.Piece (Elt F) S512x1024 .f32)) (LS0 : List (View.Piece (Elt F) S512x1024 .f32)) (LS1 : List (View.Piece (Elt F) S512x1024 .f32)) (LS2 : List (View.Piece (Elt F) S512x1024 .f32)), { LS3 : List (View.Piece (Elt F) S512x1024 .f32) //
      ∀ (xi15 xi16 : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare xi15 ∗ owns (c : Thread nD τ) arg19 fullShare xi16 ∗ owns (c : Thread nD τ) arg20 fullShare xs0 ∗ owns (c : Thread nD τ) arg21 fullShare xs1 ∗ owns (c : Thread nD τ) arg22 fullShare xs2 ∗ owns (c : Thread nD τ) arg23 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare xi15 ∗ owns (c : Thread nD τ) arg19 fullShare xi16 ∗ (∃ f, arg20.view.loc (c : Thread nD τ) ↦[arg20.view.set]{fullShare} arg20.view.writes (Elt F) f LS0) ∗ (∃ f, arg21.view.loc (c : Thread nD τ) ↦[arg21.view.set]{fullShare} arg21.view.writes (Elt F) f LS1) ∗ (∃ f, arg22.view.loc (c : Thread nD τ) ↦[arg22.view.set]{fullShare} arg22.view.writes (Elt F) f LS2) ∗ (∃ f, arg23.view.loc (c : Thread nD τ) ↦[arg23.view.set]{fullShare} arg23.view.writes (Elt F) f LS3)) -∗ K ⟨⟩))
          ⊢ wp frame (wpE (defs₀ (F := F)) Variants.none c none) E (cc0__lstm_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨[], [], ?_, ?_, ?_, ?_, fun xi15 xi16 E K => ?run⟩
  case run =>
    simp only [cc0__lstm_kernel_eq_skeleton]; unfold cc0__lstm_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hfs0; obtain rfl := harg21.eq_unread hfs1; obtain rfl := harg22.eq_unread hfs2; obtain rfl := harg23.eq_unread hfs3
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    isplitl [H16]
    · iexists _; isplitr; · ipureintro; exact harg19.read_unread _
      iexact H16
    isplitl [HS0]; · iexists _; iexact HS0
    isplitl [HS1]; · iexists _; iexact HS1
    isplitl [HS2]; · iexists _; iexact HS2
    iexists _; iexact HS3

end Cert.KernelIdeal.Gen

end
-- ==== Proof.Ideal.RunLast.lean ====
/-
  The kernel body run once, symbolically, at a point with k = 11: the last recurrent slice is added, then each accumulator is overwritten by its gate (bias added, sigmoid or tanh applied), and the new state and the output are stored into the two result windows.
  The run is a triple: from the windows' staging buffers at given contents and the accumulators, the body runs to its
  end without a fault, leaves every input buffer as it was, and leaves in each buffer it stores into the list of
  rectangles written with their values (the witness the run finds).
-/
import proofs.«125515_j24756191494330_2_alg».proof.Proof.Ideal.RunHidden

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's triple when k = 11: the last recurrent slice is added, then each accumulator is overwritten by its gate (bias added, sigmoid or tanh applied), and the new state and the output are stored into the two result windows. -/
noncomputable def runLast (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x1 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x1 .f32) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x1 .f32) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x1 .f32) (harg17 : arg17.IsWhole) (arg18 : Memref sig .tc .vmem S512x1024 .f32) (harg18 : arg18.IsWhole) (arg19 : Memref sig .tc .vmem S512x1024 .f32) (harg19 : arg19.IsWhole) (arg20 : Memref sig .tc .vmem S512x1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1024 .f32) (harg23 : arg23.IsWhole) (hc0 : ¬cond0_0 i) (hc1 : ¬cond0_1 i) (hc2 : cond0_2 i) (hc3 : cond0_3 i)
    (x0 : Vec F S512x1024 .bf16) (x1 : Vec F S512x1024 .bf16) (x2 : Vec F S512x1024 .f32) (x3 : Vec F S512x512 .bf16) (x4 : Vec F S512x512 .bf16) (x5 : Vec F S512x1 .f32) (x6 : Vec F S512x512 .bf16) (x7 : Vec F S512x512 .bf16) (x8 : Vec F S512x1 .f32) (x9 : Vec F S512x512 .bf16) (x10 : Vec F S512x512 .bf16) (x11 : Vec F S512x1 .f32) (x12 : Vec F S512x512 .bf16) (x13 : Vec F S512x512 .bf16) (x14 : Vec F S512x1 .f32) (xs0 xs1 xs2 xs3 : Vec F S512x1024 .f32) :
    Σ' (L15 : List (View.Piece (Elt F) S512x1024 .f32)) (L16 : List (View.Piece (Elt F) S512x1024 .f32)) (LS0 : List (View.Piece (Elt F) S512x1024 .f32)) (LS1 : List (View.Piece (Elt F) S512x1024 .f32)) (LS2 : List (View.Piece (Elt F) S512x1024 .f32)), { LS3 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ (∃ d, owns (c : Thread nD τ) arg18 fullShare d) ∗ (∃ d, owns (c : Thread nD τ) arg19 fullShare d) ∗ owns (c : Thread nD τ) arg20 fullShare xs0 ∗ owns (c : Thread nD τ) arg21 fullShare xs1 ∗ owns (c : Thread nD τ) arg22 fullShare xs2 ∗ owns (c : Thread nD τ) arg23 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ (∃ f, arg18.view.loc (c : Thread nD τ) ↦[arg18.view.set]{fullShare} arg18.view.writes (Elt F) f L15) ∗ (∃ f, arg19.view.loc (c : Thread nD τ) ↦[arg19.view.set]{fullShare} arg19.view.writes (Elt F) f L16) ∗ (∃ f, arg20.view.loc (c : Thread nD τ) ↦[arg20.view.set]{fullShare} arg20.view.writes (Elt F) f LS0) ∗ (∃ f, arg21.view.loc (c : Thread nD τ) ↦[arg21.view.set]{fullShare} arg21.view.writes (Elt F) f LS1) ∗ (∃ f, arg22.view.loc (c : Thread nD τ) ↦[arg22.view.set]{fullShare} arg22.view.writes (Elt F) f LS2) ∗ (∃ f, arg23.view.loc (c : Thread nD τ) ↦[arg23.view.set]{fullShare} arg23.view.writes (Elt F) f LS3)) -∗ K ⟨⟩))
          ⊢ wp frame (wpE (defs₀ (F := F)) Variants.none c none) E (cc0__lstm_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, ?_, fun E K => ?run⟩
  case run =>
    simp only [cc0__lstm_kernel_eq_skeleton]; unfold cc0__lstm_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg20.eq_unread hfs0; obtain rfl := harg21.eq_unread hfs1; obtain rfl := harg22.eq_unread hfs2; obtain rfl := harg23.eq_unread hfs3
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]; · iexists _; iexact H15
    isplitl [H16]; · iexists _; iexact H16
    isplitl [HS0]; · iexists _; iexact HS0
    isplitl [HS1]; · iexists _; iexact HS1
    isplitl [HS2]; · iexists _; iexact HS2
    iexists _; iexact HS3

end Cert.KernelIdeal.Gen

end
-- ==== Proof.Ideal.Data.lean ====
/-
  What the body leaves behind, point by point. Each gate accumulator is a scratch buffer the kernel keeps between
  points, so what it holds after point t is defined by recursion on t: at k = 0 the case's own stores (the cleared
  buffer plus one slice), at every other k the case's stores over what point t - 1 left. The two result buffers hold
  the case's stores at k = 11 and are idle elsewhere. From this the pipeline's proof data: the arrays as the region
  finds them, each input buffer at its block, each result buffer and accumulator at the recursion's value, and the
  invariant that carries the accumulators from one point to the next.
-/
import proofs.«125515_j24756191494330_2_alg».proof.Proof.Ideal.RunLast

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Every store covers its whole buffer -/

theorem coverFirst_LS0 (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x1 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x1 .f32) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x1 .f32) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x1 .f32) (harg17 : arg17.IsWhole) (arg18 : Memref sig .tc .vmem S512x1024 .f32) (harg18 : arg18.IsWhole) (arg19 : Memref sig .tc .vmem S512x1024 .f32) (harg19 : arg19.IsWhole) (arg20 : Memref sig .tc .vmem S512x1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1024 .f32) (harg23 : arg23.IsWhole) (hc0 : cond0_0 i) (hc1 : cond0_1 i) (hc2 : ¬cond0_2 i) (hc3 : ¬cond0_3 i)
    (x0 : Vec F S512x1024 .bf16) (x1 : Vec F S512x1024 .bf16) (x2 : Vec F S512x1024 .f32) (x3 : Vec F S512x512 .bf16) (x4 : Vec F S512x512 .bf16) (x5 : Vec F S512x1 .f32) (x6 : Vec F S512x512 .bf16) (x7 : Vec F S512x512 .bf16) (x8 : Vec F S512x1 .f32) (x9 : Vec F S512x512 .bf16) (x10 : Vec F S512x512 .bf16) (x11 : Vec F S512x1 .f32) (x12 : Vec F S512x512 .bf16) (x13 : Vec F S512x512 .bf16) (x14 : Vec F S512x1 .f32) (y : S512x1024.Idx) :
    ∃ pc ∈ (runFirst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14).2.2.1, y ∈ pc.1.set :=
  View.cover_of_tiledL (runFirst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14).2.2.1 S512x1024.size (by sl_kernel_rfl) y
theorem coverFirst_LS1 (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x1 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x1 .f32) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x1 .f32) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x1 .f32) (harg17 : arg17.IsWhole) (arg18 : Memref sig .tc .vmem S512x1024 .f32) (harg18 : arg18.IsWhole) (arg19 : Memref sig .tc .vmem S512x1024 .f32) (harg19 : arg19.IsWhole) (arg20 : Memref sig .tc .vmem S512x1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1024 .f32) (harg23 : arg23.IsWhole) (hc0 : cond0_0 i) (hc1 : cond0_1 i) (hc2 : ¬cond0_2 i) (hc3 : ¬cond0_3 i)
    (x0 : Vec F S512x1024 .bf16) (x1 : Vec F S512x1024 .bf16) (x2 : Vec F S512x1024 .f32) (x3 : Vec F S512x512 .bf16) (x4 : Vec F S512x512 .bf16) (x5 : Vec F S512x1 .f32) (x6 : Vec F S512x512 .bf16) (x7 : Vec F S512x512 .bf16) (x8 : Vec F S512x1 .f32) (x9 : Vec F S512x512 .bf16) (x10 : Vec F S512x512 .bf16) (x11 : Vec F S512x1 .f32) (x12 : Vec F S512x512 .bf16) (x13 : Vec F S512x512 .bf16) (x14 : Vec F S512x1 .f32) (y : S512x1024.Idx) :
    ∃ pc ∈ (runFirst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14).2.2.2.1, y ∈ pc.1.set :=
  View.cover_of_tiledL (runFirst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14).2.2.2.1 S512x1024.size (by sl_kernel_rfl) y
theorem coverFirst_LS2 (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x1 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x1 .f32) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x1 .f32) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x1 .f32) (harg17 : arg17.IsWhole) (arg18 : Memref sig .tc .vmem S512x1024 .f32) (harg18 : arg18.IsWhole) (arg19 : Memref sig .tc .vmem S512x1024 .f32) (harg19 : arg19.IsWhole) (arg20 : Memref sig .tc .vmem S512x1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1024 .f32) (harg23 : arg23.IsWhole) (hc0 : cond0_0 i) (hc1 : cond0_1 i) (hc2 : ¬cond0_2 i) (hc3 : ¬cond0_3 i)
    (x0 : Vec F S512x1024 .bf16) (x1 : Vec F S512x1024 .bf16) (x2 : Vec F S512x1024 .f32) (x3 : Vec F S512x512 .bf16) (x4 : Vec F S512x512 .bf16) (x5 : Vec F S512x1 .f32) (x6 : Vec F S512x512 .bf16) (x7 : Vec F S512x512 .bf16) (x8 : Vec F S512x1 .f32) (x9 : Vec F S512x512 .bf16) (x10 : Vec F S512x512 .bf16) (x11 : Vec F S512x1 .f32) (x12 : Vec F S512x512 .bf16) (x13 : Vec F S512x512 .bf16) (x14 : Vec F S512x1 .f32) (y : S512x1024.Idx) :
    ∃ pc ∈ (runFirst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14).2.2.2.2.1, y ∈ pc.1.set :=
  View.cover_of_tiledL (runFirst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14).2.2.2.2.1 S512x1024.size (by sl_kernel_rfl) y
theorem coverFirst_LS3 (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x1 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x1 .f32) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x1 .f32) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x1 .f32) (harg17 : arg17.IsWhole) (arg18 : Memref sig .tc .vmem S512x1024 .f32) (harg18 : arg18.IsWhole) (arg19 : Memref sig .tc .vmem S512x1024 .f32) (harg19 : arg19.IsWhole) (arg20 : Memref sig .tc .vmem S512x1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1024 .f32) (harg23 : arg23.IsWhole) (hc0 : cond0_0 i) (hc1 : cond0_1 i) (hc2 : ¬cond0_2 i) (hc3 : ¬cond0_3 i)
    (x0 : Vec F S512x1024 .bf16) (x1 : Vec F S512x1024 .bf16) (x2 : Vec F S512x1024 .f32) (x3 : Vec F S512x512 .bf16) (x4 : Vec F S512x512 .bf16) (x5 : Vec F S512x1 .f32) (x6 : Vec F S512x512 .bf16) (x7 : Vec F S512x512 .bf16) (x8 : Vec F S512x1 .f32) (x9 : Vec F S512x512 .bf16) (x10 : Vec F S512x512 .bf16) (x11 : Vec F S512x1 .f32) (x12 : Vec F S512x512 .bf16) (x13 : Vec F S512x512 .bf16) (x14 : Vec F S512x1 .f32) (y : S512x1024.Idx) :
    ∃ pc ∈ (runFirst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14).2.2.2.2.2.1, y ∈ pc.1.set :=
  View.cover_of_tiledL (runFirst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14).2.2.2.2.2.1 S512x1024.size (by sl_kernel_rfl) y
theorem coverInput_LS0 (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x1 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x1 .f32) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x1 .f32) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x1 .f32) (harg17 : arg17.IsWhole) (arg18 : Memref sig .tc .vmem S512x1024 .f32) (harg18 : arg18.IsWhole) (arg19 : Memref sig .tc .vmem S512x1024 .f32) (harg19 : arg19.IsWhole) (arg20 : Memref sig .tc .vmem S512x1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1024 .f32) (harg23 : arg23.IsWhole) (hc0 : ¬cond0_0 i) (hc1 : cond0_1 i) (hc2 : ¬cond0_2 i) (hc3 : ¬cond0_3 i)
    (x0 : Vec F S512x1024 .bf16) (x1 : Vec F S512x1024 .bf16) (x2 : Vec F S512x1024 .f32) (x3 : Vec F S512x512 .bf16) (x4 : Vec F S512x512 .bf16) (x5 : Vec F S512x1 .f32) (x6 : Vec F S512x512 .bf16) (x7 : Vec F S512x512 .bf16) (x8 : Vec F S512x1 .f32) (x9 : Vec F S512x512 .bf16) (x10 : Vec F S512x512 .bf16) (x11 : Vec F S512x1 .f32) (x12 : Vec F S512x512 .bf16) (x13 : Vec F S512x512 .bf16) (x14 : Vec F S512x1 .f32) (xs0 xs1 xs2 xs3 : Vec F S512x1024 .f32) (y : S512x1024.Idx) :
    ∃ pc ∈ (runInput c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14 xs0 xs1 xs2 xs3).2.2.1, y ∈ pc.1.set :=
  View.cover_of_tiledL (runInput c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14 xs0 xs1 xs2 xs3).2.2.1 S512x1024.size (by sl_kernel_rfl) y
theorem coverInput_LS1 (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x1 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x1 .f32) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x1 .f32) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x1 .f32) (harg17 : arg17.IsWhole) (arg18 : Memref sig .tc .vmem S512x1024 .f32) (harg18 : arg18.IsWhole) (arg19 : Memref sig .tc .vmem S512x1024 .f32) (harg19 : arg19.IsWhole) (arg20 : Memref sig .tc .vmem S512x1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1024 .f32) (harg23 : arg23.IsWhole) (hc0 : ¬cond0_0 i) (hc1 : cond0_1 i) (hc2 : ¬cond0_2 i) (hc3 : ¬cond0_3 i)
    (x0 : Vec F S512x1024 .bf16) (x1 : Vec F S512x1024 .bf16) (x2 : Vec F S512x1024 .f32) (x3 : Vec F S512x512 .bf16) (x4 : Vec F S512x512 .bf16) (x5 : Vec F S512x1 .f32) (x6 : Vec F S512x512 .bf16) (x7 : Vec F S512x512 .bf16) (x8 : Vec F S512x1 .f32) (x9 : Vec F S512x512 .bf16) (x10 : Vec F S512x512 .bf16) (x11 : Vec F S512x1 .f32) (x12 : Vec F S512x512 .bf16) (x13 : Vec F S512x512 .bf16) (x14 : Vec F S512x1 .f32) (xs0 xs1 xs2 xs3 : Vec F S512x1024 .f32) (y : S512x1024.Idx) :
    ∃ pc ∈ (runInput c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14 xs0 xs1 xs2 xs3).2.2.2.1, y ∈ pc.1.set :=
  View.cover_of_tiledL (runInput c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14 xs0 xs1 xs2 xs3).2.2.2.1 S512x1024.size (by sl_kernel_rfl) y
theorem coverInput_LS2 (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x1 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x1 .f32) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x1 .f32) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x1 .f32) (harg17 : arg17.IsWhole) (arg18 : Memref sig .tc .vmem S512x1024 .f32) (harg18 : arg18.IsWhole) (arg19 : Memref sig .tc .vmem S512x1024 .f32) (harg19 : arg19.IsWhole) (arg20 : Memref sig .tc .vmem S512x1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1024 .f32) (harg23 : arg23.IsWhole) (hc0 : ¬cond0_0 i) (hc1 : cond0_1 i) (hc2 : ¬cond0_2 i) (hc3 : ¬cond0_3 i)
    (x0 : Vec F S512x1024 .bf16) (x1 : Vec F S512x1024 .bf16) (x2 : Vec F S512x1024 .f32) (x3 : Vec F S512x512 .bf16) (x4 : Vec F S512x512 .bf16) (x5 : Vec F S512x1 .f32) (x6 : Vec F S512x512 .bf16) (x7 : Vec F S512x512 .bf16) (x8 : Vec F S512x1 .f32) (x9 : Vec F S512x512 .bf16) (x10 : Vec F S512x512 .bf16) (x11 : Vec F S512x1 .f32) (x12 : Vec F S512x512 .bf16) (x13 : Vec F S512x512 .bf16) (x14 : Vec F S512x1 .f32) (xs0 xs1 xs2 xs3 : Vec F S512x1024 .f32) (y : S512x1024.Idx) :
    ∃ pc ∈ (runInput c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14 xs0 xs1 xs2 xs3).2.2.2.2.1, y ∈ pc.1.set :=
  View.cover_of_tiledL (runInput c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14 xs0 xs1 xs2 xs3).2.2.2.2.1 S512x1024.size (by sl_kernel_rfl) y
theorem coverInput_LS3 (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x1 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x1 .f32) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x1 .f32) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x1 .f32) (harg17 : arg17.IsWhole) (arg18 : Memref sig .tc .vmem S512x1024 .f32) (harg18 : arg18.IsWhole) (arg19 : Memref sig .tc .vmem S512x1024 .f32) (harg19 : arg19.IsWhole) (arg20 : Memref sig .tc .vmem S512x1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1024 .f32) (harg23 : arg23.IsWhole) (hc0 : ¬cond0_0 i) (hc1 : cond0_1 i) (hc2 : ¬cond0_2 i) (hc3 : ¬cond0_3 i)
    (x0 : Vec F S512x1024 .bf16) (x1 : Vec F S512x1024 .bf16) (x2 : Vec F S512x1024 .f32) (x3 : Vec F S512x512 .bf16) (x4 : Vec F S512x512 .bf16) (x5 : Vec F S512x1 .f32) (x6 : Vec F S512x512 .bf16) (x7 : Vec F S512x512 .bf16) (x8 : Vec F S512x1 .f32) (x9 : Vec F S512x512 .bf16) (x10 : Vec F S512x512 .bf16) (x11 : Vec F S512x1 .f32) (x12 : Vec F S512x512 .bf16) (x13 : Vec F S512x512 .bf16) (x14 : Vec F S512x1 .f32) (xs0 xs1 xs2 xs3 : Vec F S512x1024 .f32) (y : S512x1024.Idx) :
    ∃ pc ∈ (runInput c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14 xs0 xs1 xs2 xs3).2.2.2.2.2.1, y ∈ pc.1.set :=
  View.cover_of_tiledL (runInput c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14 xs0 xs1 xs2 xs3).2.2.2.2.2.1 S512x1024.size (by sl_kernel_rfl) y
theorem coverHidden_LS0 (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x1 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x1 .f32) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x1 .f32) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x1 .f32) (harg17 : arg17.IsWhole) (arg18 : Memref sig .tc .vmem S512x1024 .f32) (harg18 : arg18.IsWhole) (arg19 : Memref sig .tc .vmem S512x1024 .f32) (harg19 : arg19.IsWhole) (arg20 : Memref sig .tc .vmem S512x1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1024 .f32) (harg23 : arg23.IsWhole) (hc0 : ¬cond0_0 i) (hc1 : ¬cond0_1 i) (hc2 : cond0_2 i) (hc3 : ¬cond0_3 i)
    (x0 : Vec F S512x1024 .bf16) (x1 : Vec F S512x1024 .bf16) (x2 : Vec F S512x1024 .f32) (x3 : Vec F S512x512 .bf16) (x4 : Vec F S512x512 .bf16) (x5 : Vec F S512x1 .f32) (x6 : Vec F S512x512 .bf16) (x7 : Vec F S512x512 .bf16) (x8 : Vec F S512x1 .f32) (x9 : Vec F S512x512 .bf16) (x10 : Vec F S512x512 .bf16) (x11 : Vec F S512x1 .f32) (x12 : Vec F S512x512 .bf16) (x13 : Vec F S512x512 .bf16) (x14 : Vec F S512x1 .f32) (xs0 xs1 xs2 xs3 : Vec F S512x1024 .f32) (y : S512x1024.Idx) :
    ∃ pc ∈ (runHidden c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14 xs0 xs1 xs2 xs3).2.2.1, y ∈ pc.1.set :=
  View.cover_of_tiledL (runHidden c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14 xs0 xs1 xs2 xs3).2.2.1 S512x1024.size (by sl_kernel_rfl) y
theorem coverHidden_LS1 (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x1 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x1 .f32) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x1 .f32) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x1 .f32) (harg17 : arg17.IsWhole) (arg18 : Memref sig .tc .vmem S512x1024 .f32) (harg18 : arg18.IsWhole) (arg19 : Memref sig .tc .vmem S512x1024 .f32) (harg19 : arg19.IsWhole) (arg20 : Memref sig .tc .vmem S512x1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1024 .f32) (harg23 : arg23.IsWhole) (hc0 : ¬cond0_0 i) (hc1 : ¬cond0_1 i) (hc2 : cond0_2 i) (hc3 : ¬cond0_3 i)
    (x0 : Vec F S512x1024 .bf16) (x1 : Vec F S512x1024 .bf16) (x2 : Vec F S512x1024 .f32) (x3 : Vec F S512x512 .bf16) (x4 : Vec F S512x512 .bf16) (x5 : Vec F S512x1 .f32) (x6 : Vec F S512x512 .bf16) (x7 : Vec F S512x512 .bf16) (x8 : Vec F S512x1 .f32) (x9 : Vec F S512x512 .bf16) (x10 : Vec F S512x512 .bf16) (x11 : Vec F S512x1 .f32) (x12 : Vec F S512x512 .bf16) (x13 : Vec F S512x512 .bf16) (x14 : Vec F S512x1 .f32) (xs0 xs1 xs2 xs3 : Vec F S512x1024 .f32) (y : S512x1024.Idx) :
    ∃ pc ∈ (runHidden c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14 xs0 xs1 xs2 xs3).2.2.2.1, y ∈ pc.1.set :=
  View.cover_of_tiledL (runHidden c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14 xs0 xs1 xs2 xs3).2.2.2.1 S512x1024.size (by sl_kernel_rfl) y
theorem coverHidden_LS2 (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x1 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x1 .f32) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x1 .f32) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x1 .f32) (harg17 : arg17.IsWhole) (arg18 : Memref sig .tc .vmem S512x1024 .f32) (harg18 : arg18.IsWhole) (arg19 : Memref sig .tc .vmem S512x1024 .f32) (harg19 : arg19.IsWhole) (arg20 : Memref sig .tc .vmem S512x1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1024 .f32) (harg23 : arg23.IsWhole) (hc0 : ¬cond0_0 i) (hc1 : ¬cond0_1 i) (hc2 : cond0_2 i) (hc3 : ¬cond0_3 i)
    (x0 : Vec F S512x1024 .bf16) (x1 : Vec F S512x1024 .bf16) (x2 : Vec F S512x1024 .f32) (x3 : Vec F S512x512 .bf16) (x4 : Vec F S512x512 .bf16) (x5 : Vec F S512x1 .f32) (x6 : Vec F S512x512 .bf16) (x7 : Vec F S512x512 .bf16) (x8 : Vec F S512x1 .f32) (x9 : Vec F S512x512 .bf16) (x10 : Vec F S512x512 .bf16) (x11 : Vec F S512x1 .f32) (x12 : Vec F S512x512 .bf16) (x13 : Vec F S512x512 .bf16) (x14 : Vec F S512x1 .f32) (xs0 xs1 xs2 xs3 : Vec F S512x1024 .f32) (y : S512x1024.Idx) :
    ∃ pc ∈ (runHidden c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14 xs0 xs1 xs2 xs3).2.2.2.2.1, y ∈ pc.1.set :=
  View.cover_of_tiledL (runHidden c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14 xs0 xs1 xs2 xs3).2.2.2.2.1 S512x1024.size (by sl_kernel_rfl) y
theorem coverHidden_LS3 (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x1 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x1 .f32) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x1 .f32) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x1 .f32) (harg17 : arg17.IsWhole) (arg18 : Memref sig .tc .vmem S512x1024 .f32) (harg18 : arg18.IsWhole) (arg19 : Memref sig .tc .vmem S512x1024 .f32) (harg19 : arg19.IsWhole) (arg20 : Memref sig .tc .vmem S512x1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1024 .f32) (harg23 : arg23.IsWhole) (hc0 : ¬cond0_0 i) (hc1 : ¬cond0_1 i) (hc2 : cond0_2 i) (hc3 : ¬cond0_3 i)
    (x0 : Vec F S512x1024 .bf16) (x1 : Vec F S512x1024 .bf16) (x2 : Vec F S512x1024 .f32) (x3 : Vec F S512x512 .bf16) (x4 : Vec F S512x512 .bf16) (x5 : Vec F S512x1 .f32) (x6 : Vec F S512x512 .bf16) (x7 : Vec F S512x512 .bf16) (x8 : Vec F S512x1 .f32) (x9 : Vec F S512x512 .bf16) (x10 : Vec F S512x512 .bf16) (x11 : Vec F S512x1 .f32) (x12 : Vec F S512x512 .bf16) (x13 : Vec F S512x512 .bf16) (x14 : Vec F S512x1 .f32) (xs0 xs1 xs2 xs3 : Vec F S512x1024 .f32) (y : S512x1024.Idx) :
    ∃ pc ∈ (runHidden c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14 xs0 xs1 xs2 xs3).2.2.2.2.2.1, y ∈ pc.1.set :=
  View.cover_of_tiledL (runHidden c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14 xs0 xs1 xs2 xs3).2.2.2.2.2.1 S512x1024.size (by sl_kernel_rfl) y
theorem coverLast_L15 (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x1 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x1 .f32) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x1 .f32) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x1 .f32) (harg17 : arg17.IsWhole) (arg18 : Memref sig .tc .vmem S512x1024 .f32) (harg18 : arg18.IsWhole) (arg19 : Memref sig .tc .vmem S512x1024 .f32) (harg19 : arg19.IsWhole) (arg20 : Memref sig .tc .vmem S512x1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1024 .f32) (harg23 : arg23.IsWhole) (hc0 : ¬cond0_0 i) (hc1 : ¬cond0_1 i) (hc2 : cond0_2 i) (hc3 : cond0_3 i)
    (x0 : Vec F S512x1024 .bf16) (x1 : Vec F S512x1024 .bf16) (x2 : Vec F S512x1024 .f32) (x3 : Vec F S512x512 .bf16) (x4 : Vec F S512x512 .bf16) (x5 : Vec F S512x1 .f32) (x6 : Vec F S512x512 .bf16) (x7 : Vec F S512x512 .bf16) (x8 : Vec F S512x1 .f32) (x9 : Vec F S512x512 .bf16) (x10 : Vec F S512x512 .bf16) (x11 : Vec F S512x1 .f32) (x12 : Vec F S512x512 .bf16) (x13 : Vec F S512x512 .bf16) (x14 : Vec F S512x1 .f32) (xs0 xs1 xs2 xs3 : Vec F S512x1024 .f32) (y : S512x1024.Idx) :
    ∃ pc ∈ (runLast c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14 xs0 xs1 xs2 xs3).1, y ∈ pc.1.set :=
  View.cover_of_tiledL (runLast c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14 xs0 xs1 xs2 xs3).1 S512x1024.size (by sl_kernel_rfl) y
theorem coverLast_L16 (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x1 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x1 .f32) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x1 .f32) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x1 .f32) (harg17 : arg17.IsWhole) (arg18 : Memref sig .tc .vmem S512x1024 .f32) (harg18 : arg18.IsWhole) (arg19 : Memref sig .tc .vmem S512x1024 .f32) (harg19 : arg19.IsWhole) (arg20 : Memref sig .tc .vmem S512x1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1024 .f32) (harg23 : arg23.IsWhole) (hc0 : ¬cond0_0 i) (hc1 : ¬cond0_1 i) (hc2 : cond0_2 i) (hc3 : cond0_3 i)
    (x0 : Vec F S512x1024 .bf16) (x1 : Vec F S512x1024 .bf16) (x2 : Vec F S512x1024 .f32) (x3 : Vec F S512x512 .bf16) (x4 : Vec F S512x512 .bf16) (x5 : Vec F S512x1 .f32) (x6 : Vec F S512x512 .bf16) (x7 : Vec F S512x512 .bf16) (x8 : Vec F S512x1 .f32) (x9 : Vec F S512x512 .bf16) (x10 : Vec F S512x512 .bf16) (x11 : Vec F S512x1 .f32) (x12 : Vec F S512x512 .bf16) (x13 : Vec F S512x512 .bf16) (x14 : Vec F S512x1 .f32) (xs0 xs1 xs2 xs3 : Vec F S512x1024 .f32) (y : S512x1024.Idx) :
    ∃ pc ∈ (runLast c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14 xs0 xs1 xs2 xs3).2.1, y ∈ pc.1.set :=
  View.cover_of_tiledL (runLast c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14 xs0 xs1 xs2 xs3).2.1 S512x1024.size (by sl_kernel_rfl) y
theorem coverLast_LS0 (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x1 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x1 .f32) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x1 .f32) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x1 .f32) (harg17 : arg17.IsWhole) (arg18 : Memref sig .tc .vmem S512x1024 .f32) (harg18 : arg18.IsWhole) (arg19 : Memref sig .tc .vmem S512x1024 .f32) (harg19 : arg19.IsWhole) (arg20 : Memref sig .tc .vmem S512x1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1024 .f32) (harg23 : arg23.IsWhole) (hc0 : ¬cond0_0 i) (hc1 : ¬cond0_1 i) (hc2 : cond0_2 i) (hc3 : cond0_3 i)
    (x0 : Vec F S512x1024 .bf16) (x1 : Vec F S512x1024 .bf16) (x2 : Vec F S512x1024 .f32) (x3 : Vec F S512x512 .bf16) (x4 : Vec F S512x512 .bf16) (x5 : Vec F S512x1 .f32) (x6 : Vec F S512x512 .bf16) (x7 : Vec F S512x512 .bf16) (x8 : Vec F S512x1 .f32) (x9 : Vec F S512x512 .bf16) (x10 : Vec F S512x512 .bf16) (x11 : Vec F S512x1 .f32) (x12 : Vec F S512x512 .bf16) (x13 : Vec F S512x512 .bf16) (x14 : Vec F S512x1 .f32) (xs0 xs1 xs2 xs3 : Vec F S512x1024 .f32) (y : S512x1024.Idx) :
    ∃ pc ∈ (runLast c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14 xs0 xs1 xs2 xs3).2.2.1, y ∈ pc.1.set :=
  View.cover_of_tiledL (runLast c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14 xs0 xs1 xs2 xs3).2.2.1 S512x1024.size (by sl_kernel_rfl) y
theorem coverLast_LS1 (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x1 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x1 .f32) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x1 .f32) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x1 .f32) (harg17 : arg17.IsWhole) (arg18 : Memref sig .tc .vmem S512x1024 .f32) (harg18 : arg18.IsWhole) (arg19 : Memref sig .tc .vmem S512x1024 .f32) (harg19 : arg19.IsWhole) (arg20 : Memref sig .tc .vmem S512x1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1024 .f32) (harg23 : arg23.IsWhole) (hc0 : ¬cond0_0 i) (hc1 : ¬cond0_1 i) (hc2 : cond0_2 i) (hc3 : cond0_3 i)
    (x0 : Vec F S512x1024 .bf16) (x1 : Vec F S512x1024 .bf16) (x2 : Vec F S512x1024 .f32) (x3 : Vec F S512x512 .bf16) (x4 : Vec F S512x512 .bf16) (x5 : Vec F S512x1 .f32) (x6 : Vec F S512x512 .bf16) (x7 : Vec F S512x512 .bf16) (x8 : Vec F S512x1 .f32) (x9 : Vec F S512x512 .bf16) (x10 : Vec F S512x512 .bf16) (x11 : Vec F S512x1 .f32) (x12 : Vec F S512x512 .bf16) (x13 : Vec F S512x512 .bf16) (x14 : Vec F S512x1 .f32) (xs0 xs1 xs2 xs3 : Vec F S512x1024 .f32) (y : S512x1024.Idx) :
    ∃ pc ∈ (runLast c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14 xs0 xs1 xs2 xs3).2.2.2.1, y ∈ pc.1.set :=
  View.cover_of_tiledL (runLast c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14 xs0 xs1 xs2 xs3).2.2.2.1 S512x1024.size (by sl_kernel_rfl) y
theorem coverLast_LS2 (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x1 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x1 .f32) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x1 .f32) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x1 .f32) (harg17 : arg17.IsWhole) (arg18 : Memref sig .tc .vmem S512x1024 .f32) (harg18 : arg18.IsWhole) (arg19 : Memref sig .tc .vmem S512x1024 .f32) (harg19 : arg19.IsWhole) (arg20 : Memref sig .tc .vmem S512x1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1024 .f32) (harg23 : arg23.IsWhole) (hc0 : ¬cond0_0 i) (hc1 : ¬cond0_1 i) (hc2 : cond0_2 i) (hc3 : cond0_3 i)
    (x0 : Vec F S512x1024 .bf16) (x1 : Vec F S512x1024 .bf16) (x2 : Vec F S512x1024 .f32) (x3 : Vec F S512x512 .bf16) (x4 : Vec F S512x512 .bf16) (x5 : Vec F S512x1 .f32) (x6 : Vec F S512x512 .bf16) (x7 : Vec F S512x512 .bf16) (x8 : Vec F S512x1 .f32) (x9 : Vec F S512x512 .bf16) (x10 : Vec F S512x512 .bf16) (x11 : Vec F S512x1 .f32) (x12 : Vec F S512x512 .bf16) (x13 : Vec F S512x512 .bf16) (x14 : Vec F S512x1 .f32) (xs0 xs1 xs2 xs3 : Vec F S512x1024 .f32) (y : S512x1024.Idx) :
    ∃ pc ∈ (runLast c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14 xs0 xs1 xs2 xs3).2.2.2.2.1, y ∈ pc.1.set :=
  View.cover_of_tiledL (runLast c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14 xs0 xs1 xs2 xs3).2.2.2.2.1 S512x1024.size (by sl_kernel_rfl) y
theorem coverLast_LS3 (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x1 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x1 .f32) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x1 .f32) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x1 .f32) (harg17 : arg17.IsWhole) (arg18 : Memref sig .tc .vmem S512x1024 .f32) (harg18 : arg18.IsWhole) (arg19 : Memref sig .tc .vmem S512x1024 .f32) (harg19 : arg19.IsWhole) (arg20 : Memref sig .tc .vmem S512x1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1024 .f32) (harg23 : arg23.IsWhole) (hc0 : ¬cond0_0 i) (hc1 : ¬cond0_1 i) (hc2 : cond0_2 i) (hc3 : cond0_3 i)
    (x0 : Vec F S512x1024 .bf16) (x1 : Vec F S512x1024 .bf16) (x2 : Vec F S512x1024 .f32) (x3 : Vec F S512x512 .bf16) (x4 : Vec F S512x512 .bf16) (x5 : Vec F S512x1 .f32) (x6 : Vec F S512x512 .bf16) (x7 : Vec F S512x512 .bf16) (x8 : Vec F S512x1 .f32) (x9 : Vec F S512x512 .bf16) (x10 : Vec F S512x512 .bf16) (x11 : Vec F S512x1 .f32) (x12 : Vec F S512x512 .bf16) (x13 : Vec F S512x512 .bf16) (x14 : Vec F S512x1 .f32) (xs0 xs1 xs2 xs3 : Vec F S512x1024 .f32) (y : S512x1024.Idx) :
    ∃ pc ∈ (runLast c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14 xs0 xs1 xs2 xs3).2.2.2.2.2.1, y ∈ pc.1.set :=
  View.cover_of_tiledL (runLast c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 x14 xs0 xs1 xs2 xs3).2.2.2.2.2.1 S512x1024.size (by sl_kernel_rfl) y

/-! ## The cases at a grid point -/

/-- What is held after a point: the two result buffers and the four accumulators. -/
structure Held (F : FTy → Type) [FloatOps F] where
  o15 : Vec F S512x1024 .f32
  o16 : Vec F S512x1024 .f32
  a0 : Vec F S512x1024 .f32
  a1 : Vec F S512x1024 .f32
  a2 : Vec F S512x1024 .f32
  a3 : Vec F S512x1024 .f32

/-- A result buffer at a point where its window is idle: nothing reads this value. -/
def idleOut : Vec F S512x1024 .f32 := View.canon (Val := Elt F) (s := S512x1024) (e := .f32) []

/-- The case's run at point `t`, on the buffers the pipeline passes there and the input blocks. -/
def atFirst (c : Dev nD) (t : Fin cfg0.N) (h : t.val % 12 = 0) :=
  runFirst (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) ((hcond0_0 t).mpr (by omega)) ((hcond0_1 t).mpr (by omega)) (fun hh => absurd ((hcond0_2 t).mp hh) (by omega)) (fun hh => absurd ((hcond0_3 t).mp hh) (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)

/-- What that run leaves. -/
def heldFirst (c : Dev nD) (t : Fin cfg0.N) (h : t.val % 12 = 0) : Held F :=
  ⟨idleOut, idleOut, View.canon (atFirst m c t h).2.2.1, View.canon (atFirst m c t h).2.2.2.1, View.canon (atFirst m c t h).2.2.2.2.1, View.canon (atFirst m c t h).2.2.2.2.2.1⟩

/-- The case's run at point `t`, on the buffers the pipeline passes there and the input blocks. -/
def atInput (c : Dev nD) (t : Fin cfg0.N) (h0 : ¬t.val % 12 = 0) (h1 : t.val % 12 < 4) (p : Held F) :=
  runInput (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (fun hh => absurd ((hcond0_0 t).mp hh) (by omega)) ((hcond0_1 t).mpr (by omega)) (fun hh => absurd ((hcond0_2 t).mp hh) (by omega)) (fun hh => absurd ((hcond0_3 t).mp hh) (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p.a0 p.a1 p.a2 p.a3

/-- What that run leaves. -/
def heldInput (c : Dev nD) (t : Fin cfg0.N) (h0 : ¬t.val % 12 = 0) (h1 : t.val % 12 < 4) (p : Held F) : Held F :=
  ⟨idleOut, idleOut, View.canon (atInput m c t h0 h1 p).2.2.1, View.canon (atInput m c t h0 h1 p).2.2.2.1, View.canon (atInput m c t h0 h1 p).2.2.2.2.1, View.canon (atInput m c t h0 h1 p).2.2.2.2.2.1⟩

/-- The case's run at point `t`, on the buffers the pipeline passes there and the input blocks. -/
def atHidden (c : Dev nD) (t : Fin cfg0.N) (h1 : ¬t.val % 12 < 4) (h3 : ¬t.val % 12 = 11) (p : Held F) :=
  runHidden (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (fun hh => absurd ((hcond0_0 t).mp hh) (by omega)) (fun hh => absurd ((hcond0_1 t).mp hh) (by omega)) ((hcond0_2 t).mpr (by omega)) (fun hh => absurd ((hcond0_3 t).mp hh) (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p.a0 p.a1 p.a2 p.a3

/-- What that run leaves. -/
def heldHidden (c : Dev nD) (t : Fin cfg0.N) (h1 : ¬t.val % 12 < 4) (h3 : ¬t.val % 12 = 11) (p : Held F) : Held F :=
  ⟨idleOut, idleOut, View.canon (atHidden m c t h1 h3 p).2.2.1, View.canon (atHidden m c t h1 h3 p).2.2.2.1, View.canon (atHidden m c t h1 h3 p).2.2.2.2.1, View.canon (atHidden m c t h1 h3 p).2.2.2.2.2.1⟩

/-- The case's run at point `t`, on the buffers the pipeline passes there and the input blocks. -/
def atLast (c : Dev nD) (t : Fin cfg0.N) (h3 : t.val % 12 = 11) (p : Held F) :=
  runLast (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (fun hh => absurd ((hcond0_0 t).mp hh) (by omega)) (fun hh => absurd ((hcond0_1 t).mp hh) (by omega)) ((hcond0_2 t).mpr (by omega)) ((hcond0_3 t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p.a0 p.a1 p.a2 p.a3

/-- What that run leaves. -/
def heldLast (c : Dev nD) (t : Fin cfg0.N) (h3 : t.val % 12 = 11) (p : Held F) : Held F :=
  ⟨View.canon (atLast m c t h3 p).1, View.canon (atLast m c t h3 p).2.1, View.canon (atLast m c t h3 p).2.2.1, View.canon (atLast m c t h3 p).2.2.2.1, View.canon (atLast m c t h3 p).2.2.2.2.1, View.canon (atLast m c t h3 p).2.2.2.2.2.1⟩

/-! ## The recursion over the points -/

/-- What the result buffers and the accumulators hold after the body at position `n`. -/
def heldAt (c : Dev nD) : (n : ℕ) → n < cfg0.N → Held F
  | 0, hn => heldFirst m c ⟨0, hn⟩ (Nat.zero_mod _)
  | n + 1, hn =>
    if h0 : (n + 1) % 12 = 0 then heldFirst m c ⟨n + 1, hn⟩ h0
    else if h1 : (n + 1) % 12 < 4 then heldInput m c ⟨n + 1, hn⟩ h0 h1 (heldAt c n (Nat.lt_of_succ_lt hn))
    else if h3 : (n + 1) % 12 = 11 then heldLast m c ⟨n + 1, hn⟩ h3 (heldAt c n (Nat.lt_of_succ_lt hn))
    else heldHidden m c ⟨n + 1, hn⟩ h1 h3 (heldAt c n (Nat.lt_of_succ_lt hn))

theorem heldAt_first (c : Dev nD) (t : Fin cfg0.N) (h : t.val % 12 = 0) :
    heldAt m c t.val t.isLt = heldFirst m c t h := by
  obtain ⟨n, hn⟩ := t
  cases n with
  | zero => rfl
  | succ n => exact dif_pos h

theorem heldAt_input (c : Dev nD) (t : Fin cfg0.N) (h0 : ¬t.val % 12 = 0) (h1 : t.val % 12 < 4) :
    heldAt m c t.val t.isLt = heldInput m c t h0 h1 (heldAt m c (t.val - 1) (Nat.lt_of_le_of_lt (Nat.sub_le _ _) t.isLt)) := by
  obtain ⟨n, hn⟩ := t
  cases n with
  | zero => exact absurd (Nat.zero_mod _) h0
  | succ n => exact (dif_neg h0).trans (dif_pos h1)

theorem heldAt_hidden (c : Dev nD) (t : Fin cfg0.N) (h1 : ¬t.val % 12 < 4) (h3 : ¬t.val % 12 = 11) :
    heldAt m c t.val t.isLt = heldHidden m c t h1 h3 (heldAt m c (t.val - 1) (Nat.lt_of_le_of_lt (Nat.sub_le _ _) t.isLt)) := by
  obtain ⟨n, hn⟩ := t
  cases n with
  | zero => exact absurd (show (0 : ℕ) % 12 < 4 by decide) h1
  | succ n => exact (dif_neg (fun h => h1 (show (n + 1) % 12 < 4 by omega))).trans ((dif_neg h1).trans (dif_neg h3))

theorem heldAt_last (c : Dev nD) (t : Fin cfg0.N) (h3 : t.val % 12 = 11) :
    heldAt m c t.val t.isLt = heldLast m c t h3 (heldAt m c (t.val - 1) (Nat.lt_of_le_of_lt (Nat.sub_le _ _) t.isLt)) := by
  obtain ⟨n, hn⟩ := t
  cases n with
  | zero => exact absurd h3 (show ¬(0 : ℕ) % 12 = 11 by decide)
  | succ n =>
    have h3' : (n + 1) % 12 = 11 := h3
    exact (dif_neg (fun h => by omega)).trans ((dif_neg (fun h => by omega)).trans (dif_pos h3))

/-! ## The invariant that carries the accumulators -/

/-- Before position `n`: at the start whatever the region lends; afterwards the four accumulators at what the point
    before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare (heldAt m c n hn).a0 ∗ owns (c : Thread nD τ) scM0_1 fullShare (heldAt m c n hn).a1 ∗ owns (c : Thread nD τ) scM0_2 fullShare (heldAt m c n hn).a2 ∗ owns (c : Thread nD τ) scM0_3 fullShare (heldAt m c n hn).a3) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (heldAt m c n hn).a0 ∗ owns (c : Thread nD τ) scM0_1 fullShare (heldAt m c n hn).a1 ∗ owns (c : Thread nD τ) scM0_2 fullShare (heldAt m c n hn).a2 ∗ owns (c : Thread nD τ) scM0_3 fullShare (heldAt m c n hn).a3) ∗ (∃ r, prngReg c r)) := rfl

theorem PhiS_pos (c : Dev nD) (n : ℕ) (h : n ≤ cfg0.N) (hz : n ≠ 0) :
    PhiS m c n h = iprop(iprop(owns (c : Thread nD τ) scM0_0 fullShare (heldAt m c (n - 1) (by omega)).a0 ∗ owns (c : Thread nD τ) scM0_1 fullShare (heldAt m c (n - 1) (by omega)).a1 ∗ owns (c : Thread nD τ) scM0_2 fullShare (heldAt m c (n - 1) (by omega)).a2 ∗ owns (c : Thread nD τ) scM0_3 fullShare (heldAt m c (n - 1) (by omega)).a3) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => (heldAt m c t.val t.isLt).o15
    | ⟨16, _⟩ => (heldAt m c t.val t.isLt).o16
    | ⟨_ + 17, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = (heldAt m c t.val t.isLt).o15 := by dsimp only [dats]
theorem after0_16 (c : Dev nD) (t : Fin cfg0.N) : (dats m 0 c).after 16 t = (heldAt m c t.val t.isLt).o16 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d

end Cert.KernelIdeal.Gen

end
-- ==== Proof.Ideal.Pieces.lean ====
/-
  What each case of the kernel body leaves in the four accumulators and the two result buffers, as the body's
  arithmetic applied to the point's input blocks and to what the point before left.

  Every load and every store of the body goes through the whole of its buffer, so a load reads the buffer's contents, a
  store leaves its value whatever was there, and a load after a store reads what was stored. At a point with k = 0 each
  accumulator is cleared and the first slice is added to it; at the other points the slice is added to what the point
  before left; at k = 11 the last slice is added, the bias and the gate function are applied, and the new state and the
  new output are formed from the four gates and the previous state's block.
-/
import proofs.«125515_j24756191494330_2_alg».proof.Proof.Ideal.Data
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The zero offsets of a rank-two rectangle, however spelt. -/
theorem zeroOff2 : (![0, 0] : Fin 2 → Nat) = fun _ => 0 := funext fun a => by fin_cases a <;> rfl

/-- Accumulator 0 read back at contents chosen for it. -/
theorem read_acc0 (h : scM0_0.IsWhole) (X : Vec F S512x1024 .f32) :
    View.read (Elt F) (View.whole cc0_scratch0) (h.unread X) = X := h.read_unread X
/-- Accumulator 1 read back at contents chosen for it. -/
theorem read_acc1 (h : scM0_1.IsWhole) (X : Vec F S512x1024 .f32) :
    View.read (Elt F) (View.whole cc0_scratch1) (h.unread X) = X := h.read_unread X
/-- Accumulator 2 read back at contents chosen for it. -/
theorem read_acc2 (h : scM0_2.IsWhole) (X : Vec F S512x1024 .f32) :
    View.read (Elt F) (View.whole cc0_scratch2) (h.unread X) = X := h.read_unread X
/-- Accumulator 3 read back at contents chosen for it. -/
theorem read_acc3 (h : scM0_3.IsWhole) (X : Vec F S512x1024 .f32) :
    View.read (Elt F) (View.whole cc0_scratch3) (h.unread X) = X := h.read_unread X

/-! ## A point with k = 0 -/

/-- At a point with k = 0, accumulator 0 is cleared and the first slice is added to the cleared tile. -/
theorem first_a0 (c : Dev nD) (t : Fin cfg0.N) (h : t.val % 12 = 0) :
    (heldFirst (F := F) m c t h).a0 = k0_pay11 (iblk m c 0 t) k0_pay1 (iblk m c 3 t) := by
  unfold heldFirst atFirst
  dsimp only
  unfold runFirst
  dsimp only
  sl_unfold_words
  rw [View.canon_cons_unit_zero zeroOff2]
  simp only [View.readAt_eq_ld, Memref.IsWhole.read_unread, read_acc0, read_acc1, read_acc2, read_acc3,
    View.ld_unit_zero (S := S512x1024) zeroOff2, View.ld_unit_zero (S := S512x512) zeroOff2,
    View.ld_unit_zero (S := S512x1) zeroOff2, View.readCov_cons_toLoadRect]

/-- At a point with k = 0, accumulator 1 is cleared and the first slice is added to the cleared tile. -/
theorem first_a1 (c : Dev nD) (t : Fin cfg0.N) (h : t.val % 12 = 0) :
    (heldFirst (F := F) m c t h).a1 = k0_pay12 (iblk m c 0 t) k0_pay2 (iblk m c 6 t) := by
  unfold heldFirst atFirst
  dsimp only
  unfold runFirst
  dsimp only
  sl_unfold_words
  rw [View.canon_cons_unit_zero zeroOff2]
  simp only [View.readAt_eq_ld, Memref.IsWhole.read_unread, read_acc0, read_acc1, read_acc2, read_acc3,
    View.ld_unit_zero (S := S512x1024) zeroOff2, View.ld_unit_zero (S := S512x512) zeroOff2,
    View.ld_unit_zero (S := S512x1) zeroOff2, View.readCov_cons_toLoadRect]

/-- At a point with k = 0, accumulator 2 is cleared and the first slice is added to the cleared tile. -/
theorem first_a2 (c : Dev nD) (t : Fin cfg0.N) (h : t.val % 12 = 0) :
    (heldFirst (F := F) m c t h).a2 = k0_pay13 (iblk m c 0 t) k0_pay3 (iblk m c 9 t) := by
  unfold heldFirst atFirst
  dsimp only
  unfold runFirst
  dsimp only
  sl_unfold_words
  rw [View.canon_cons_unit_zero zeroOff2]
  simp only [View.readAt_eq_ld, Memref.IsWhole.read_unread, read_acc0, read_acc1, read_acc2, read_acc3,
    View.ld_unit_zero (S := S512x1024) zeroOff2, View.ld_unit_zero (S := S512x512) zeroOff2,
    View.ld_unit_zero (S := S512x1) zeroOff2, View.readCov_cons_toLoadRect]

/-- At a point with k = 0, accumulator 3 is cleared and the first slice is added to the cleared tile. -/
theorem first_a3 (c : Dev nD) (t : Fin cfg0.N) (h : t.val % 12 = 0) :
    (heldFirst (F := F) m c t h).a3 = k0_pay5 (k0_pay10 (iblk m c 0 t)) k0_pay4 (k0_pay14 (iblk m c 12 t)) (constant S512x1024 .f32 0x00000000#32) := by
  unfold heldFirst atFirst
  dsimp only
  unfold runFirst
  dsimp only
  sl_unfold_words
  rw [View.canon_cons_unit_zero zeroOff2]
  simp only [View.readAt_eq_ld, Memref.IsWhole.read_unread, read_acc0, read_acc1, read_acc2, read_acc3,
    View.ld_unit_zero (S := S512x1024) zeroOff2, View.ld_unit_zero (S := S512x512) zeroOff2,
    View.ld_unit_zero (S := S512x1) zeroOff2, View.readCov_cons_toLoadRect]

/-! ## A point with 0 < k < 4 -/

/-- At a point with 0 < k < 4, a slice of the input product is added to what accumulator 0 held. -/
theorem input_a0 (c : Dev nD) (t : Fin cfg0.N) (h0 : ¬t.val % 12 = 0) (h1 : t.val % 12 < 4) (p : Held F) :
    (heldInput (F := F) m c t h0 h1 p).a0 = k0_pay11 (iblk m c 0 t) p.a0 (iblk m c 3 t) := by
  unfold heldInput atInput
  dsimp only
  unfold runInput
  dsimp only
  sl_unfold_words
  rw [View.canon_cons_unit_zero zeroOff2]
  simp only [View.readAt_eq_ld, Memref.IsWhole.read_unread, read_acc0, read_acc1, read_acc2, read_acc3,
    View.ld_unit_zero (S := S512x1024) zeroOff2, View.ld_unit_zero (S := S512x512) zeroOff2,
    View.ld_unit_zero (S := S512x1) zeroOff2, View.readCov_cons_toLoadRect]

/-- At a point with 0 < k < 4, a slice of the input product is added to what accumulator 1 held. -/
theorem input_a1 (c : Dev nD) (t : Fin cfg0.N) (h0 : ¬t.val % 12 = 0) (h1 : t.val % 12 < 4) (p : Held F) :
    (heldInput (F := F) m c t h0 h1 p).a1 = k0_pay12 (iblk m c 0 t) p.a1 (iblk m c 6 t) := by
  unfold heldInput atInput
  dsimp only
  unfold runInput
  dsimp only
  sl_unfold_words
  rw [View.canon_cons_unit_zero zeroOff2]
  simp only [View.readAt_eq_ld, Memref.IsWhole.read_unread, read_acc0, read_acc1, read_acc2, read_acc3,
    View.ld_unit_zero (S := S512x1024) zeroOff2, View.ld_unit_zero (S := S512x512) zeroOff2,
    View.ld_unit_zero (S := S512x1) zeroOff2, View.readCov_cons_toLoadRect]

/-- At a point with 0 < k < 4, a slice of the input product is added to what accumulator 2 held. -/
theorem input_a2 (c : Dev nD) (t : Fin cfg0.N) (h0 : ¬t.val % 12 = 0) (h1 : t.val % 12 < 4) (p : Held F) :
    (heldInput (F := F) m c t h0 h1 p).a2 = k0_pay13 (iblk m c 0 t) p.a2 (iblk m c 9 t) := by
  unfold heldInput atInput
  dsimp only
  unfold runInput
  dsimp only
  sl_unfold_words
  rw [View.canon_cons_unit_zero zeroOff2]
  simp only [View.readAt_eq_ld, Memref.IsWhole.read_unread, read_acc0, read_acc1, read_acc2, read_acc3,
    View.ld_unit_zero (S := S512x1024) zeroOff2, View.ld_unit_zero (S := S512x512) zeroOff2,
    View.ld_unit_zero (S := S512x1) zeroOff2, View.readCov_cons_toLoadRect]

/-- At a point with 0 < k < 4, a slice of the input product is added to what accumulator 3 held. -/
theorem input_a3 (c : Dev nD) (t : Fin cfg0.N) (h0 : ¬t.val % 12 = 0) (h1 : t.val % 12 < 4) (p : Held F) :
    (heldInput (F := F) m c t h0 h1 p).a3 = k0_pay5 (k0_pay10 (iblk m c 0 t)) p.a3 (k0_pay14 (iblk m c 12 t)) (constant S512x1024 .f32 0x00000000#32) := by
  unfold heldInput atInput
  dsimp only
  unfold runInput
  dsimp only
  sl_unfold_words
  rw [View.canon_cons_unit_zero zeroOff2]
  simp only [View.readAt_eq_ld, Memref.IsWhole.read_unread, read_acc0, read_acc1, read_acc2, read_acc3,
    View.ld_unit_zero (S := S512x1024) zeroOff2, View.ld_unit_zero (S := S512x512) zeroOff2,
    View.ld_unit_zero (S := S512x1) zeroOff2, View.readCov_cons_toLoadRect]

/-! ## A point with 4 ≤ k < 11 -/

/-- At a point with 4 ≤ k < 11, a slice of the recurrent product is added to what accumulator 0 held. -/
theorem hidden_a0 (c : Dev nD) (t : Fin cfg0.N) (h1 : ¬t.val % 12 < 4) (h3 : ¬t.val % 12 = 11) (p : Held F) :
    (heldHidden (F := F) m c t h1 h3 p).a0 = k0_pay16 (iblk m c 1 t) p.a0 (iblk m c 4 t) := by
  unfold heldHidden atHidden
  dsimp only
  unfold runHidden
  dsimp only
  sl_unfold_words
  rw [View.canon_cons_unit_zero zeroOff2]
  simp only [View.readAt_eq_ld, Memref.IsWhole.read_unread, read_acc0, read_acc1, read_acc2, read_acc3,
    View.ld_unit_zero (S := S512x1024) zeroOff2, View.ld_unit_zero (S := S512x512) zeroOff2,
    View.ld_unit_zero (S := S512x1) zeroOff2, View.readCov_cons_toLoadRect]

/-- At a point with 4 ≤ k < 11, a slice of the recurrent product is added to what accumulator 1 held. -/
theorem hidden_a1 (c : Dev nD) (t : Fin cfg0.N) (h1 : ¬t.val % 12 < 4) (h3 : ¬t.val % 12 = 11) (p : Held F) :
    (heldHidden (F := F) m c t h1 h3 p).a1 = k0_pay17 (iblk m c 1 t) p.a1 (iblk m c 7 t) := by
  unfold heldHidden atHidden
  dsimp only
  unfold runHidden
  dsimp only
  sl_unfold_words
  rw [View.canon_cons_unit_zero zeroOff2]
  simp only [View.readAt_eq_ld, Memref.IsWhole.read_unread, read_acc0, read_acc1, read_acc2, read_acc3,
    View.ld_unit_zero (S := S512x1024) zeroOff2, View.ld_unit_zero (S := S512x512) zeroOff2,
    View.ld_unit_zero (S := S512x1) zeroOff2, View.readCov_cons_toLoadRect]

/-- At a point with 4 ≤ k < 11, a slice of the recurrent product is added to what accumulator 2 held. -/
theorem hidden_a2 (c : Dev nD) (t : Fin cfg0.N) (h1 : ¬t.val % 12 < 4) (h3 : ¬t.val % 12 = 11) (p : Held F) :
    (heldHidden (F := F) m c t h1 h3 p).a2 = k0_pay18 (iblk m c 1 t) p.a2 (iblk m c 10 t) := by
  unfold heldHidden atHidden
  dsimp only
  unfold runHidden
  dsimp only
  sl_unfold_words
  rw [View.canon_cons_unit_zero zeroOff2]
  simp only [View.readAt_eq_ld, Memref.IsWhole.read_unread, read_acc0, read_acc1, read_acc2, read_acc3,
    View.ld_unit_zero (S := S512x1024) zeroOff2, View.ld_unit_zero (S := S512x512) zeroOff2,
    View.ld_unit_zero (S := S512x1) zeroOff2, View.readCov_cons_toLoadRect]

/-- At a point with 4 ≤ k < 11, a slice of the recurrent product is added to what accumulator 3 held. -/
theorem hidden_a3 (c : Dev nD) (t : Fin cfg0.N) (h1 : ¬t.val % 12 < 4) (h3 : ¬t.val % 12 = 11) (p : Held F) :
    (heldHidden (F := F) m c t h1 h3 p).a3 = k0_pay6 (k0_pay15 (iblk m c 1 t)) p.a3 (k0_pay19 (iblk m c 13 t)) (constant S512x1024 .f32 0x00000000#32) := by
  unfold heldHidden atHidden
  dsimp only
  unfold runHidden
  dsimp only
  sl_unfold_words
  rw [View.canon_cons_unit_zero zeroOff2]
  simp only [View.readAt_eq_ld, Memref.IsWhole.read_unread, read_acc0, read_acc1, read_acc2, read_acc3,
    View.ld_unit_zero (S := S512x1024) zeroOff2, View.ld_unit_zero (S := S512x512) zeroOff2,
    View.ld_unit_zero (S := S512x1) zeroOff2, View.readCov_cons_toLoadRect]

/-! ## The point with k = 11 -/

/-- The first gate's total after the last slice. -/
def lastT0 (c : Dev nD) (t : Fin cfg0.N) (p : Held F) : FVec F S512x1024 .f32 := k0_pay16 (iblk m c 1 t) p.a0 (iblk m c 4 t)
/-- The second gate's total after the last slice. -/
def lastT1 (c : Dev nD) (t : Fin cfg0.N) (p : Held F) : FVec F S512x1024 .f32 := k0_pay17 (iblk m c 1 t) p.a1 (iblk m c 7 t)
/-- The third gate's total after the last slice. -/
def lastT2 (c : Dev nD) (t : Fin cfg0.N) (p : Held F) : FVec F S512x1024 .f32 := k0_pay18 (iblk m c 1 t) p.a2 (iblk m c 10 t)
/-- The fourth gate's total after the last slice. -/
def lastT3 (c : Dev nD) (t : Fin cfg0.N) (p : Held F) : FVec F S512x1024 .f32 :=
  k0_pay6 (k0_pay15 (iblk m c 1 t)) p.a3 (k0_pay19 (iblk m c 13 t)) (constant S512x1024 .f32 0x00000000#32)
/-- The first gate: the logistic function of its total plus its bias. -/
def lastG0 (c : Dev nD) (t : Fin cfg0.N) (p : Held F) : FVec F S512x1024 .f32 := k0_pay20 (lastT0 m c t p) (iblk m c 5 t)
/-- The second gate: the logistic function of its total plus its bias. -/
def lastG1 (c : Dev nD) (t : Fin cfg0.N) (p : Held F) : FVec F S512x1024 .f32 := k0_pay21 (lastT1 m c t p) (iblk m c 8 t)
/-- The third gate: the hyperbolic tangent of its total plus its bias. -/
def lastG2 (c : Dev nD) (t : Fin cfg0.N) (p : Held F) : FVec F S512x1024 .f32 := k0_pay22 (lastT2 m c t p) (iblk m c 11 t)
/-- The fourth gate: the logistic function of its total plus its bias. -/
def lastG3 (c : Dev nD) (t : Fin cfg0.N) (p : Held F) : FVec F S512x1024 .f32 := k0_pay7 (k0_pay23 (lastT3 m c t p) (iblk m c 14 t))

/-- At k = 11 accumulator 0 is left holding the first gate. -/
theorem last_a0 (c : Dev nD) (t : Fin cfg0.N) (h3 : t.val % 12 = 11) (p : Held F) :
    (heldLast (F := F) m c t h3 p).a0 = lastG0 m c t p := by
  unfold heldLast atLast
  dsimp only
  unfold runLast
  dsimp only
  sl_unfold_words
  rw [View.canon_cons_unit_zero zeroOff2]
  simp only [lastG0, lastG1, lastG2, lastG3, lastT0, lastT1, lastT2, lastT3, View.readAt_eq_ld, Memref.IsWhole.read_unread, read_acc0, read_acc1, read_acc2, read_acc3,
    View.ld_unit_zero (S := S512x1024) zeroOff2, View.ld_unit_zero (S := S512x512) zeroOff2,
    View.ld_unit_zero (S := S512x1) zeroOff2, View.readCov_cons_toLoadRect]

/-- At k = 11 accumulator 1 is left holding the second gate. -/
theorem last_a1 (c : Dev nD) (t : Fin cfg0.N) (h3 : t.val % 12 = 11) (p : Held F) :
    (heldLast (F := F) m c t h3 p).a1 = lastG1 m c t p := by
  unfold heldLast atLast
  dsimp only
  unfold runLast
  dsimp only
  sl_unfold_words
  rw [View.canon_cons_unit_zero zeroOff2]
  simp only [lastG0, lastG1, lastG2, lastG3, lastT0, lastT1, lastT2, lastT3, View.readAt_eq_ld, Memref.IsWhole.read_unread, read_acc0, read_acc1, read_acc2, read_acc3,
    View.ld_unit_zero (S := S512x1024) zeroOff2, View.ld_unit_zero (S := S512x512) zeroOff2,
    View.ld_unit_zero (S := S512x1) zeroOff2, View.readCov_cons_toLoadRect]

/-- At k = 11 accumulator 2 is left holding the third gate. -/
theorem last_a2 (c : Dev nD) (t : Fin cfg0.N) (h3 : t.val % 12 = 11) (p : Held F) :
    (heldLast (F := F) m c t h3 p).a2 = lastG2 m c t p := by
  unfold heldLast atLast
  dsimp only
  unfold runLast
  dsimp only
  sl_unfold_words
  rw [View.canon_cons_unit_zero zeroOff2]
  simp only [lastG0, lastG1, lastG2, lastG3, lastT0, lastT1, lastT2, lastT3, View.readAt_eq_ld, Memref.IsWhole.read_unread, read_acc0, read_acc1, read_acc2, read_acc3,
    View.ld_unit_zero (S := S512x1024) zeroOff2, View.ld_unit_zero (S := S512x512) zeroOff2,
    View.ld_unit_zero (S := S512x1) zeroOff2, View.readCov_cons_toLoadRect]

/-- At k = 11 accumulator 3 is left holding the fourth gate. -/
theorem last_a3 (c : Dev nD) (t : Fin cfg0.N) (h3 : t.val % 12 = 11) (p : Held F) :
    (heldLast (F := F) m c t h3 p).a3 = lastG3 m c t p := by
  unfold heldLast atLast
  dsimp only
  unfold runLast
  dsimp only
  sl_unfold_words
  rw [View.canon_cons_unit_zero zeroOff2]
  simp only [lastG0, lastG1, lastG2, lastG3, lastT0, lastT1, lastT2, lastT3, View.readAt_eq_ld, Memref.IsWhole.read_unread, read_acc0, read_acc1, read_acc2, read_acc3,
    View.ld_unit_zero (S := S512x1024) zeroOff2, View.ld_unit_zero (S := S512x512) zeroOff2,
    View.ld_unit_zero (S := S512x1) zeroOff2, View.readCov_cons_toLoadRect]

/-- At k = 11 the first result buffer is left holding the new state: c * f + i * g of the state block and the gates. -/
theorem last_o15 (c : Dev nD) (t : Fin cfg0.N) (h3 : t.val % 12 = 11) (p : Held F) :
    (heldLast (F := F) m c t h3 p).o15 = k0_pay8 (iblk m c 2 t) (lastG0 m c t p) (lastG1 m c t p) (lastG2 m c t p) := by
  unfold heldLast atLast
  dsimp only
  unfold runLast
  dsimp only
  sl_unfold_words
  rw [View.canon_cons_unit_zero zeroOff2]
  simp only [lastG0, lastG1, lastG2, lastG3, lastT0, lastT1, lastT2, lastT3, View.readAt_eq_ld, Memref.IsWhole.read_unread, read_acc0, read_acc1, read_acc2, read_acc3,
    View.ld_unit_zero (S := S512x1024) zeroOff2, View.ld_unit_zero (S := S512x512) zeroOff2,
    View.ld_unit_zero (S := S512x1) zeroOff2, View.readCov_cons_toLoadRect]

/-- At k = 11 the second result buffer is left holding the new output: tanh of the new state times the fourth gate. -/
theorem last_o16 (c : Dev nD) (t : Fin cfg0.N) (h3 : t.val % 12 = 11) (p : Held F) :
    (heldLast (F := F) m c t h3 p).o16 = k0_pay9 (iblk m c 2 t) (lastG0 m c t p) (lastG1 m c t p) (lastG2 m c t p) (lastG3 m c t p) := by
  unfold heldLast atLast
  dsimp only
  unfold runLast
  dsimp only
  sl_unfold_words
  rw [View.canon_cons_unit_zero zeroOff2]
  simp only [lastG0, lastG1, lastG2, lastG3, lastT0, lastT1, lastT2, lastT3, View.readAt_eq_ld, Memref.IsWhole.read_unread, read_acc0, read_acc1, read_acc2, read_acc3,
    View.ld_unit_zero (S := S512x1024) zeroOff2, View.ld_unit_zero (S := S512x512) zeroOff2,
    View.ld_unit_zero (S := S512x1) zeroOff2, View.readCov_cons_toLoadRect]

end Cert.KernelIdeal.Gen

end
-- ==== Proof.LibPlainMatmul.lean ====
/-
  A matrix product into a zero accumulator, read at one entry, over the extended reals.

  For any extents M, K, N: the product of an M×K matrix and a K×N matrix with the plain dimension numbers (the left
  operand's axis 1 contracted with the right operand's axis 0, no batch axes), accumulated into the zero matrix, is at
  entry (p, n) the sum over k of left(p, k) · right(k, n). The accumulator contributes 0 + ·, the contraction index
  of the product is one coordinate k, and the operand indices at (p, n) and k are (p, k) and (k, n).
-/
import Idealize.ShloMosaic.Lib.ValueIdx
import Idealize.ShloMosaic.PureOps.Ideal.Laws

namespace Cert.LibPlainMatmul

open Idealize.ShloMosaic Idealize.ShloMosaic.ValueIdx

/-- The left operand's index at result entry `(p, n)` and contraction coordinate `k` is `(p, k)`. -/
theorem plain_lhsIdx {M K N : ℕ} (p : Fin M) (n : Fin N) (k : Fin K) :
    (DotDims.plain M K N).lhsIdx (ix2 p n) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl _ _).trans
        (contrEquiv1_symm_val (DotDims.plain M K N) K rfl rfl k))

/-- The right operand's index at result entry `(p, n)` and contraction coordinate `k` is `(k, n)`. -/
theorem plain_rhsIdx {M K N : ℕ} (p : Fin M) (n : Fin N) (k : Fin K) :
    (DotDims.plain M K N).rhsIdx (ix2 p n) ((contrEquiv1 (DotDims.plain M K N) K rfl rfl).symm k) = ix2 k n :=
  funext fun a => Fin.ext (by
    match a with
    | ⟨0, _⟩ =>
      exact ((DotDims.plain M K N).rhsIdx_val_of_single rfl _ _).trans
        (contrEquiv1_symm_val (DotDims.plain M K N) K rfl rfl k)
    | ⟨1, _⟩ => rfl)

/-- An M×K matrix times a K×N matrix into the zero accumulator, at entry `(p, n)`: `∑ k, l (p, k) * r (k, n)`. -/
theorem matmul_plain_zero_apply {M K N : ℕ} {φ₁ φ₂ : FTy} (prec : Option ContractPrecision)
    (l : FVec Ideal ⟨2, ![M, K]⟩ φ₁) (r : FVec Ideal ⟨2, ![K, N]⟩ φ₂) (p : Fin M) (n : Fin N) :
    matmul (DotDims.plain M K N) prec l r (constant (F := Ideal) ⟨2, ![M, N]⟩ .f32 0x00000000#32) (ix2 p n)
      = ∑ k : Fin K, l (ix2 p k) * r (ix2 k n) := by
  show FloatOps.matmul _ _ _ _ _ _ = _
  rw [Ideal.matmul_constant_zero_apply, ← Equiv.sum_comp (contrEquiv1 (DotDims.plain M K N) K rfl rfl).symm]
  refine Finset.sum_congr rfl fun k _ => ?_
  rw [plain_lhsIdx, plain_rhsIdx]

/-- The same for any dimension-numbers record `D` that is the plain one (a printed program names its own record). -/
theorem matmul_eq_plain_zero_apply {M K N : ℕ} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (p : Fin M) (n : Fin N) :
    matmul D prec l r (constant (F := Ideal) ⟨2, ![M, N]⟩ .f32 0x00000000#32) (ix2 p n)
      = ∑ k : Fin K, l (ix2 p k) * r (ix2 k n) := by
  subst hD; exact matmul_plain_zero_apply prec l r p n

end Cert.LibPlainMatmul
-- ==== Proof.LibColumn.lean ====
/-
  Column vectors and sums along one axis of a matrix, read at an index (general: any extents, no program).

  A sum that keeps its axis (a row sum stored as a column, a column sum stored as one cell) passes through a few
  re-arrangements: a length-a vector viewed as an a × 1 column, a column repeated along every row of an a × b matrix,
  a single cell repeated over a whole matrix, a length-1 vector viewed as a 1 × 1 matrix. Each reads its operand at
  the evident index. At the exact values, summing a matrix along its columns gives each row's sum, and summing a
  column gives the sum of its entries; both as plain finite sums.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Column

open Idealize.ShloMosaic Idealize.ShloMosaic.ValueIdx

variable {α : Type}

/-- A length-a vector viewed as an a × 1 column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A length-1 vector viewed as a 1 × 1 matrix reads its one entry. -/
theorem shapeCast_1_11_apply (x : (⟨1, ![1]⟩ : Shape).Idx → α) (h : (⟨1, ![1]⟩ : Shape).ShapeCasts ⟨2, ![1, 1]⟩)
    (u v : Fin 1) : shapeCast ⟨2, ![1, 1]⟩ x h (ix2 u v) = x (ix1 (0 : Fin 1)) :=
  (shapeCast_a_1a_apply x h u v).trans (congrArg x (congrArg ix1 (Subsingleton.elim v 0)))

/-- An a × 1 column repeated along the rows of an a × b matrix reads, at (p, c), the column at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A single cell repeated over an a × b matrix reads that cell everywhere. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- At the exact values, summing an a × b matrix along its columns gives, at row r, the sum of that row. -/
theorem laneSum_apply {a b : ℕ} (v : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (r : Fin a) :
    multiReduction .add [1] ⟨1, ![a]⟩ v acc h hφ hacc (ix1 r) = ∑ j : Fin b, v (ix2 r j) := by
  refine (Ideal.multiReduction_add_single v acc h hφ hacc (ix1 r)).trans ?_
  refine Finset.sum_congr rfl fun j _ => congrArg v ?_
  funext ax
  match ax with
  | ⟨0, _⟩ => exact Fin.ext rfl
  | ⟨1, _⟩ => exact Fin.ext rfl

/-- At the exact values, summing an a × 1 column along its rows gives the sum of its entries. -/
theorem colSum_apply {a : ℕ} (v : FVec Ideal ⟨2, ![a, 1]⟩ .f32) (acc : BitVec 32)
    (h : (⟨2, ![a, 1]⟩ : Shape).Reduces [0] ⟨1, ![1]⟩) (hφ : FKind.Formats .f32)
    (hacc : acc = FKind.add.neutral .f32 hφ) (u : Fin 1) :
    multiReduction .add [0] ⟨1, ![1]⟩ v acc h hφ hacc (ix1 u) = ∑ r : Fin a, v (ix2 r (0 : Fin 1)) := by
  refine (Ideal.multiReduction_add_single v acc h hφ hacc (ix1 u)).trans ?_
  refine Finset.sum_congr rfl fun r _ => congrArg v ?_
  funext ax
  match ax with
  | ⟨0, _⟩ => exact Fin.ext rfl
  | ⟨1, _⟩ => exact Fin.ext (by show u.val = 0; omega)

end Cert.Column

end
-- ==== Proof.Ideal.Tile.lean ====
/-
  The arithmetic of one 512 x 1024 tile of the LSTM cell kernel, read at an entry (p, q), over the extended reals.

  The kernel accumulates a gate's pre-activation tile in slices: each slice adds to the running tile v the product of
  a 512 x 512 block w of weights and a 512 x 1024 block x of inputs, so the new tile at (p, q) is
  v(p, q) + sum over k < 512 of w(p, k) * x(k, q). The running tiles start at zero. After the last slice the bias
  column b is added along the rows and the logistic function (the hyperbolic tangent for the candidate) is applied,
  and the four gate tiles f, i, g, o combine with the state tile c into c * f + i * g and tanh(c * f + i * g) * o.
  A reshaping between equal shapes is the identity, and every other operation acts entry by entry.
-/
import proofs.«125515_j24756191494330_2_alg».proof.Proof.Gen.KernelIdeal.Skeleton
import proofs.«125515_j24756191494330_2_alg».proof.Proof.LibPlainMatmul
import proofs.«125515_j24756191494330_2_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-! ## The running tiles start at zero -/

/-- The first gate's running tile starts at zero. -/
theorem pay1_at (p : Fin 512) (q : Fin 1024) : k0_pay1 (F := Ideal) (ix2 p q) = 0 := by
  unfold k0_pay1
  simp only [shapeCast_self]
  exact Ideal.ofBits_zero_f32

/-- The second gate's running tile starts at zero. -/
theorem pay2_at (p : Fin 512) (q : Fin 1024) : k0_pay2 (F := Ideal) (ix2 p q) = 0 := pay1_at p q
/-- The third gate's running tile starts at zero. -/
theorem pay3_at (p : Fin 512) (q : Fin 1024) : k0_pay3 (F := Ideal) (ix2 p q) = 0 := pay1_at p q
/-- The fourth gate's running tile starts at zero. -/
theorem pay4_at (p : Fin 512) (q : Fin 1024) : k0_pay4 (F := Ideal) (ix2 p q) = 0 := pay1_at p q

/-! ## One slice: the running tile plus a block product -/

/-- The running tile v plus the product of a weight block w and an input block x, at (p, q). -/
theorem slice_at (x : FVec Ideal S512x1024 .bf16) (v : FVec Ideal S512x1024 .f32) (w : FVec Ideal S512x512 .bf16)
    (p : Fin 512) (q : Fin 1024) :
    addf v (matmul dot_S512x512_S512x1024_S512x1024_1_0_0_1_n_n none w x (constant (F := Ideal) S512x1024 .f32 0x00000000#32))
        (ix2 p q)
      = v (ix2 p q) + ∑ kk : Fin 512, w (ix2 p kk) * x (ix2 kk q) :=
  congrArg (v (ix2 p q) + ·)
    (Cert.LibPlainMatmul.matmul_eq_plain_zero_apply dot_S512x512_S512x1024_S512x1024_1_0_0_1_n_n rfl none w x p q)

/-- A slice of the input product into the first gate's tile. -/
theorem pay11_at (x : Vec Ideal S512x1024 .bf16) (v : Vec Ideal S512x1024 .f32) (w : Vec Ideal S512x512 .bf16)
    (p : Fin 512) (q : Fin 1024) :
    k0_pay11 (F := Ideal) x v w (ix2 p q) = v (ix2 p q) + ∑ kk : Fin 512, w (ix2 p kk) * x (ix2 kk q) := by
  unfold k0_pay11 k0_pay10
  simp only [shapeCast_self]
  exact slice_at x v w p q

/-- A slice of the input product into the second gate's tile. -/
theorem pay12_at (x : Vec Ideal S512x1024 .bf16) (v : Vec Ideal S512x1024 .f32) (w : Vec Ideal S512x512 .bf16)
    (p : Fin 512) (q : Fin 1024) :
    k0_pay12 (F := Ideal) x v w (ix2 p q) = v (ix2 p q) + ∑ kk : Fin 512, w (ix2 p kk) * x (ix2 kk q) :=
  pay11_at x v w p q

/-- A slice of the input product into the third gate's tile. -/
theorem pay13_at (x : Vec Ideal S512x1024 .bf16) (v : Vec Ideal S512x1024 .f32) (w : Vec Ideal S512x512 .bf16)
    (p : Fin 512) (q : Fin 1024) :
    k0_pay13 (F := Ideal) x v w (ix2 p q) = v (ix2 p q) + ∑ kk : Fin 512, w (ix2 p kk) * x (ix2 kk q) :=
  pay11_at x v w p q

/-- A slice of the recurrent product into the first gate's tile. -/
theorem pay16_at (x : Vec Ideal S512x1024 .bf16) (v : Vec Ideal S512x1024 .f32) (w : Vec Ideal S512x512 .bf16)
    (p : Fin 512) (q : Fin 1024) :
    k0_pay16 (F := Ideal) x v w (ix2 p q) = v (ix2 p q) + ∑ kk : Fin 512, w (ix2 p kk) * x (ix2 kk q) :=
  pay11_at x v w p q

/-- A slice of the recurrent product into the second gate's tile. -/
theorem pay17_at (x : Vec Ideal S512x1024 .bf16) (v : Vec Ideal S512x1024 .f32) (w : Vec Ideal S512x512 .bf16)
    (p : Fin 512) (q : Fin 1024) :
    k0_pay17 (F := Ideal) x v w (ix2 p q) = v (ix2 p q) + ∑ kk : Fin 512, w (ix2 p kk) * x (ix2 kk q) :=
  pay11_at x v w p q

/-- A slice of the recurrent product into the third gate's tile. -/
theorem pay18_at (x : Vec Ideal S512x1024 .bf16) (v : Vec Ideal S512x1024 .f32) (w : Vec Ideal S512x512 .bf16)
    (p : Fin 512) (q : Fin 1024) :
    k0_pay18 (F := Ideal) x v w (ix2 p q) = v (ix2 p q) + ∑ kk : Fin 512, w (ix2 p kk) * x (ix2 kk q) :=
  pay11_at x v w p q

/-- A slice of the input product into the fourth gate's tile, whose blocks arrive already reshaped. -/
theorem pay5_at (x : Vec Ideal S512x1024 .bf16) (v : Vec Ideal S512x1024 .f32) (w : Vec Ideal S512x512 .bf16)
    (p : Fin 512) (q : Fin 1024) :
    k0_pay5 (F := Ideal) (k0_pay10 x) v (k0_pay14 w) (constant (F := Ideal) S512x1024 .f32 0x00000000#32) (ix2 p q)
      = v (ix2 p q) + ∑ kk : Fin 512, w (ix2 p kk) * x (ix2 kk q) := by
  unfold k0_pay5 k0_pay10 k0_pay14
  simp only [shapeCast_self]
  exact slice_at x v w p q

/-- A slice of the recurrent product into the fourth gate's tile, whose blocks arrive already reshaped. -/
theorem pay6_at (x : Vec Ideal S512x1024 .bf16) (v : Vec Ideal S512x1024 .f32) (w : Vec Ideal S512x512 .bf16)
    (p : Fin 512) (q : Fin 1024) :
    k0_pay6 (F := Ideal) (k0_pay15 x) v (k0_pay19 w) (constant (F := Ideal) S512x1024 .f32 0x00000000#32) (ix2 p q)
      = v (ix2 p q) + ∑ kk : Fin 512, w (ix2 p kk) * x (ix2 kk q) :=
  pay5_at x v w p q

/-! ## The gates: bias, then the logistic function or the hyperbolic tangent -/

/-- A tile plus the bias column repeated along the rows, at (p, q). -/
theorem bias_at (v : FVec Ideal S512x1024 .f32) (b : FVec Ideal S512x1 .f32) (p : Fin 512) (q : Fin 1024) :
    addf v (broadcastTo S512x1024 b broadcasts_S512x1_S512x1024) (ix2 p q) = v (ix2 p q) + b (ix2 p (0 : Fin 1)) :=
  congrArg (v (ix2 p q) + ·) (Cert.Column.broadcastTo_a1_ab_apply b broadcasts_S512x1_S512x1024 p q)

/-- The first gate: the logistic function of the tile plus the bias. -/
theorem pay20_at (v : Vec Ideal S512x1024 .f32) (b : Vec Ideal S512x1 .f32) (p : Fin 512) (q : Fin 1024) :
    k0_pay20 (F := Ideal) v b (ix2 p q) = Ideal.logistic (v (ix2 p q) + b (ix2 p (0 : Fin 1))) := by
  unfold k0_pay20
  simp only [shapeCast_self]
  exact congrArg Ideal.logistic (bias_at v b p q)

/-- The second gate: the logistic function of the tile plus the bias. -/
theorem pay21_at (v : Vec Ideal S512x1024 .f32) (b : Vec Ideal S512x1 .f32) (p : Fin 512) (q : Fin 1024) :
    k0_pay21 (F := Ideal) v b (ix2 p q) = Ideal.logistic (v (ix2 p q) + b (ix2 p (0 : Fin 1))) :=
  pay20_at v b p q

/-- The candidate: the hyperbolic tangent of the tile plus the bias. -/
theorem pay22_at (v : Vec Ideal S512x1024 .f32) (b : Vec Ideal S512x1 .f32) (p : Fin 512) (q : Fin 1024) :
    k0_pay22 (F := Ideal) v b (ix2 p q) = Ideal.tanh (v (ix2 p q) + b (ix2 p (0 : Fin 1))) := by
  unfold k0_pay22
  simp only [shapeCast_self]
  exact congrArg Ideal.tanh (bias_at v b p q)

/-- The fourth gate: the logistic function of the tile plus the bias, reshaped on its way to memory. -/
theorem pay7_at (v : Vec Ideal S512x1024 .f32) (b : Vec Ideal S512x1 .f32) (p : Fin 512) (q : Fin 1024) :
    k0_pay7 (F := Ideal) (k0_pay23 v b) (ix2 p q) = Ideal.logistic (v (ix2 p q) + b (ix2 p (0 : Fin 1))) := by
  unfold k0_pay7 k0_pay23
  simp only [shapeCast_self]
  exact congrArg Ideal.logistic (bias_at v b p q)

/-! ## The new state and the new output -/

/-- The new state tile: c * f + i * g, entry by entry. -/
theorem pay8_at (c f i g : Vec Ideal S512x1024 .f32) (p : Fin 512) (q : Fin 1024) :
    k0_pay8 (F := Ideal) c f i g (ix2 p q) = c (ix2 p q) * f (ix2 p q) + i (ix2 p q) * g (ix2 p q) := rfl

/-- The new output tile: tanh(c * f + i * g) * o, entry by entry. -/
theorem pay9_at (c f i g o : Vec Ideal S512x1024 .f32) (p : Fin 512) (q : Fin 1024) :
    k0_pay9 (F := Ideal) c f i g o (ix2 p q)
      = Ideal.tanh (c (ix2 p q) * f (ix2 p q) + i (ix2 p q) * g (ix2 p q)) * o (ix2 p q) := rfl

end Cert.KernelIdeal.Tile

end
-- ==== Proof.LibGemmSplit.lean ====
/-
  Sums cut into equal blocks, and a sum over the four elements of `Fin 4` taken in any order: general facts over an
  additive commutative monoid (the extended reals are one: no finiteness is asked anywhere), and two regroupings of a
  product in a commutative monoid. Nothing here mentions a program.
-/
import Mathlib.Algebra.BigOperators.Fin
import Mathlib.Algebra.BigOperators.Group.Finset.Basic
import Mathlib.Data.Fintype.BigOperators
import Mathlib.Data.EReal.Inv
import Mathlib.Logic.Equiv.Fin.Basic

open scoped BigOperators

namespace Cert.LibGemmSplit

/-- Position `j` of block `c`, of `n` blocks of length `b` laid end to end, is below the total length. -/
theorem blk_lt {N n b : ℕ} (h : n * b = N) (c : Fin n) (j : Fin b) : b * c.val + j.val < N := by
  have hc : c.val + 1 ≤ n := c.isLt
  calc b * c.val + j.val < b * c.val + b := Nat.add_lt_add_left j.isLt _
    _ = b * (c.val + 1) := (Nat.mul_succ _ _).symm
    _ ≤ b * n := Nat.mul_le_mul_left _ hc
    _ = N := by rw [Nat.mul_comm, h]

/-- A sum over `Fin N`, `N = n * b`, is the sum over the `n` consecutive blocks of length `b` of each block's sum:
    `∑ k, f k = ∑ c, ∑ j, f (b * c + j)`. Only commutativity and associativity of `+` are used. -/
theorem sum_blocks {M : Type*} [AddCommMonoid M] {N n b : ℕ} (h : n * b = N) (f : Fin N → M) :
    ∑ k : Fin N, f k = ∑ c : Fin n, ∑ j : Fin b, f ⟨b * c.val + j.val, blk_lt h c j⟩ := by
  subst h
  rw [← Equiv.sum_comp finProdFinEquiv f, Fintype.sum_prod_type]
  refine Finset.sum_congr rfl fun c _ => Finset.sum_congr rfl fun j _ => congrArg f (Fin.ext ?_)
  show j.val + b * c.val = b * c.val + j.val
  exact Nat.add_comm _ _

/-- The case of this file's name: 1024 terms as 4 blocks of 256. -/
theorem sum_1024_eq_4x256 {M : Type*} [AddCommMonoid M] (f : Fin 1024 → M) :
    ∑ k : Fin 1024, f k = ∑ c : Fin 4, ∑ j : Fin 256, f ⟨256 * c.val + j.val, blk_lt (by norm_num) c j⟩ :=
  sum_blocks (n := 4) (b := 256) (by norm_num) f

/-- Four pairwise distinct elements of `Fin 4` are all of them. -/
theorem univ_eq_of_distinct : ∀ a b c d : Fin 4, a ≠ b → a ≠ c → a ≠ d → b ≠ c → b ≠ d → c ≠ d →
    (Finset.univ : Finset (Fin 4)) = {a, b, c, d} := by decide

/-- The values of `g` at four pairwise distinct elements of `Fin 4`, added in that order (grouped from the right),
    are the sum of `g` over `Fin 4`. -/
theorem sum_four_distinct {M : Type*} [AddCommMonoid M] (g : Fin 4 → M) (a b c d : Fin 4)
    (hab : a ≠ b) (hac : a ≠ c) (had : a ≠ d) (hbc : b ≠ c) (hbd : b ≠ d) (hcd : c ≠ d) :
    g a + (g b + (g c + g d)) = ∑ i : Fin 4, g i := by
  rw [univ_eq_of_distinct a b c d hab hac had hbc hbd hcd,
    Finset.sum_insert (by simp [hab, hac, had]), Finset.sum_insert (by simp [hbc, hbd]),
    Finset.sum_insert (by simp [hcd]), Finset.sum_singleton]

/-- The same for the four values of a bijection of `Fin 4`. -/
theorem sum_four_perm {M : Type*} [AddCommMonoid M] (g : Fin 4 → M) (σ : Fin 4 ≃ Fin 4) :
    g (σ 0) + (g (σ 1) + (g (σ 2) + g (σ 3))) = ∑ i : Fin 4, g i := by
  rw [← Equiv.sum_comp σ g, Fin.sum_univ_four, add_assoc, add_assoc]

/-- In a commutative monoid (the extended reals under `*`): `((k * y) * y) * y = k * ((y * y) * y)`. -/
theorem mul_cube_assoc {M : Type*} [CommMonoid M] (k y : M) : ((k * y) * y) * y = k * ((y * y) * y) := by
  rw [mul_assoc k y y, mul_assoc k (y * y) y]

/-- The same on the extended reals, where it is used. -/
theorem ereal_mul_cube_assoc (k y : EReal) : ((k * y) * y) * y = k * ((y * y) * y) := mul_cube_assoc k y

end Cert.LibGemmSplit
-- ==== Proof.CellSpec.lean ====
/-
  One step of an LSTM cell on 4096 state rows and 4096 batch columns, as one function of its fifteen arrays.
  For a gate with input weights w (4096 x 2048), recurrent weights u (4096 x 4096) and bias column b, the
  pre-activation at row r and column q is

      pre r q = (sum over k < 2048 of w(r,k) * x(k,q)) + (sum over k < 4096 of u(r,k) * h(k,q)) + b(r),

  and with f, i, o the logistic of the forget, input and output gates' pre-activations and g the hyperbolic tangent
  of the candidate's,

      state' r q = c(r,q) * f + i * g,        out r q = tanh(state' r q) * o.

  Everything is read on the extended reals. The second half of the file is the arithmetic of computing one
  pre-activation's two sums in twelve slices of 512 terms (four of the first sum, then eight of the second), each
  added to a running total that starts at zero: the total after the last slice is the two whole sums, by
  associativity and commutativity of addition alone, so no finiteness is needed.
-/
import Idealize.ShloMosaic.PureOps.Ideal
import Idealize.ShloMosaic.Lib.ValueIdx
import proofs.«125515_j24756191494330_2_alg».proof.Proof.LibGemmSplit

noncomputable section

open scoped BigOperators

namespace Cert.Cell

open Idealize.ShloMosaic Idealize.ShloMosaic.ValueIdx

/-- The input: 2048 features by 4096 columns. -/
abbrev Mx : Shape := ⟨2, ![2048, 4096]⟩
/-- The previous output, the previous state, the recurrent weights and both results: 4096 by 4096. -/
abbrev Mh : Shape := ⟨2, ![4096, 4096]⟩
/-- The input weights: 4096 rows by 2048 features. -/
abbrev Mw : Shape := ⟨2, ![4096, 2048]⟩
/-- A bias: one column of 4096 rows. -/
abbrev Mb : Shape := ⟨2, ![4096, 1]⟩

/-- Term k of the input product at row r, column q. -/
def inTerm (w : Mw.Idx → EReal) (x : Mx.Idx → EReal) (r q : Fin 4096) (k : Fin 2048) : EReal := w (ix2 r k) * x (ix2 k q)
/-- Term k of the recurrent product at row r, column q. -/
def recTerm (u : Mh.Idx → EReal) (h : Mh.Idx → EReal) (r q : Fin 4096) (k : Fin 4096) : EReal := u (ix2 r k) * h (ix2 k q)

/-- A gate's pre-activation. -/
def pre (w : Mw.Idx → EReal) (u : Mh.Idx → EReal) (b : Mb.Idx → EReal) (x : Mx.Idx → EReal) (h : Mh.Idx → EReal)
    (r q : Fin 4096) : EReal :=
  (∑ k : Fin 2048, inTerm w x r q k) + (∑ k : Fin 4096, recTerm u h r q k) + b (ix2 r (0 : Fin 1))

/-- The new state at row r, column q. -/
def newState (x : Mx.Idx → EReal) (h c : Mh.Idx → EReal)
    (wf : Mw.Idx → EReal) (uf : Mh.Idx → EReal) (bf : Mb.Idx → EReal)
    (wi : Mw.Idx → EReal) (ui : Mh.Idx → EReal) (bi : Mb.Idx → EReal)
    (wg : Mw.Idx → EReal) (ug : Mh.Idx → EReal) (bg : Mb.Idx → EReal) (r q : Fin 4096) : EReal :=
  c (ix2 r q) * Ideal.logistic (pre wf uf bf x h r q) + Ideal.logistic (pre wi ui bi x h r q) * Ideal.tanh (pre wg ug bg x h r q)

/-- The new output at row r, column q. -/
def newOut (x : Mx.Idx → EReal) (h c : Mh.Idx → EReal)
    (wf : Mw.Idx → EReal) (uf : Mh.Idx → EReal) (bf : Mb.Idx → EReal)
    (wi : Mw.Idx → EReal) (ui : Mh.Idx → EReal) (bi : Mb.Idx → EReal)
    (wg : Mw.Idx → EReal) (ug : Mh.Idx → EReal) (bg : Mb.Idx → EReal)
    (wo : Mw.Idx → EReal) (uo : Mh.Idx → EReal) (bo : Mb.Idx → EReal) (r q : Fin 4096) : EReal :=
  Ideal.tanh (newState x h c wf uf bf wi ui bi wg ug bg r q) * Ideal.logistic (pre wo uo bo x h r q)

/-- The new state as a whole array. -/
def stateArr (x : Mx.Idx → EReal) (h c : Mh.Idx → EReal)
    (wf : Mw.Idx → EReal) (uf : Mh.Idx → EReal) (bf : Mb.Idx → EReal)
    (wi : Mw.Idx → EReal) (ui : Mh.Idx → EReal) (bi : Mb.Idx → EReal)
    (wg : Mw.Idx → EReal) (ug : Mh.Idx → EReal) (bg : Mb.Idx → EReal) : Mh.Idx → EReal :=
  fun j => newState x h c wf uf bf wi ui bi wg ug bg (j 0) (j 1)

/-- The new output as a whole array. -/
def outArr (x : Mx.Idx → EReal) (h c : Mh.Idx → EReal)
    (wf : Mw.Idx → EReal) (uf : Mh.Idx → EReal) (bf : Mb.Idx → EReal)
    (wi : Mw.Idx → EReal) (ui : Mh.Idx → EReal) (bi : Mb.Idx → EReal)
    (wg : Mw.Idx → EReal) (ug : Mh.Idx → EReal) (bg : Mb.Idx → EReal)
    (wo : Mw.Idx → EReal) (uo : Mh.Idx → EReal) (bo : Mb.Idx → EReal) : Mh.Idx → EReal :=
  fun j => newOut x h c wf uf bf wi ui bi wg ug bg wo uo bo (j 0) (j 1)

/-! ## The grid: 8 row tiles of 512, 4 column tiles of 1024, 12 contraction steps of 512; point n = (n / 48, n / 12 % 4, n % 12) -/

/-- Row p of the tile of point n, as a row of the whole arrays. -/
def tileRow (n : ℕ) (hn : n < 384) (p : Fin 512) : Fin 4096 := ⟨512 * (n / 48) + p.val, by have := p.isLt; omega⟩
/-- Column q of the tile of point n, as a column of the whole arrays. -/
def tileCol (n : ℕ) (hn : n < 384) (q : Fin 1024) : Fin 4096 := ⟨1024 * (n / 12 % 4) + q.val, by have := q.isLt; omega⟩
/-- Term j of the slice of the input product taken at a point with n % 12 < 4. -/
def inK (n : ℕ) (h : n % 12 < 4) (j : Fin 512) : Fin 2048 := ⟨512 * (n % 12) + j.val, by have := j.isLt; omega⟩
/-- Term j of the slice of the recurrent product taken at a point with n % 12 >= 4. -/
def recK (n : ℕ) (h : ¬n % 12 < 4) (j : Fin 512) : Fin 4096 := ⟨512 * (n % 12 - 4) + j.val, by have := j.isLt; omega⟩

/-! ## Twelve slices of 512 -/

/-- Slice c of the two sums: terms 512 c .. 512 c + 511 of the first for c < 4, terms 512 (c - 4) .. of the second
    for 4 <= c < 12. -/
def slice (f : Fin 2048 → EReal) (g : Fin 4096 → EReal) (c : ℕ) : EReal :=
  if h : c < 4 then ∑ j : Fin 512, f ⟨512 * c + j.val, by have := j.isLt; omega⟩
  else if h' : c < 12 then ∑ j : Fin 512, g ⟨512 * (c - 4) + j.val, by have := j.isLt; omega⟩
  else 0

/-- The running total after slice k. -/
def partialSum (f : Fin 2048 → EReal) (g : Fin 4096 → EReal) (k : ℕ) : EReal := ∑ c ∈ Finset.range (k + 1), slice f g c

theorem slice_in (f : Fin 2048 → EReal) (g : Fin 4096 → EReal) (c : ℕ) (h : c < 4) :
    slice f g c = ∑ j : Fin 512, f ⟨512 * c + j.val, by have := j.isLt; omega⟩ := dif_pos h

theorem slice_rec (f : Fin 2048 → EReal) (g : Fin 4096 → EReal) (c : ℕ) (h : ¬c < 4) (h' : c < 12) :
    slice f g c = ∑ j : Fin 512, g ⟨512 * (c - 4) + j.val, by have := j.isLt; omega⟩ := (dif_neg h).trans (dif_pos h')

theorem partialSum_zero (f : Fin 2048 → EReal) (g : Fin 4096 → EReal) : partialSum f g 0 = slice f g 0 := by
  unfold partialSum; rw [Finset.sum_range_one]

theorem partialSum_succ (f : Fin 2048 → EReal) (g : Fin 4096 → EReal) (k : ℕ) :
    partialSum f g (k + 1) = partialSum f g k + slice f g (k + 1) := by
  unfold partialSum; rw [Finset.sum_range_succ]

/-- After the twelfth slice the running total is the two whole sums: the first is its four blocks of 512, the second
    its eight, and addition may be regrouped freely. -/
theorem partialSum_eleven (f : Fin 2048 → EReal) (g : Fin 4096 → EReal) :
    partialSum f g 11 = (∑ k : Fin 2048, f k) + ∑ k : Fin 4096, g k := by
  simp only [partialSum, Finset.sum_range_succ, Finset.sum_range_zero, zero_add]
  rw [slice_in f g 0 (by norm_num), slice_in f g 1 (by norm_num), slice_in f g 2 (by norm_num), slice_in f g 3 (by norm_num),
    slice_rec f g 4 (by norm_num) (by norm_num), slice_rec f g 5 (by norm_num) (by norm_num),
    slice_rec f g 6 (by norm_num) (by norm_num), slice_rec f g 7 (by norm_num) (by norm_num),
    slice_rec f g 8 (by norm_num) (by norm_num), slice_rec f g 9 (by norm_num) (by norm_num),
    slice_rec f g 10 (by norm_num) (by norm_num), slice_rec f g 11 (by norm_num) (by norm_num)]
  rw [Cert.LibGemmSplit.sum_blocks (n := 4) (b := 512) (by norm_num) f,
    Cert.LibGemmSplit.sum_blocks (n := 8) (b := 512) (by norm_num) g, Fin.sum_univ_four, Fin.sum_univ_eight]
  simp only [add_assoc]
  rfl

end Cert.Cell

end
-- ==== Proof.Ideal.Blocks.lean ====
/-
  Where each window's block sits in its array, for one step of an LSTM cell computed tile by tile.

  The grid has 8 row tiles of 512 rows, 4 column tiles of 1024 columns and 12 contraction steps of 512 terms; point t is
  (row tile t / 48, column tile t / 12 % 4, contraction step t % 12). The first four contraction steps take slices of the
  input product (input weights times input), the last eight take slices of the recurrent product (recurrent weights times
  previous output). This file reads every block entry as an entry of the ARGUMENT arrays: first the arrays the host
  converts to a narrower float format are the arguments themselves on the extended reals; then each window's block index
  is put in closed form in t; then each block entry is located; last the two results' blocks are located in any array
  and shown to fill it.
-/
import proofs.«125515_j24756191494330_2_alg».proof.Proof.Gen.KernelIdeal.Frame
import proofs.«125515_j24756191494330_2_alg».proof.Proof.CellSpec
import Idealize.ShloMosaic.Lib.ValueIdx
import Idealize.ShloMosaic.Lib.Pipeline.Value
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## The converted arrays

Ten of the fifteen arguments pass through a change of float format before the region. On the extended reals a change
of format is the identity, so what the region finds in each converted array is the argument itself. -/

/-- The converted copy of argument 0 holds argument 0, entry by entry. -/
theorem V_main_v0 (c : Dev nD) (i : S2048x4096.Idx) :
    (V m c main_v0 : S2048x4096.Idx → EReal) i = (m ((c : Thread nD τ).loc main_arg0) : S2048x4096.Idx → EReal) i := by
  dsimp only [Gen.V, Gen.hostOps0]
  after_results
  rfl

/-- The converted copy of argument 1 holds argument 1, entry by entry. -/
theorem V_main_v1 (c : Dev nD) (i : S4096x4096.Idx) :
    (V m c main_v1 : S4096x4096.Idx → EReal) i = (m ((c : Thread nD τ).loc main_arg1) : S4096x4096.Idx → EReal) i := by
  dsimp only [Gen.V, Gen.hostOps0]
  after_results
  rfl

/-- The converted copy of argument 3 holds argument 3, entry by entry. -/
theorem V_main_v2 (c : Dev nD) (i : S4096x2048.Idx) :
    (V m c main_v2 : S4096x2048.Idx → EReal) i = (m ((c : Thread nD τ).loc main_arg3) : S4096x2048.Idx → EReal) i := by
  dsimp only [Gen.V, Gen.hostOps0]
  after_results
  rfl

/-- The converted copy of argument 4 holds argument 4, entry by entry. -/
theorem V_main_v3 (c : Dev nD) (i : S4096x4096.Idx) :
    (V m c main_v3 : S4096x4096.Idx → EReal) i = (m ((c : Thread nD τ).loc main_arg4) : S4096x4096.Idx → EReal) i := by
  dsimp only [Gen.V, Gen.hostOps0]
  after_results
  rfl

/-- The converted copy of argument 6 holds argument 6, entry by entry. -/
theorem V_main_v4 (c : Dev nD) (i : S4096x2048.Idx) :
    (V m c main_v4 : S4096x2048.Idx → EReal) i = (m ((c : Thread nD τ).loc main_arg6) : S4096x2048.Idx → EReal) i := by
  dsimp only [Gen.V, Gen.hostOps0]
  after_results
  rfl

/-- The converted copy of argument 7 holds argument 7, entry by entry. -/
theorem V_main_v5 (c : Dev nD) (i : S4096x4096.Idx) :
    (V m c main_v5 : S4096x4096.Idx → EReal) i = (m ((c : Thread nD τ).loc main_arg7) : S4096x4096.Idx → EReal) i := by
  dsimp only [Gen.V, Gen.hostOps0]
  after_results
  rfl

/-- The converted copy of argument 9 holds argument 9, entry by entry. -/
theorem V_main_v6 (c : Dev nD) (i : S4096x2048.Idx) :
    (V m c main_v6 : S4096x2048.Idx → EReal) i = (m ((c : Thread nD τ).loc main_arg9) : S4096x2048.Idx → EReal) i := by
  dsimp only [Gen.V, Gen.hostOps0]
  after_results
  rfl

/-- The converted copy of argument 10 holds argument 10, entry by entry. -/
theorem V_main_v7 (c : Dev nD) (i : S4096x4096.Idx) :
    (V m c main_v7 : S4096x4096.Idx → EReal) i = (m ((c : Thread nD τ).loc main_arg10) : S4096x4096.Idx → EReal) i := by
  dsimp only [Gen.V, Gen.hostOps0]
  after_results
  rfl

/-- The converted copy of argument 12 holds argument 12, entry by entry. -/
theorem V_main_v8 (c : Dev nD) (i : S4096x2048.Idx) :
    (V m c main_v8 : S4096x2048.Idx → EReal) i = (m ((c : Thread nD τ).loc main_arg12) : S4096x2048.Idx → EReal) i := by
  dsimp only [Gen.V, Gen.hostOps0]
  after_results
  rfl

/-- The converted copy of argument 13 holds argument 13, entry by entry. -/
theorem V_main_v9 (c : Dev nD) (i : S4096x4096.Idx) :
    (V m c main_v9 : S4096x4096.Idx → EReal) i = (m ((c : Thread nD τ).loc main_arg13) : S4096x4096.Idx → EReal) i := by
  dsimp only [Gen.V, Gen.hostOps0]
  after_results
  rfl

/-! ## The index maps in closed form

Point t of the grid is (row tile t / 48, column tile t / 12 % 4, contraction step t % 12). Each window's block index
on each axis is one of: the row tile; the column tile; the contraction step itself (on the first four steps, where the
input product's slice is taken); the contraction step less four (from the fifth step on, where the recurrent
product's slice is taken); or zero (the bias columns). Each is decided once over the 384 points. -/

/-- Window 0's block index: on axis 0 the contraction step itself while it is one of the first four, on axis 1 the column tile. -/
theorem bidx0 : ∀ t : Fin cfg0.N, (t.val % 12 < 4 → win0_0.index t (0 : Fin 2) = t.val % 12)
    ∧ win0_0.index t (1 : Fin 2) = t.val / 12 % 4 :=
  (by decide +kernel : ∀ t : Fin grid0.N, _)

/-- Window 1's block index: on axis 0 the contraction step less four from the fifth step on, on axis 1 the column tile. -/
theorem bidx1 : ∀ t : Fin cfg0.N, (¬ t.val % 12 < 4 → win0_1.index t (0 : Fin 2) = t.val % 12 - 4)
    ∧ win0_1.index t (1 : Fin 2) = t.val / 12 % 4 :=
  (by decide +kernel : ∀ t : Fin grid0.N, _)

/-- Window 2's block index: on axis 0 the row tile, on axis 1 the column tile. -/
theorem bidx2 : ∀ t : Fin cfg0.N, win0_2.index t (0 : Fin 2) = t.val / 48
    ∧ win0_2.index t (1 : Fin 2) = t.val / 12 % 4 :=
  (by decide +kernel : ∀ t : Fin grid0.N, _)

/-- Window 3's block index: on axis 0 the row tile, on axis 1 the contraction step itself while it is one of the first four. -/
theorem bidx3 : ∀ t : Fin cfg0.N, win0_3.index t (0 : Fin 2) = t.val / 48
    ∧ (t.val % 12 < 4 → win0_3.index t (1 : Fin 2) = t.val % 12) :=
  (by decide +kernel : ∀ t : Fin grid0.N, _)

/-- Window 4's block index: on axis 0 the row tile, on axis 1 the contraction step less four from the fifth step on. -/
theorem bidx4 : ∀ t : Fin cfg0.N, win0_4.index t (0 : Fin 2) = t.val / 48
    ∧ (¬ t.val % 12 < 4 → win0_4.index t (1 : Fin 2) = t.val % 12 - 4) :=
  (by decide +kernel : ∀ t : Fin grid0.N, _)

/-- Window 5's block index: on axis 0 the row tile, on axis 1 zero. -/
theorem bidx5 : ∀ t : Fin cfg0.N, win0_5.index t (0 : Fin 2) = t.val / 48
    ∧ win0_5.index t (1 : Fin 2) = 0 :=
  (by decide +kernel : ∀ t : Fin grid0.N, _)

/-- Window 6's block index: on axis 0 the row tile, on axis 1 the contraction step itself while it is one of the first four. -/
theorem bidx6 : ∀ t : Fin cfg0.N, win0_6.index t (0 : Fin 2) = t.val / 48
    ∧ (t.val % 12 < 4 → win0_6.index t (1 : Fin 2) = t.val % 12) :=
  (by decide +kernel : ∀ t : Fin grid0.N, _)

/-- Window 7's block index: on axis 0 the row tile, on axis 1 the contraction step less four from the fifth step on. -/
theorem bidx7 : ∀ t : Fin cfg0.N, win0_7.index t (0 : Fin 2) = t.val / 48
    ∧ (¬ t.val % 12 < 4 → win0_7.index t (1 : Fin 2) = t.val % 12 - 4) :=
  (by decide +kernel : ∀ t : Fin grid0.N, _)

/-- Window 8's block index: on axis 0 the row tile, on axis 1 zero. -/
theorem bidx8 : ∀ t : Fin cfg0.N, win0_8.index t (0 : Fin 2) = t.val / 48
    ∧ win0_8.index t (1 : Fin 2) = 0 :=
  (by decide +kernel : ∀ t : Fin grid0.N, _)

/-- Window 9's block index: on axis 0 the row tile, on axis 1 the contraction step itself while it is one of the first four. -/
theorem bidx9 : ∀ t : Fin cfg0.N, win0_9.index t (0 : Fin 2) = t.val / 48
    ∧ (t.val % 12 < 4 → win0_9.index t (1 : Fin 2) = t.val % 12) :=
  (by decide +kernel : ∀ t : Fin grid0.N, _)

/-- Window 10's block index: on axis 0 the row tile, on axis 1 the contraction step less four from the fifth step on. -/
theorem bidx10 : ∀ t : Fin cfg0.N, win0_10.index t (0 : Fin 2) = t.val / 48
    ∧ (¬ t.val % 12 < 4 → win0_10.index t (1 : Fin 2) = t.val % 12 - 4) :=
  (by decide +kernel : ∀ t : Fin grid0.N, _)

/-- Window 11's block index: on axis 0 the row tile, on axis 1 zero. -/
theorem bidx11 : ∀ t : Fin cfg0.N, win0_11.index t (0 : Fin 2) = t.val / 48
    ∧ win0_11.index t (1 : Fin 2) = 0 :=
  (by decide +kernel : ∀ t : Fin grid0.N, _)

/-- Window 12's block index: on axis 0 the row tile, on axis 1 the contraction step itself while it is one of the first four. -/
theorem bidx12 : ∀ t : Fin cfg0.N, win0_12.index t (0 : Fin 2) = t.val / 48
    ∧ (t.val % 12 < 4 → win0_12.index t (1 : Fin 2) = t.val % 12) :=
  (by decide +kernel : ∀ t : Fin grid0.N, _)

/-- Window 13's block index: on axis 0 the row tile, on axis 1 the contraction step less four from the fifth step on. -/
theorem bidx13 : ∀ t : Fin cfg0.N, win0_13.index t (0 : Fin 2) = t.val / 48
    ∧ (¬ t.val % 12 < 4 → win0_13.index t (1 : Fin 2) = t.val % 12 - 4) :=
  (by decide +kernel : ∀ t : Fin grid0.N, _)

/-- Window 14's block index: on axis 0 the row tile, on axis 1 zero. -/
theorem bidx14 : ∀ t : Fin cfg0.N, win0_14.index t (0 : Fin 2) = t.val / 48
    ∧ win0_14.index t (1 : Fin 2) = 0 :=
  (by decide +kernel : ∀ t : Fin grid0.N, _)

/-- Window 15's block index: on axis 0 the row tile, on axis 1 the column tile. -/
theorem bidx15 : ∀ t : Fin cfg0.N, win0_15.index t (0 : Fin 2) = t.val / 48
    ∧ win0_15.index t (1 : Fin 2) = t.val / 12 % 4 :=
  (by decide +kernel : ∀ t : Fin grid0.N, _)

/-- Window 16's block index: on axis 0 the row tile, on axis 1 the column tile. -/
theorem bidx16 : ∀ t : Fin cfg0.N, win0_16.index t (0 : Fin 2) = t.val / 48
    ∧ win0_16.index t (1 : Fin 2) = t.val / 12 % 4 :=
  (by decide +kernel : ∀ t : Fin grid0.N, _)

/-! ## Where each input block sits

Reading a window's block at an entry is reading its array at the block's embedding of that entry, and on each axis the
embedded coordinate is the block index times the block's extent plus the entry's coordinate. With the closed forms
above, each block entry is an entry of an argument array. The blocks of the input and of the input weights are used
on the first four contraction steps, those of the previous output and of the recurrent weights from the fifth on; the
previous state's and the biases' at every point. -/

/-- Window 0 at point t is the input's block: 512 of its rows, those of the contraction step, by the tile's 1024 columns. -/
theorem blk0 (c : Dev nD) (t : Fin cfg0.N) (hN : t.val < 384) (hk : t.val % 12 < 4) (kk : Fin 512) (q : Fin 1024) :
    iblk m c 0 t (ix2 kk q)
      = (m ((c : Thread nD τ).loc main_arg0) : S2048x4096.Idx → EReal) (ix2 (Cert.Cell.inK t.val hk kk) (Cert.Cell.tileCol t.val hN q)) := by
  obtain ⟨e0, e1⟩ := bidx0 t
  have e0 := e0 hk
  show (V m c main_v0 : S2048x4096.Idx → EReal) (((cfg0.win 0).blk t).view.emb (ix2 kk q)) = _
  refine (V_main_v0 m c _).trans ?_
  refine congrArg (m ((c : Thread nD τ).loc main_arg0) : S2048x4096.Idx → EReal) ?_
  funext a; apply Fin.ext
  match a with
  | ⟨0, _⟩ => show win0_0.index t (0 : Fin 2) * 512 + 1 * kk.val = 512 * (t.val % 12) + kk.val; omega
  | ⟨1, _⟩ => show win0_0.index t (1 : Fin 2) * 1024 + 1 * q.val = 1024 * (t.val / 12 % 4) + q.val; omega

/-- Window 3 at point t is the forget gate's input weights' block: the tile's 512 rows by the 512 columns of the contraction step. -/
theorem blk3 (c : Dev nD) (t : Fin cfg0.N) (hN : t.val < 384) (hk : t.val % 12 < 4) (p : Fin 512) (kk : Fin 512) :
    iblk m c 3 t (ix2 p kk)
      = (m ((c : Thread nD τ).loc main_arg3) : S4096x2048.Idx → EReal) (ix2 (Cert.Cell.tileRow t.val hN p) (Cert.Cell.inK t.val hk kk)) := by
  obtain ⟨e0, e1⟩ := bidx3 t
  have e1 := e1 hk
  show (V m c main_v2 : S4096x2048.Idx → EReal) (((cfg0.win 3).blk t).view.emb (ix2 p kk)) = _
  refine (V_main_v2 m c _).trans ?_
  refine congrArg (m ((c : Thread nD τ).loc main_arg3) : S4096x2048.Idx → EReal) ?_
  funext a; apply Fin.ext
  match a with
  | ⟨0, _⟩ => show win0_3.index t (0 : Fin 2) * 512 + 1 * p.val = 512 * (t.val / 48) + p.val; omega
  | ⟨1, _⟩ => show win0_3.index t (1 : Fin 2) * 512 + 1 * kk.val = 512 * (t.val % 12) + kk.val; omega

/-- Window 6 at point t is the input gate's input weights' block: the tile's 512 rows by the 512 columns of the contraction step. -/
theorem blk6 (c : Dev nD) (t : Fin cfg0.N) (hN : t.val < 384) (hk : t.val % 12 < 4) (p : Fin 512) (kk : Fin 512) :
    iblk m c 6 t (ix2 p kk)
      = (m ((c : Thread nD τ).loc main_arg6) : S4096x2048.Idx → EReal) (ix2 (Cert.Cell.tileRow t.val hN p) (Cert.Cell.inK t.val hk kk)) := by
  obtain ⟨e0, e1⟩ := bidx6 t
  have e1 := e1 hk
  show (V m c main_v4 : S4096x2048.Idx → EReal) (((cfg0.win 6).blk t).view.emb (ix2 p kk)) = _
  refine (V_main_v4 m c _).trans ?_
  refine congrArg (m ((c : Thread nD τ).loc main_arg6) : S4096x2048.Idx → EReal) ?_
  funext a; apply Fin.ext
  match a with
  | ⟨0, _⟩ => show win0_6.index t (0 : Fin 2) * 512 + 1 * p.val = 512 * (t.val / 48) + p.val; omega
  | ⟨1, _⟩ => show win0_6.index t (1 : Fin 2) * 512 + 1 * kk.val = 512 * (t.val % 12) + kk.val; omega

/-- Window 9 at point t is the candidate gate's input weights' block: the tile's 512 rows by the 512 columns of the contraction step. -/
theorem blk9 (c : Dev nD) (t : Fin cfg0.N) (hN : t.val < 384) (hk : t.val % 12 < 4) (p : Fin 512) (kk : Fin 512) :
    iblk m c 9 t (ix2 p kk)
      = (m ((c : Thread nD τ).loc main_arg9) : S4096x2048.Idx → EReal) (ix2 (Cert.Cell.tileRow t.val hN p) (Cert.Cell.inK t.val hk kk)) := by
  obtain ⟨e0, e1⟩ := bidx9 t
  have e1 := e1 hk
  show (V m c main_v6 : S4096x2048.Idx → EReal) (((cfg0.win 9).blk t).view.emb (ix2 p kk)) = _
  refine (V_main_v6 m c _).trans ?_
  refine congrArg (m ((c : Thread nD τ).loc main_arg9) : S4096x2048.Idx → EReal) ?_
  funext a; apply Fin.ext
  match a with
  | ⟨0, _⟩ => show win0_9.index t (0 : Fin 2) * 512 + 1 * p.val = 512 * (t.val / 48) + p.val; omega
  | ⟨1, _⟩ => show win0_9.index t (1 : Fin 2) * 512 + 1 * kk.val = 512 * (t.val % 12) + kk.val; omega

/-- Window 12 at point t is the output gate's input weights' block: the tile's 512 rows by the 512 columns of the contraction step. -/
theorem blk12 (c : Dev nD) (t : Fin cfg0.N) (hN : t.val < 384) (hk : t.val % 12 < 4) (p : Fin 512) (kk : Fin 512) :
    iblk m c 12 t (ix2 p kk)
      = (m ((c : Thread nD τ).loc main_arg12) : S4096x2048.Idx → EReal) (ix2 (Cert.Cell.tileRow t.val hN p) (Cert.Cell.inK t.val hk kk)) := by
  obtain ⟨e0, e1⟩ := bidx12 t
  have e1 := e1 hk
  show (V m c main_v8 : S4096x2048.Idx → EReal) (((cfg0.win 12).blk t).view.emb (ix2 p kk)) = _
  refine (V_main_v8 m c _).trans ?_
  refine congrArg (m ((c : Thread nD τ).loc main_arg12) : S4096x2048.Idx → EReal) ?_
  funext a; apply Fin.ext
  match a with
  | ⟨0, _⟩ => show win0_12.index t (0 : Fin 2) * 512 + 1 * p.val = 512 * (t.val / 48) + p.val; omega
  | ⟨1, _⟩ => show win0_12.index t (1 : Fin 2) * 512 + 1 * kk.val = 512 * (t.val % 12) + kk.val; omega

/-- Window 1 at point t is the previous output's block: 512 of its rows, those of the contraction step less four, by the tile's 1024 columns. -/
theorem blk1 (c : Dev nD) (t : Fin cfg0.N) (hN : t.val < 384) (hk : ¬ t.val % 12 < 4) (kk : Fin 512) (q : Fin 1024) :
    iblk m c 1 t (ix2 kk q)
      = (m ((c : Thread nD τ).loc main_arg1) : S4096x4096.Idx → EReal) (ix2 (Cert.Cell.recK t.val hk kk) (Cert.Cell.tileCol t.val hN q)) := by
  obtain ⟨e0, e1⟩ := bidx1 t
  have e0 := e0 hk
  show (V m c main_v1 : S4096x4096.Idx → EReal) (((cfg0.win 1).blk t).view.emb (ix2 kk q)) = _
  refine (V_main_v1 m c _).trans ?_
  refine congrArg (m ((c : Thread nD τ).loc main_arg1) : S4096x4096.Idx → EReal) ?_
  funext a; apply Fin.ext
  match a with
  | ⟨0, _⟩ => show win0_1.index t (0 : Fin 2) * 512 + 1 * kk.val = 512 * (t.val % 12 - 4) + kk.val; omega
  | ⟨1, _⟩ => show win0_1.index t (1 : Fin 2) * 1024 + 1 * q.val = 1024 * (t.val / 12 % 4) + q.val; omega

/-- Window 4 at point t is the forget gate's recurrent weights' block: the tile's 512 rows by the 512 columns of the contraction step less four. -/
theorem blk4 (c : Dev nD) (t : Fin cfg0.N) (hN : t.val < 384) (hk : ¬ t.val % 12 < 4) (p : Fin 512) (kk : Fin 512) :
    iblk m c 4 t (ix2 p kk)
      = (m ((c : Thread nD τ).loc main_arg4) : S4096x4096.Idx → EReal) (ix2 (Cert.Cell.tileRow t.val hN p) (Cert.Cell.recK t.val hk kk)) := by
  obtain ⟨e0, e1⟩ := bidx4 t
  have e1 := e1 hk
  show (V m c main_v3 : S4096x4096.Idx → EReal) (((cfg0.win 4).blk t).view.emb (ix2 p kk)) = _
  refine (V_main_v3 m c _).trans ?_
  refine congrArg (m ((c : Thread nD τ).loc main_arg4) : S4096x4096.Idx → EReal) ?_
  funext a; apply Fin.ext
  match a with
  | ⟨0, _⟩ => show win0_4.index t (0 : Fin 2) * 512 + 1 * p.val = 512 * (t.val / 48) + p.val; omega
  | ⟨1, _⟩ => show win0_4.index t (1 : Fin 2) * 512 + 1 * kk.val = 512 * (t.val % 12 - 4) + kk.val; omega

/-- Window 7 at point t is the input gate's recurrent weights' block: the tile's 512 rows by the 512 columns of the contraction step less four. -/
theorem blk7 (c : Dev nD) (t : Fin cfg0.N) (hN : t.val < 384) (hk : ¬ t.val % 12 < 4) (p : Fin 512) (kk : Fin 512) :
    iblk m c 7 t (ix2 p kk)
      = (m ((c : Thread nD τ).loc main_arg7) : S4096x4096.Idx → EReal) (ix2 (Cert.Cell.tileRow t.val hN p) (Cert.Cell.recK t.val hk kk)) := by
  obtain ⟨e0, e1⟩ := bidx7 t
  have e1 := e1 hk
  show (V m c main_v5 : S4096x4096.Idx → EReal) (((cfg0.win 7).blk t).view.emb (ix2 p kk)) = _
  refine (V_main_v5 m c _).trans ?_
  refine congrArg (m ((c : Thread nD τ).loc main_arg7) : S4096x4096.Idx → EReal) ?_
  funext a; apply Fin.ext
  match a with
  | ⟨0, _⟩ => show win0_7.index t (0 : Fin 2) * 512 + 1 * p.val = 512 * (t.val / 48) + p.val; omega
  | ⟨1, _⟩ => show win0_7.index t (1 : Fin 2) * 512 + 1 * kk.val = 512 * (t.val % 12 - 4) + kk.val; omega

/-- Window 10 at point t is the candidate gate's recurrent weights' block: the tile's 512 rows by the 512 columns of the contraction step less four. -/
theorem blk10 (c : Dev nD) (t : Fin cfg0.N) (hN : t.val < 384) (hk : ¬ t.val % 12 < 4) (p : Fin 512) (kk : Fin 512) :
    iblk m c 10 t (ix2 p kk)
      = (m ((c : Thread nD τ).loc main_arg10) : S4096x4096.Idx → EReal) (ix2 (Cert.Cell.tileRow t.val hN p) (Cert.Cell.recK t.val hk kk)) := by
  obtain ⟨e0, e1⟩ := bidx10 t
  have e1 := e1 hk
  show (V m c main_v7 : S4096x4096.Idx → EReal) (((cfg0.win 10).blk t).view.emb (ix2 p kk)) = _
  refine (V_main_v7 m c _).trans ?_
  refine congrArg (m ((c : Thread nD τ).loc main_arg10) : S4096x4096.Idx → EReal) ?_
  funext a; apply Fin.ext
  match a with
  | ⟨0, _⟩ => show win0_10.index t (0 : Fin 2) * 512 + 1 * p.val = 512 * (t.val / 48) + p.val; omega
  | ⟨1, _⟩ => show win0_10.index t (1 : Fin 2) * 512 + 1 * kk.val = 512 * (t.val % 12 - 4) + kk.val; omega

/-- Window 13 at point t is the output gate's recurrent weights' block: the tile's 512 rows by the 512 columns of the contraction step less four. -/
theorem blk13 (c : Dev nD) (t : Fin cfg0.N) (hN : t.val < 384) (hk : ¬ t.val % 12 < 4) (p : Fin 512) (kk : Fin 512) :
    iblk m c 13 t (ix2 p kk)
      = (m ((c : Thread nD τ).loc main_arg13) : S4096x4096.Idx → EReal) (ix2 (Cert.Cell.tileRow t.val hN p) (Cert.Cell.recK t.val hk kk)) := by
  obtain ⟨e0, e1⟩ := bidx13 t
  have e1 := e1 hk
  show (V m c main_v9 : S4096x4096.Idx → EReal) (((cfg0.win 13).blk t).view.emb (ix2 p kk)) = _
  refine (V_main_v9 m c _).trans ?_
  refine congrArg (m ((c : Thread nD τ).loc main_arg13) : S4096x4096.Idx → EReal) ?_
  funext a; apply Fin.ext
  match a with
  | ⟨0, _⟩ => show win0_13.index t (0 : Fin 2) * 512 + 1 * p.val = 512 * (t.val / 48) + p.val; omega
  | ⟨1, _⟩ => show win0_13.index t (1 : Fin 2) * 512 + 1 * kk.val = 512 * (t.val % 12 - 4) + kk.val; omega

/-- Window 2 at point t is the previous state's block: the tile's 512 rows by its 1024 columns. -/
theorem blk2 (c : Dev nD) (t : Fin cfg0.N) (hN : t.val < 384) (p : Fin 512) (q : Fin 1024) :
    iblk m c 2 t (ix2 p q)
      = (m ((c : Thread nD τ).loc main_arg2) : S4096x4096.Idx → EReal) (ix2 (Cert.Cell.tileRow t.val hN p) (Cert.Cell.tileCol t.val hN q)) := by
  obtain ⟨e0, e1⟩ := bidx2 t
  show (V m c main_arg2 : S4096x4096.Idx → EReal) (((cfg0.win 2).blk t).view.emb (ix2 p q)) = _
  refine (congrFun (V_main_arg2 m c) _).trans ?_
  refine congrArg (m ((c : Thread nD τ).loc main_arg2) : S4096x4096.Idx → EReal) ?_
  funext a; apply Fin.ext
  match a with
  | ⟨0, _⟩ => show win0_2.index t (0 : Fin 2) * 512 + 1 * p.val = 512 * (t.val / 48) + p.val; omega
  | ⟨1, _⟩ => show win0_2.index t (1 : Fin 2) * 1024 + 1 * q.val = 1024 * (t.val / 12 % 4) + q.val; omega

/-- Window 5 at point t is the forget gate's bias block: the tile's 512 rows of the one column. -/
theorem blk5 (c : Dev nD) (t : Fin cfg0.N) (hN : t.val < 384) (p : Fin 512)  :
    iblk m c 5 t (ix2 p (0 : Fin 1))
      = (m ((c : Thread nD τ).loc main_arg5) : S4096x1.Idx → EReal) (ix2 (Cert.Cell.tileRow t.val hN p) (0 : Fin 1)) := by
  obtain ⟨e0, e1⟩ := bidx5 t
  show (V m c main_arg5 : S4096x1.Idx → EReal) (((cfg0.win 5).blk t).view.emb (ix2 p (0 : Fin 1))) = _
  refine (congrFun (V_main_arg5 m c) _).trans ?_
  refine congrArg (m ((c : Thread nD τ).loc main_arg5) : S4096x1.Idx → EReal) ?_
  funext a; apply Fin.ext
  match a with
  | ⟨0, _⟩ => show win0_5.index t (0 : Fin 2) * 512 + 1 * p.val = 512 * (t.val / 48) + p.val; omega
  | ⟨1, _⟩ => show win0_5.index t (1 : Fin 2) * 1 + 1 * 0 = 0; omega

/-- Window 8 at point t is the input gate's bias block: the tile's 512 rows of the one column. -/
theorem blk8 (c : Dev nD) (t : Fin cfg0.N) (hN : t.val < 384) (p : Fin 512)  :
    iblk m c 8 t (ix2 p (0 : Fin 1))
      = (m ((c : Thread nD τ).loc main_arg8) : S4096x1.Idx → EReal) (ix2 (Cert.Cell.tileRow t.val hN p) (0 : Fin 1)) := by
  obtain ⟨e0, e1⟩ := bidx8 t
  show (V m c main_arg8 : S4096x1.Idx → EReal) (((cfg0.win 8).blk t).view.emb (ix2 p (0 : Fin 1))) = _
  refine (congrFun (V_main_arg8 m c) _).trans ?_
  refine congrArg (m ((c : Thread nD τ).loc main_arg8) : S4096x1.Idx → EReal) ?_
  funext a; apply Fin.ext
  match a with
  | ⟨0, _⟩ => show win0_8.index t (0 : Fin 2) * 512 + 1 * p.val = 512 * (t.val / 48) + p.val; omega
  | ⟨1, _⟩ => show win0_8.index t (1 : Fin 2) * 1 + 1 * 0 = 0; omega

/-- Window 11 at point t is the candidate gate's bias block: the tile's 512 rows of the one column. -/
theorem blk11 (c : Dev nD) (t : Fin cfg0.N) (hN : t.val < 384) (p : Fin 512)  :
    iblk m c 11 t (ix2 p (0 : Fin 1))
      = (m ((c : Thread nD τ).loc main_arg11) : S4096x1.Idx → EReal) (ix2 (Cert.Cell.tileRow t.val hN p) (0 : Fin 1)) := by
  obtain ⟨e0, e1⟩ := bidx11 t
  show (V m c main_arg11 : S4096x1.Idx → EReal) (((cfg0.win 11).blk t).view.emb (ix2 p (0 : Fin 1))) = _
  refine (congrFun (V_main_arg11 m c) _).trans ?_
  refine congrArg (m ((c : Thread nD τ).loc main_arg11) : S4096x1.Idx → EReal) ?_
  funext a; apply Fin.ext
  match a with
  | ⟨0, _⟩ => show win0_11.index t (0 : Fin 2) * 512 + 1 * p.val = 512 * (t.val / 48) + p.val; omega
  | ⟨1, _⟩ => show win0_11.index t (1 : Fin 2) * 1 + 1 * 0 = 0; omega

/-- Window 14 at point t is the output gate's bias block: the tile's 512 rows of the one column. -/
theorem blk14 (c : Dev nD) (t : Fin cfg0.N) (hN : t.val < 384) (p : Fin 512)  :
    iblk m c 14 t (ix2 p (0 : Fin 1))
      = (m ((c : Thread nD τ).loc main_arg14) : S4096x1.Idx → EReal) (ix2 (Cert.Cell.tileRow t.val hN p) (0 : Fin 1)) := by
  obtain ⟨e0, e1⟩ := bidx14 t
  show (V m c main_arg14 : S4096x1.Idx → EReal) (((cfg0.win 14).blk t).view.emb (ix2 p (0 : Fin 1))) = _
  refine (congrFun (V_main_arg14 m c) _).trans ?_
  refine congrArg (m ((c : Thread nD τ).loc main_arg14) : S4096x1.Idx → EReal) ?_
  funext a; apply Fin.ext
  match a with
  | ⟨0, _⟩ => show win0_14.index t (0 : Fin 2) * 512 + 1 * p.val = 512 * (t.val / 48) + p.val; omega
  | ⟨1, _⟩ => show win0_14.index t (1 : Fin 2) * 1 + 1 * 0 = 0; omega

/-! ## The two results

The new state and the new output are each written through blocks of the tile's 512 rows by its 1024 columns, once per
tile, at the tile's last contraction step. The 32 tiles fill the 4096 by 4096 array. -/

/-- Reading any 4096 by 4096 array through the first result's block at point t: entry (p, q) of the block is the array's entry
    at row p of the row tile and column q of the column tile. -/
theorem readOut15 (t : Fin cfg0.N) (hN : t.val < 384) (G : S4096x4096.Idx → Elt Ideal .f32) (p : Fin 512) (q : Fin 1024) :
    ((cfg0.win 15).blk t).view.read (Elt Ideal) G (ix2 p q)
      = G (ix2 (Cert.Cell.tileRow t.val hN p) (Cert.Cell.tileCol t.val hN q)) := by
  obtain ⟨e0, e1⟩ := bidx15 t
  show G (((cfg0.win 15).blk t).view.emb (ix2 p q)) = _
  refine congrArg G ?_
  funext a; apply Fin.ext
  match a with
  | ⟨0, _⟩ => show win0_15.index t (0 : Fin 2) * 512 + 1 * p.val = 512 * (t.val / 48) + p.val; omega
  | ⟨1, _⟩ => show win0_15.index t (1 : Fin 2) * 1024 + 1 * q.val = 1024 * (t.val / 12 % 4) + q.val; omega

/-- An entry of the first result lies in point t's block iff, on each axis, its coordinate lies in the block's range. -/
theorem mem_blk15 (t : Fin cfg0.N) (i : S4096x4096.Idx) :
    i ∈ ((cfg0.win 15).blk t).view.set ↔ ∀ a : Fin 2, win0_15.index t a * S512x1024.size a ≤ (i a).val ∧ (i a).val < win0_15.index t a * S512x1024.size a + S512x1024.size a := by
  show i ∈ ((View.whole main_v10_0).slice (win0_15.rect t)).set ↔ _
  rw [View.set_slice_whole, Rect.mem_set_unit]
  exact Iff.rfl

/-- Every entry (r, s) of the first result lies in the block of a point that writes its block back: the last contraction
    step of row tile r / 512 and column tile s / 1024, point 48 (r / 512) + 12 (s / 1024) + 11. -/
theorem cover15 (i : S4096x4096.Idx) :
    ∃ t : Fin cfg0.N, (cfg0.win 15).flush t = true ∧ i ∈ ((cfg0.win 15).blk t).view.set := by
  have hi0 : (i 0).val < 4096 := (i 0).isLt
  have hi1 : (i 1).val < 4096 := (i 1).isLt
  obtain ⟨n, hn⟩ : ∃ n : ℕ, n = 48 * ((i 0).val / 512) + 12 * ((i 1).val / 1024) + 11 := ⟨_, rfl⟩
  have hlt : n < cfg0.N := by
    show n < grid0.N
    rw [N_0]; omega
  have e0 : win0_15.index ⟨n, hlt⟩ (0 : Fin 2) = n / 48 := (bidx15 ⟨n, hlt⟩).1
  have e1 : win0_15.index ⟨n, hlt⟩ (1 : Fin 2) = n / 12 % 4 := (bidx15 ⟨n, hlt⟩).2
  refine ⟨⟨n, hlt⟩, (flush0_15 ⟨n, hlt⟩).mpr ?_, ?_⟩
  · show n % 12 = 11; omega
  · rw [mem_blk15]
    intro a
    match a with
    | ⟨0, _⟩ => show win0_15.index ⟨n, hlt⟩ (0 : Fin 2) * 512 ≤ (i 0).val ∧ (i 0).val < win0_15.index ⟨n, hlt⟩ (0 : Fin 2) * 512 + 512; omega
    | ⟨1, _⟩ => show win0_15.index ⟨n, hlt⟩ (1 : Fin 2) * 1024 ≤ (i 1).val ∧ (i 1).val < win0_15.index ⟨n, hlt⟩ (1 : Fin 2) * 1024 + 1024; omega

/-- Reading any 4096 by 4096 array through the second result's block at point t: entry (p, q) of the block is the array's entry
    at row p of the row tile and column q of the column tile. -/
theorem readOut16 (t : Fin cfg0.N) (hN : t.val < 384) (G : S4096x4096.Idx → Elt Ideal .f32) (p : Fin 512) (q : Fin 1024) :
    ((cfg0.win 16).blk t).view.read (Elt Ideal) G (ix2 p q)
      = G (ix2 (Cert.Cell.tileRow t.val hN p) (Cert.Cell.tileCol t.val hN q)) := by
  obtain ⟨e0, e1⟩ := bidx16 t
  show G (((cfg0.win 16).blk t).view.emb (ix2 p q)) = _
  refine congrArg G ?_
  funext a; apply Fin.ext
  match a with
  | ⟨0, _⟩ => show win0_16.index t (0 : Fin 2) * 512 + 1 * p.val = 512 * (t.val / 48) + p.val; omega
  | ⟨1, _⟩ => show win0_16.index t (1 : Fin 2) * 1024 + 1 * q.val = 1024 * (t.val / 12 % 4) + q.val; omega

/-- An entry of the second result lies in point t's block iff, on each axis, its coordinate lies in the block's range. -/
theorem mem_blk16 (t : Fin cfg0.N) (i : S4096x4096.Idx) :
    i ∈ ((cfg0.win 16).blk t).view.set ↔ ∀ a : Fin 2, win0_16.index t a * S512x1024.size a ≤ (i a).val ∧ (i a).val < win0_16.index t a * S512x1024.size a + S512x1024.size a := by
  show i ∈ ((View.whole main_v10_1).slice (win0_16.rect t)).set ↔ _
  rw [View.set_slice_whole, Rect.mem_set_unit]
  exact Iff.rfl

/-- Every entry (r, s) of the second result lies in the block of a point that writes its block back: the last contraction
    step of row tile r / 512 and column tile s / 1024, point 48 (r / 512) + 12 (s / 1024) + 11. -/
theorem cover16 (i : S4096x4096.Idx) :
    ∃ t : Fin cfg0.N, (cfg0.win 16).flush t = true ∧ i ∈ ((cfg0.win 16).blk t).view.set := by
  have hi0 : (i 0).val < 4096 := (i 0).isLt
  have hi1 : (i 1).val < 4096 := (i 1).isLt
  obtain ⟨n, hn⟩ : ∃ n : ℕ, n = 48 * ((i 0).val / 512) + 12 * ((i 1).val / 1024) + 11 := ⟨_, rfl⟩
  have hlt : n < cfg0.N := by
    show n < grid0.N
    rw [N_0]; omega
  have e0 : win0_16.index ⟨n, hlt⟩ (0 : Fin 2) = n / 48 := (bidx16 ⟨n, hlt⟩).1
  have e1 : win0_16.index ⟨n, hlt⟩ (1 : Fin 2) = n / 12 % 4 := (bidx16 ⟨n, hlt⟩).2
  refine ⟨⟨n, hlt⟩, (flush0_16 ⟨n, hlt⟩).mpr ?_, ?_⟩
  · show n % 12 = 11; omega
  · rw [mem_blk16]
    intro a
    match a with
    | ⟨0, _⟩ => show win0_16.index ⟨n, hlt⟩ (0 : Fin 2) * 512 ≤ (i 0).val ∧ (i 0).val < win0_16.index ⟨n, hlt⟩ (0 : Fin 2) * 512 + 512; omega
    | ⟨1, _⟩ => show win0_16.index ⟨n, hlt⟩ (1 : Fin 2) * 1024 ≤ (i 1).val ∧ (i 1).val < win0_16.index ⟨n, hlt⟩ (1 : Fin 2) * 1024 + 1024; omega

end Cert.KernelIdeal.Blocks

end
-- ==== Proof.SliceInduction.lean ====
/-
  The accumulation, abstractly. Let a(n) be a 512 x 1024 tile for each grid point n < 384 (what one gate accumulator
  holds after point n), and suppose that along the contraction coordinate k = n mod 12 it obeys the kernel's three
  steps: at k = 0 it is zero plus the first slice of the input product; at 0 < k < 4 it is a(n - 1) plus slice k of
  the input product; at 4 <= k < 11 it is a(n - 1) plus slice k - 4 of the recurrent product — each slice read at the
  tile's rows and columns of the whole arrays. Then after point n (k <= 10) entry (p, q) of a(n) is the running
  total of the twelve-slice sum up to slice k, and adding the last recurrent slice at k = 11 gives the two whole sums.
  Points n - 1 and n lie in the same tile whenever n mod 12 is not 0, which is all the induction uses of the grid.
-/
import proofs.«125515_j24756191494330_2_alg».proof.Proof.CellSpec

noncomputable section

open scoped BigOperators

namespace Cert.Cell

open Idealize.ShloMosaic Idealize.ShloMosaic.ValueIdx

/-- A 512 x 1024 tile. -/
abbrev Tile : Shape := ⟨2, ![512, 1024]⟩

theorem tileRow_pred (n : ℕ) (hn : n + 1 < 384) (h0 : ¬(n + 1) % 12 = 0) (p : Fin 512) :
    tileRow (n + 1) hn p = tileRow n (by omega) p := Fin.ext (by
  show 512 * ((n + 1) / 48) + p.val = 512 * (n / 48) + p.val
  omega)

theorem tileCol_pred (n : ℕ) (hn : n + 1 < 384) (h0 : ¬(n + 1) % 12 = 0) (q : Fin 1024) :
    tileCol (n + 1) hn q = tileCol n (by omega) q := Fin.ext (by
  show 1024 * ((n + 1) / 12 % 4) + q.val = 1024 * (n / 12 % 4) + q.val
  omega)

/-- Slice n mod 12 of the input product, through the tile's own row, column and contraction indices. -/
theorem slice_in_tile (w : Mw.Idx → EReal) (x : Mx.Idx → EReal) (g : Fin 4096 → EReal) (r q : Fin 4096) (n : ℕ) (hk : n % 12 < 4) :
    slice (inTerm w x r q) g (n % 12) = ∑ kk : Fin 512, w (ix2 r (inK n hk kk)) * x (ix2 (inK n hk kk) q) := by
  rw [slice_in _ _ _ hk]; rfl

/-- Slice n mod 12 (>= 4) of the recurrent product, the same way. -/
theorem slice_rec_tile (f : Fin 2048 → EReal) (u h : Mh.Idx → EReal) (r q : Fin 4096) (n : ℕ) (hk : ¬n % 12 < 4) :
    slice f (recTerm u h r q) (n % 12) = ∑ kk : Fin 512, u (ix2 r (recK n hk kk)) * h (ix2 (recK n hk kk) q) := by
  rw [slice_rec _ _ _ hk (Nat.mod_lt _ (by norm_num))]; rfl

section
variable (a : (n : ℕ) → n < 384 → Tile.Idx → EReal)
  (w : Mw.Idx → EReal) (x : Mx.Idx → EReal) (u h : Mh.Idx → EReal)
  (hfirst : ∀ (n : ℕ) (hn : n < 384) (hk : n % 12 = 0) (p : Fin 512) (q : Fin 1024),
      a n hn (ix2 p q) = 0 + ∑ kk : Fin 512, w (ix2 (tileRow n hn p) (inK n (by omega) kk)) * x (ix2 (inK n (by omega) kk) (tileCol n hn q)))
  (hin : ∀ (n : ℕ) (hn : n < 384) (h0 : ¬n % 12 = 0) (hk : n % 12 < 4) (p : Fin 512) (q : Fin 1024),
      a n hn (ix2 p q) = a (n - 1) (by omega) (ix2 p q)
        + ∑ kk : Fin 512, w (ix2 (tileRow n hn p) (inK n hk kk)) * x (ix2 (inK n hk kk) (tileCol n hn q)))
  (hrec : ∀ (n : ℕ) (hn : n < 384) (hk : ¬n % 12 < 4) (h3 : ¬n % 12 = 11) (p : Fin 512) (q : Fin 1024),
      a n hn (ix2 p q) = a (n - 1) (by omega) (ix2 p q)
        + ∑ kk : Fin 512, u (ix2 (tileRow n hn p) (recK n hk kk)) * h (ix2 (recK n hk kk) (tileCol n hn q)))

include hfirst hin hrec in
/-- After point n, with n mod 12 <= 10, the accumulator holds the running total up to slice n mod 12. -/
theorem acc_sum : ∀ (n : ℕ) (hn : n < 384), n % 12 ≤ 10 → ∀ (p : Fin 512) (q : Fin 1024),
    a n hn (ix2 p q) = partialSum (inTerm w x (tileRow n hn p) (tileCol n hn q)) (recTerm u h (tileRow n hn p) (tileCol n hn q)) (n % 12) := by
  intro n
  induction n with
  | zero =>
    intro hn _ p q
    rw [hfirst 0 hn rfl p q, zero_add]
    show _ = partialSum _ _ 0
    rw [partialSum_zero]
    exact (slice_in_tile w x _ _ _ 0 (by norm_num)).symm
  | succ n ih =>
    intro hn hk p q
    by_cases h0 : (n + 1) % 12 = 0
    · rw [hfirst (n + 1) hn h0 p q, zero_add]
      have e := slice_in_tile w x (recTerm u h (tileRow (n + 1) hn p) (tileCol (n + 1) hn q)) (tileRow (n + 1) hn p) (tileCol (n + 1) hn q) (n + 1) (by omega)
      have e2 : ∀ (f : Fin 2048 → EReal) (g : Fin 4096 → EReal), partialSum f g ((n + 1) % 12) = slice f g ((n + 1) % 12) :=
        fun f g => by rw [h0]; exact partialSum_zero f g
      rw [e2]
      exact e.symm
    · have hn' : n < 384 := by omega
      have ek : (n + 1) % 12 = n % 12 + 1 := by omega
      have ihn := ih hn' (by omega) p q
      by_cases h1 : (n + 1) % 12 < 4
      · rw [hin (n + 1) hn h0 h1 p q]
        have e := slice_in_tile w x (recTerm u h (tileRow (n + 1) hn p) (tileCol (n + 1) hn q)) (tileRow (n + 1) hn p) (tileCol (n + 1) hn q) (n + 1) h1
        rw [← e, ek, partialSum_succ]
        rw [tileRow_pred n hn h0 p, tileCol_pred n hn h0 q]
        exact congrArg (· + _) ihn
      · have h3 : ¬(n + 1) % 12 = 11 := by omega
        rw [hrec (n + 1) hn h1 h3 p q]
        have e := slice_rec_tile (inTerm w x (tileRow (n + 1) hn p) (tileCol (n + 1) hn q)) u h (tileRow (n + 1) hn p) (tileCol (n + 1) hn q) (n + 1) h1
        rw [← e, ek, partialSum_succ]
        rw [tileRow_pred n hn h0 p, tileCol_pred n hn h0 q]
        exact congrArg (· + _) ihn

include hfirst hin hrec in
/-- At a point with n mod 12 = 11, what the point before left plus the last recurrent slice is the two whole sums. -/
theorem total_sum (n : ℕ) (hn : n < 384) (h3 : n % 12 = 11) (p : Fin 512) (q : Fin 1024) :
    a (n - 1) (by omega) (ix2 p q)
        + ∑ kk : Fin 512, u (ix2 (tileRow n hn p) (recK n (by omega) kk)) * h (ix2 (recK n (by omega) kk) (tileCol n hn q))
      = (∑ k : Fin 2048, inTerm w x (tileRow n hn p) (tileCol n hn q) k) + ∑ k : Fin 4096, recTerm u h (tileRow n hn p) (tileCol n hn q) k := by
  obtain ⟨n, rfl⟩ : ∃ n', n = n' + 1 := ⟨n - 1, by omega⟩
  have h0 : ¬(n + 1) % 12 = 0 := by omega
  have hn' : n < 384 := by omega
  have ihn := acc_sum a w x u h hfirst hin hrec n hn' (by omega) p q
  have e := slice_rec_tile (inTerm w x (tileRow (n + 1) hn p) (tileCol (n + 1) hn q)) u h (tileRow (n + 1) hn p) (tileCol (n + 1) hn q) (n + 1) (by omega)
  rw [← partialSum_eleven, ← e, h3, show (11 : ℕ) = 10 + 1 from rfl, partialSum_succ]
  rw [tileRow_pred n hn h0 p, tileCol_pred n hn h0 q]
  have e10 : n % 12 = 10 := by omega
  rw [e10] at ihn
  exact congrArg (· + _) ihn

end

end Cert.Cell

end
-- ==== Proof.Ideal.Sums.lean ====
/-
  The four gate accumulators, read. After grid point n (n mod 12 <= 10) accumulator j holds, at entry (p, q) of its
  tile, the running total up to slice n mod 12 of that gate's two products at row 512 (n / 48) + p and column
  1024 (n / 12 mod 4) + q of the whole arrays: the kernel's three steps are the abstract accumulation's three
  hypotheses, each read off the case's stores (a payload of the point's blocks), the payload at an entry, and
  where each block sits in its argument array. At n mod 12 = 11 the last slice completes the two sums, the bias is
  added and the gate's function applied, and the two result tiles are the cell's new state and new output there.
-/
import proofs.«125515_j24756191494330_2_alg».proof.Proof.Ideal.Pieces
import proofs.«125515_j24756191494330_2_alg».proof.Proof.Ideal.Tile
import proofs.«125515_j24756191494330_2_alg».proof.Proof.Ideal.Blocks
import proofs.«125515_j24756191494330_2_alg».proof.Proof.SliceInduction

set_option maxRecDepth 16384

noncomputable section

open scoped BigOperators

namespace Cert.KernelIdeal.CellValue

open Idealize.ShloMosaic Idealize.ShloMosaic.TcCoe Idealize.ShloMosaic.ValueIdx Idealize.SL.Sem
open Cert.KernelIdeal Cert.KernelIdeal.Gen Cert.Cell

variable (m : (ℓ : Loc nD τ sig) → Buf (Elt Ideal) ℓ) (c : Dev nD)

theorem lt_N {n : ℕ} (hn : n < 384) : n < cfg0.N := lt_of_lt_of_eq hn N_0.symm

/-! ## The argument arrays, typed -/

/-- The input array, as a function of its two coordinates into the extended reals. -/
abbrev arr0 : Mx.Idx → EReal := m ((c : Thread nD τ).loc main_arg0)
/-- The previous output, as a function of its two coordinates into the extended reals. -/
abbrev arr1 : Mh.Idx → EReal := m ((c : Thread nD τ).loc main_arg1)
/-- The forget gate's input weights, as a function of its two coordinates into the extended reals. -/
abbrev arr3 : Mw.Idx → EReal := m ((c : Thread nD τ).loc main_arg3)
/-- The forget gate's recurrent weights, as a function of its two coordinates into the extended reals. -/
abbrev arr4 : Mh.Idx → EReal := m ((c : Thread nD τ).loc main_arg4)
/-- The input gate's input weights, as a function of its two coordinates into the extended reals. -/
abbrev arr6 : Mw.Idx → EReal := m ((c : Thread nD τ).loc main_arg6)
/-- The input gate's recurrent weights, as a function of its two coordinates into the extended reals. -/
abbrev arr7 : Mh.Idx → EReal := m ((c : Thread nD τ).loc main_arg7)
/-- The candidate's input weights, as a function of its two coordinates into the extended reals. -/
abbrev arr9 : Mw.Idx → EReal := m ((c : Thread nD τ).loc main_arg9)
/-- The candidate's recurrent weights, as a function of its two coordinates into the extended reals. -/
abbrev arr10 : Mh.Idx → EReal := m ((c : Thread nD τ).loc main_arg10)
/-- The output gate's input weights, as a function of its two coordinates into the extended reals. -/
abbrev arr12 : Mw.Idx → EReal := m ((c : Thread nD τ).loc main_arg12)
/-- The output gate's recurrent weights, as a function of its two coordinates into the extended reals. -/
abbrev arr13 : Mh.Idx → EReal := m ((c : Thread nD τ).loc main_arg13)

/-! ## The forget gate's accumulator -/

/-- What accumulator 0 holds after point n. -/
def acc0 (n : ℕ) (hn : n < 384) : Tile.Idx → EReal := (heldAt m c n (lt_N hn)).a0

theorem first0 (n : ℕ) (hn : n < 384) (hk : n % 12 = 0) (p : Fin 512) (q : Fin 1024) :
    acc0 m c n hn (ix2 p q) = 0 + ∑ kk : Fin 512, arr3 m c (ix2 (tileRow n hn p) (inK n (by omega) kk)) * arr0 m c (ix2 (inK n (by omega) kk) (tileCol n hn q)) := by
  unfold acc0
  rw [show heldAt m c n (lt_N hn) = heldFirst m c ⟨n, lt_N hn⟩ hk from heldAt_first m c ⟨n, lt_N hn⟩ hk]
  rw [first_a0]
  refine (Tile.pay11_at _ _ _ p q).trans ?_
  rw [Tile.pay1_at]
  refine congrArg (0 + ·) (Finset.sum_congr rfl fun kk _ => ?_)
  rw [Blocks.blk3 m c ⟨n, lt_N hn⟩ hn (show n % 12 < 4 by omega) p kk, Blocks.blk0 m c ⟨n, lt_N hn⟩ hn (show n % 12 < 4 by omega) kk q]

theorem input0 (n : ℕ) (hn : n < 384) (h0 : ¬n % 12 = 0) (hk : n % 12 < 4) (p : Fin 512) (q : Fin 1024) :
    acc0 m c n hn (ix2 p q) = acc0 m c (n - 1) (by omega) (ix2 p q)
      + ∑ kk : Fin 512, arr3 m c (ix2 (tileRow n hn p) (inK n hk kk)) * arr0 m c (ix2 (inK n hk kk) (tileCol n hn q)) := by
  unfold acc0
  rw [show heldAt m c n (lt_N hn) = heldInput m c ⟨n, lt_N hn⟩ h0 hk (heldAt m c (n - 1) _) from heldAt_input m c ⟨n, lt_N hn⟩ h0 hk]
  rw [input_a0]
  refine (Tile.pay11_at _ _ _ p q).trans ?_
  refine congrArg₂ (· + ·) rfl (Finset.sum_congr rfl fun kk _ => ?_)
  rw [Blocks.blk3 m c ⟨n, lt_N hn⟩ hn hk p kk, Blocks.blk0 m c ⟨n, lt_N hn⟩ hn hk kk q]

theorem hidden0 (n : ℕ) (hn : n < 384) (hk : ¬n % 12 < 4) (h3 : ¬n % 12 = 11) (p : Fin 512) (q : Fin 1024) :
    acc0 m c n hn (ix2 p q) = acc0 m c (n - 1) (by omega) (ix2 p q)
      + ∑ kk : Fin 512, arr4 m c (ix2 (tileRow n hn p) (recK n hk kk)) * arr1 m c (ix2 (recK n hk kk) (tileCol n hn q)) := by
  unfold acc0
  rw [show heldAt m c n (lt_N hn) = heldHidden m c ⟨n, lt_N hn⟩ hk h3 (heldAt m c (n - 1) _) from heldAt_hidden m c ⟨n, lt_N hn⟩ hk h3]
  rw [hidden_a0]
  refine (Tile.pay16_at _ _ _ p q).trans ?_
  refine congrArg₂ (· + ·) rfl (Finset.sum_congr rfl fun kk _ => ?_)
  rw [Blocks.blk4 m c ⟨n, lt_N hn⟩ hn hk p kk, Blocks.blk1 m c ⟨n, lt_N hn⟩ hn hk kk q]

/-- At a point with n mod 12 = 11 the total after the last slice, plus the bias, is the gate's pre-activation. -/
theorem total0 (t : Fin cfg0.N) (hN : t.val < 384) (h3 : t.val % 12 = 11) (p : Fin 512) (q : Fin 1024) :
    lastT0 m c t (heldAt m c (t.val - 1) (Nat.lt_of_le_of_lt (Nat.sub_le _ _) t.isLt)) (ix2 p q) + iblk m c 5 t (ix2 p (0 : Fin 1))
      = pre (m ((c : Thread nD τ).loc main_arg3)) (m ((c : Thread nD τ).loc main_arg4)) (m ((c : Thread nD τ).loc main_arg5)) (m ((c : Thread nD τ).loc main_arg0)) (m ((c : Thread nD τ).loc main_arg1)) (tileRow t.val hN p) (tileCol t.val hN q) := by
  have hk : ¬t.val % 12 < 4 := by omega
  unfold lastT0
  rw [Blocks.blk5 m c t hN p]
  refine congrArg (· + _) ?_
  refine (Tile.pay16_at _ _ _ p q).trans ?_
  refine Eq.trans ?_ (total_sum (acc0 m c) (m ((c : Thread nD τ).loc main_arg3)) (m ((c : Thread nD τ).loc main_arg0)) (m ((c : Thread nD τ).loc main_arg4)) (m ((c : Thread nD τ).loc main_arg1)) (first0 m c) (input0 m c) (hidden0 m c) t.val hN h3 p q)
  refine congrArg₂ (· + ·) rfl (Finset.sum_congr rfl fun kk _ => ?_)
  rw [Blocks.blk4 m c t hN hk p kk, Blocks.blk1 m c t hN hk kk q]

/-! ## The input gate's accumulator -/

/-- What accumulator 1 holds after point n. -/
def acc1 (n : ℕ) (hn : n < 384) : Tile.Idx → EReal := (heldAt m c n (lt_N hn)).a1

theorem first1 (n : ℕ) (hn : n < 384) (hk : n % 12 = 0) (p : Fin 512) (q : Fin 1024) :
    acc1 m c n hn (ix2 p q) = 0 + ∑ kk : Fin 512, arr6 m c (ix2 (tileRow n hn p) (inK n (by omega) kk)) * arr0 m c (ix2 (inK n (by omega) kk) (tileCol n hn q)) := by
  unfold acc1
  rw [show heldAt m c n (lt_N hn) = heldFirst m c ⟨n, lt_N hn⟩ hk from heldAt_first m c ⟨n, lt_N hn⟩ hk]
  rw [first_a1]
  refine (Tile.pay12_at _ _ _ p q).trans ?_
  rw [Tile.pay2_at]
  refine congrArg (0 + ·) (Finset.sum_congr rfl fun kk _ => ?_)
  rw [Blocks.blk6 m c ⟨n, lt_N hn⟩ hn (show n % 12 < 4 by omega) p kk, Blocks.blk0 m c ⟨n, lt_N hn⟩ hn (show n % 12 < 4 by omega) kk q]

theorem input1 (n : ℕ) (hn : n < 384) (h0 : ¬n % 12 = 0) (hk : n % 12 < 4) (p : Fin 512) (q : Fin 1024) :
    acc1 m c n hn (ix2 p q) = acc1 m c (n - 1) (by omega) (ix2 p q)
      + ∑ kk : Fin 512, arr6 m c (ix2 (tileRow n hn p) (inK n hk kk)) * arr0 m c (ix2 (inK n hk kk) (tileCol n hn q)) := by
  unfold acc1
  rw [show heldAt m c n (lt_N hn) = heldInput m c ⟨n, lt_N hn⟩ h0 hk (heldAt m c (n - 1) _) from heldAt_input m c ⟨n, lt_N hn⟩ h0 hk]
  rw [input_a1]
  refine (Tile.pay12_at _ _ _ p q).trans ?_
  refine congrArg₂ (· + ·) rfl (Finset.sum_congr rfl fun kk _ => ?_)
  rw [Blocks.blk6 m c ⟨n, lt_N hn⟩ hn hk p kk, Blocks.blk0 m c ⟨n, lt_N hn⟩ hn hk kk q]

theorem hidden1 (n : ℕ) (hn : n < 384) (hk : ¬n % 12 < 4) (h3 : ¬n % 12 = 11) (p : Fin 512) (q : Fin 1024) :
    acc1 m c n hn (ix2 p q) = acc1 m c (n - 1) (by omega) (ix2 p q)
      + ∑ kk : Fin 512, arr7 m c (ix2 (tileRow n hn p) (recK n hk kk)) * arr1 m c (ix2 (recK n hk kk) (tileCol n hn q)) := by
  unfold acc1
  rw [show heldAt m c n (lt_N hn) = heldHidden m c ⟨n, lt_N hn⟩ hk h3 (heldAt m c (n - 1) _) from heldAt_hidden m c ⟨n, lt_N hn⟩ hk h3]
  rw [hidden_a1]
  refine (Tile.pay17_at _ _ _ p q).trans ?_
  refine congrArg₂ (· + ·) rfl (Finset.sum_congr rfl fun kk _ => ?_)
  rw [Blocks.blk7 m c ⟨n, lt_N hn⟩ hn hk p kk, Blocks.blk1 m c ⟨n, lt_N hn⟩ hn hk kk q]

/-- At a point with n mod 12 = 11 the total after the last slice, plus the bias, is the gate's pre-activation. -/
theorem total1 (t : Fin cfg0.N) (hN : t.val < 384) (h3 : t.val % 12 = 11) (p : Fin 512) (q : Fin 1024) :
    lastT1 m c t (heldAt m c (t.val - 1) (Nat.lt_of_le_of_lt (Nat.sub_le _ _) t.isLt)) (ix2 p q) + iblk m c 8 t (ix2 p (0 : Fin 1))
      = pre (m ((c : Thread nD τ).loc main_arg6)) (m ((c : Thread nD τ).loc main_arg7)) (m ((c : Thread nD τ).loc main_arg8)) (m ((c : Thread nD τ).loc main_arg0)) (m ((c : Thread nD τ).loc main_arg1)) (tileRow t.val hN p) (tileCol t.val hN q) := by
  have hk : ¬t.val % 12 < 4 := by omega
  unfold lastT1
  rw [Blocks.blk8 m c t hN p]
  refine congrArg (· + _) ?_
  refine (Tile.pay17_at _ _ _ p q).trans ?_
  refine Eq.trans ?_ (total_sum (acc1 m c) (m ((c : Thread nD τ).loc main_arg6)) (m ((c : Thread nD τ).loc main_arg0)) (m ((c : Thread nD τ).loc main_arg7)) (m ((c : Thread nD τ).loc main_arg1)) (first1 m c) (input1 m c) (hidden1 m c) t.val hN h3 p q)
  refine congrArg₂ (· + ·) rfl (Finset.sum_congr rfl fun kk _ => ?_)
  rw [Blocks.blk7 m c t hN hk p kk, Blocks.blk1 m c t hN hk kk q]

/-! ## The candidate gate's accumulator -/

/-- What accumulator 2 holds after point n. -/
def acc2 (n : ℕ) (hn : n < 384) : Tile.Idx → EReal := (heldAt m c n (lt_N hn)).a2

theorem first2 (n : ℕ) (hn : n < 384) (hk : n % 12 = 0) (p : Fin 512) (q : Fin 1024) :
    acc2 m c n hn (ix2 p q) = 0 + ∑ kk : Fin 512, arr9 m c (ix2 (tileRow n hn p) (inK n (by omega) kk)) * arr0 m c (ix2 (inK n (by omega) kk) (tileCol n hn q)) := by
  unfold acc2
  rw [show heldAt m c n (lt_N hn) = heldFirst m c ⟨n, lt_N hn⟩ hk from heldAt_first m c ⟨n, lt_N hn⟩ hk]
  rw [first_a2]
  refine (Tile.pay13_at _ _ _ p q).trans ?_
  rw [Tile.pay3_at]
  refine congrArg (0 + ·) (Finset.sum_congr rfl fun kk _ => ?_)
  rw [Blocks.blk9 m c ⟨n, lt_N hn⟩ hn (show n % 12 < 4 by omega) p kk, Blocks.blk0 m c ⟨n, lt_N hn⟩ hn (show n % 12 < 4 by omega) kk q]

theorem input2 (n : ℕ) (hn : n < 384) (h0 : ¬n % 12 = 0) (hk : n % 12 < 4) (p : Fin 512) (q : Fin 1024) :
    acc2 m c n hn (ix2 p q) = acc2 m c (n - 1) (by omega) (ix2 p q)
      + ∑ kk : Fin 512, arr9 m c (ix2 (tileRow n hn p) (inK n hk kk)) * arr0 m c (ix2 (inK n hk kk) (tileCol n hn q)) := by
  unfold acc2
  rw [show heldAt m c n (lt_N hn) = heldInput m c ⟨n, lt_N hn⟩ h0 hk (heldAt m c (n - 1) _) from heldAt_input m c ⟨n, lt_N hn⟩ h0 hk]
  rw [input_a2]
  refine (Tile.pay13_at _ _ _ p q).trans ?_
  refine congrArg₂ (· + ·) rfl (Finset.sum_congr rfl fun kk _ => ?_)
  rw [Blocks.blk9 m c ⟨n, lt_N hn⟩ hn hk p kk, Blocks.blk0 m c ⟨n, lt_N hn⟩ hn hk kk q]

theorem hidden2 (n : ℕ) (hn : n < 384) (hk : ¬n % 12 < 4) (h3 : ¬n % 12 = 11) (p : Fin 512) (q : Fin 1024) :
    acc2 m c n hn (ix2 p q) = acc2 m c (n - 1) (by omega) (ix2 p q)
      + ∑ kk : Fin 512, arr10 m c (ix2 (tileRow n hn p) (recK n hk kk)) * arr1 m c (ix2 (recK n hk kk) (tileCol n hn q)) := by
  unfold acc2
  rw [show heldAt m c n (lt_N hn) = heldHidden m c ⟨n, lt_N hn⟩ hk h3 (heldAt m c (n - 1) _) from heldAt_hidden m c ⟨n, lt_N hn⟩ hk h3]
  rw [hidden_a2]
  refine (Tile.pay18_at _ _ _ p q).trans ?_
  refine congrArg₂ (· + ·) rfl (Finset.sum_congr rfl fun kk _ => ?_)
  rw [Blocks.blk10 m c ⟨n, lt_N hn⟩ hn hk p kk, Blocks.blk1 m c ⟨n, lt_N hn⟩ hn hk kk q]

/-- At a point with n mod 12 = 11 the total after the last slice, plus the bias, is the gate's pre-activation. -/
theorem total2 (t : Fin cfg0.N) (hN : t.val < 384) (h3 : t.val % 12 = 11) (p : Fin 512) (q : Fin 1024) :
    lastT2 m c t (heldAt m c (t.val - 1) (Nat.lt_of_le_of_lt (Nat.sub_le _ _) t.isLt)) (ix2 p q) + iblk m c 11 t (ix2 p (0 : Fin 1))
      = pre (m ((c : Thread nD τ).loc main_arg9)) (m ((c : Thread nD τ).loc main_arg10)) (m ((c : Thread nD τ).loc main_arg11)) (m ((c : Thread nD τ).loc main_arg0)) (m ((c : Thread nD τ).loc main_arg1)) (tileRow t.val hN p) (tileCol t.val hN q) := by
  have hk : ¬t.val % 12 < 4 := by omega
  unfold lastT2
  rw [Blocks.blk11 m c t hN p]
  refine congrArg (· + _) ?_
  refine (Tile.pay18_at _ _ _ p q).trans ?_
  refine Eq.trans ?_ (total_sum (acc2 m c) (m ((c : Thread nD τ).loc main_arg9)) (m ((c : Thread nD τ).loc main_arg0)) (m ((c : Thread nD τ).loc main_arg10)) (m ((c : Thread nD τ).loc main_arg1)) (first2 m c) (input2 m c) (hidden2 m c) t.val hN h3 p q)
  refine congrArg₂ (· + ·) rfl (Finset.sum_congr rfl fun kk _ => ?_)
  rw [Blocks.blk10 m c t hN hk p kk, Blocks.blk1 m c t hN hk kk q]

/-! ## The output gate's accumulator -/

/-- What accumulator 3 holds after point n. -/
def acc3 (n : ℕ) (hn : n < 384) : Tile.Idx → EReal := (heldAt m c n (lt_N hn)).a3

theorem first3 (n : ℕ) (hn : n < 384) (hk : n % 12 = 0) (p : Fin 512) (q : Fin 1024) :
    acc3 m c n hn (ix2 p q) = 0 + ∑ kk : Fin 512, arr12 m c (ix2 (tileRow n hn p) (inK n (by omega) kk)) * arr0 m c (ix2 (inK n (by omega) kk) (tileCol n hn q)) := by
  unfold acc3
  rw [show heldAt m c n (lt_N hn) = heldFirst m c ⟨n, lt_N hn⟩ hk from heldAt_first m c ⟨n, lt_N hn⟩ hk]
  rw [first_a3]
  refine (Tile.pay5_at _ _ _ p q).trans ?_
  rw [Tile.pay4_at]
  refine congrArg (0 + ·) (Finset.sum_congr rfl fun kk _ => ?_)
  rw [Blocks.blk12 m c ⟨n, lt_N hn⟩ hn (show n % 12 < 4 by omega) p kk, Blocks.blk0 m c ⟨n, lt_N hn⟩ hn (show n % 12 < 4 by omega) kk q]

theorem input3 (n : ℕ) (hn : n < 384) (h0 : ¬n % 12 = 0) (hk : n % 12 < 4) (p : Fin 512) (q : Fin 1024) :
    acc3 m c n hn (ix2 p q) = acc3 m c (n - 1) (by omega) (ix2 p q)
      + ∑ kk : Fin 512, arr12 m c (ix2 (tileRow n hn p) (inK n hk kk)) * arr0 m c (ix2 (inK n hk kk) (tileCol n hn q)) := by
  unfold acc3
  rw [show heldAt m c n (lt_N hn) = heldInput m c ⟨n, lt_N hn⟩ h0 hk (heldAt m c (n - 1) _) from heldAt_input m c ⟨n, lt_N hn⟩ h0 hk]
  rw [input_a3]
  refine (Tile.pay5_at _ _ _ p q).trans ?_
  refine congrArg₂ (· + ·) rfl (Finset.sum_congr rfl fun kk _ => ?_)
  rw [Blocks.blk12 m c ⟨n, lt_N hn⟩ hn hk p kk, Blocks.blk0 m c ⟨n, lt_N hn⟩ hn hk kk q]

theorem hidden3 (n : ℕ) (hn : n < 384) (hk : ¬n % 12 < 4) (h3 : ¬n % 12 = 11) (p : Fin 512) (q : Fin 1024) :
    acc3 m c n hn (ix2 p q) = acc3 m c (n - 1) (by omega) (ix2 p q)
      + ∑ kk : Fin 512, arr13 m c (ix2 (tileRow n hn p) (recK n hk kk)) * arr1 m c (ix2 (recK n hk kk) (tileCol n hn q)) := by
  unfold acc3
  rw [show heldAt m c n (lt_N hn) = heldHidden m c ⟨n, lt_N hn⟩ hk h3 (heldAt m c (n - 1) _) from heldAt_hidden m c ⟨n, lt_N hn⟩ hk h3]
  rw [hidden_a3]
  refine (Tile.pay6_at _ _ _ p q).trans ?_
  refine congrArg₂ (· + ·) rfl (Finset.sum_congr rfl fun kk _ => ?_)
  rw [Blocks.blk13 m c ⟨n, lt_N hn⟩ hn hk p kk, Blocks.blk1 m c ⟨n, lt_N hn⟩ hn hk kk q]

/-- At a point with n mod 12 = 11 the total after the last slice, plus the bias, is the gate's pre-activation. -/
theorem total3 (t : Fin cfg0.N) (hN : t.val < 384) (h3 : t.val % 12 = 11) (p : Fin 512) (q : Fin 1024) :
    lastT3 m c t (heldAt m c (t.val - 1) (Nat.lt_of_le_of_lt (Nat.sub_le _ _) t.isLt)) (ix2 p q) + iblk m c 14 t (ix2 p (0 : Fin 1))
      = pre (m ((c : Thread nD τ).loc main_arg12)) (m ((c : Thread nD τ).loc main_arg13)) (m ((c : Thread nD τ).loc main_arg14)) (m ((c : Thread nD τ).loc main_arg0)) (m ((c : Thread nD τ).loc main_arg1)) (tileRow t.val hN p) (tileCol t.val hN q) := by
  have hk : ¬t.val % 12 < 4 := by omega
  unfold lastT3
  rw [Blocks.blk14 m c t hN p]
  refine congrArg (· + _) ?_
  refine (Tile.pay6_at _ _ _ p q).trans ?_
  refine Eq.trans ?_ (total_sum (acc3 m c) (m ((c : Thread nD τ).loc main_arg12)) (m ((c : Thread nD τ).loc main_arg0)) (m ((c : Thread nD τ).loc main_arg13)) (m ((c : Thread nD τ).loc main_arg1)) (first3 m c) (input3 m c) (hidden3 m c) t.val hN h3 p q)
  refine congrArg₂ (· + ·) rfl (Finset.sum_congr rfl fun kk _ => ?_)
  rw [Blocks.blk13 m c t hN hk p kk, Blocks.blk1 m c t hN hk kk q]

/-! ## The two result tiles at a point with n mod 12 = 11 -/

theorem gate0 (t : Fin cfg0.N) (hN : t.val < 384) (h3 : t.val % 12 = 11) (p : Fin 512) (q : Fin 1024) :
    lastG0 m c t (heldAt m c (t.val - 1) (Nat.lt_of_le_of_lt (Nat.sub_le _ _) t.isLt)) (ix2 p q)
      = Ideal.logistic (pre (m ((c : Thread nD τ).loc main_arg3)) (m ((c : Thread nD τ).loc main_arg4)) (m ((c : Thread nD τ).loc main_arg5)) (m ((c : Thread nD τ).loc main_arg0)) (m ((c : Thread nD τ).loc main_arg1)) (tileRow t.val hN p) (tileCol t.val hN q)) := by
  unfold lastG0
  rw [Tile.pay20_at, total0 m c t hN h3 p q]

theorem gate1 (t : Fin cfg0.N) (hN : t.val < 384) (h3 : t.val % 12 = 11) (p : Fin 512) (q : Fin 1024) :
    lastG1 m c t (heldAt m c (t.val - 1) (Nat.lt_of_le_of_lt (Nat.sub_le _ _) t.isLt)) (ix2 p q)
      = Ideal.logistic (pre (m ((c : Thread nD τ).loc main_arg6)) (m ((c : Thread nD τ).loc main_arg7)) (m ((c : Thread nD τ).loc main_arg8)) (m ((c : Thread nD τ).loc main_arg0)) (m ((c : Thread nD τ).loc main_arg1)) (tileRow t.val hN p) (tileCol t.val hN q)) := by
  unfold lastG1
  rw [Tile.pay21_at, total1 m c t hN h3 p q]

theorem gate2 (t : Fin cfg0.N) (hN : t.val < 384) (h3 : t.val % 12 = 11) (p : Fin 512) (q : Fin 1024) :
    lastG2 m c t (heldAt m c (t.val - 1) (Nat.lt_of_le_of_lt (Nat.sub_le _ _) t.isLt)) (ix2 p q)
      = Ideal.tanh (pre (m ((c : Thread nD τ).loc main_arg9)) (m ((c : Thread nD τ).loc main_arg10)) (m ((c : Thread nD τ).loc main_arg11)) (m ((c : Thread nD τ).loc main_arg0)) (m ((c : Thread nD τ).loc main_arg1)) (tileRow t.val hN p) (tileCol t.val hN q)) := by
  unfold lastG2
  rw [Tile.pay22_at, total2 m c t hN h3 p q]

theorem gate3 (t : Fin cfg0.N) (hN : t.val < 384) (h3 : t.val % 12 = 11) (p : Fin 512) (q : Fin 1024) :
    lastG3 m c t (heldAt m c (t.val - 1) (Nat.lt_of_le_of_lt (Nat.sub_le _ _) t.isLt)) (ix2 p q)
      = Ideal.logistic (pre (m ((c : Thread nD τ).loc main_arg12)) (m ((c : Thread nD τ).loc main_arg13)) (m ((c : Thread nD τ).loc main_arg14)) (m ((c : Thread nD τ).loc main_arg0)) (m ((c : Thread nD τ).loc main_arg1)) (tileRow t.val hN p) (tileCol t.val hN q)) := by
  unfold lastG3
  rw [Tile.pay7_at, total3 m c t hN h3 p q]

/-- The new state's tile. -/
theorem state_tile (t : Fin cfg0.N) (hN : t.val < 384) (h3 : t.val % 12 = 11) (p : Fin 512) (q : Fin 1024) :
    (heldAt m c t.val t.isLt).o15 (ix2 p q)
      = newState (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (tileRow t.val hN p) (tileCol t.val hN q) := by
  rw [heldAt_last m c t h3, last_o15]
  refine (Tile.pay8_at _ _ _ _ p q).trans ?_
  rw [gate0 m c t hN h3 p q, gate1 m c t hN h3 p q, gate2 m c t hN h3 p q, Blocks.blk2 m c t hN p q]
  rfl

/-- The new output's tile. -/
theorem out_tile (t : Fin cfg0.N) (hN : t.val < 384) (h3 : t.val % 12 = 11) (p : Fin 512) (q : Fin 1024) :
    (heldAt m c t.val t.isLt).o16 (ix2 p q)
      = newOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (tileRow t.val hN p) (tileCol t.val hN q) := by
  rw [heldAt_last m c t h3, last_o16]
  refine (Tile.pay9_at _ _ _ _ _ p q).trans ?_
  rw [gate0 m c t hN h3 p q, gate1 m c t hN h3 p q, gate2 m c t hN h3 p q, gate3 m c t hN h3 p q, Blocks.blk2 m c t hN p q]
  rfl

end Cert.KernelIdeal.CellValue

end
-- ==== Proof.Ideal.Body.lean ====
/-
  The body obligation and the run. At any grid point the pipeline hands the body every window's current staging
  buffer and the invariant; which of the four cases applies is read off t mod 12, the inputs' buffers hold their blocks,
  the accumulators hold what the point before left (anything at the very first point), so that case's triple applies, and
  what it leaves is what the recursion says is held after the point. Launching the body over the whole grid then gives
  the frame: every execution of the program terminates without a fault and the argument arrays end as they began.
-/
import proofs.«125515_j24756191494330_2_alg».proof.Proof.Ideal.Data

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t)

set_option maxHeartbeats 8000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).owesAt () t.succ = (dats m 0 c).owesAt () t.castSucc from rfl]
  rw [show (dats m 0 c).Φ t.succ = PhiS m c (t.val + 1) t.isLt from rfl, PhiS_succ]
  have hN : t.val < 384 := lt_of_lt_of_eq t.isLt (show cfg0.N = 384 from N_0)
  by_cases h : t.val % 12 = 0
  · -- k = 0
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    rw [show (dats m 0 c).leavesExact 9 t = owns (c : Thread nD τ) (ms0_9 t) fullShare ((dats m 0 c).after 9 t) from by
      unfold Dat.leavesExact; rw [liveAt0_9 t], after0_9]
    rw [show (dats m 0 c).leavesExact 10 t = owns (c : Thread nD τ) (ms0_10 t) fullShare ((dats m 0 c).after 10 t) from by
      unfold Dat.leavesExact; rw [liveAt0_10 t], after0_10]
    rw [show (dats m 0 c).leavesExact 11 t = owns (c : Thread nD τ) (ms0_11 t) fullShare ((dats m 0 c).after 11 t) from by
      unfold Dat.leavesExact; rw [liveAt0_11 t], after0_11]
    rw [show (dats m 0 c).leavesExact 12 t = owns (c : Thread nD τ) (ms0_12 t) fullShare ((dats m 0 c).after 12 t) from by
      unfold Dat.leavesExact; rw [liveAt0_12 t], after0_12]
    rw [show (dats m 0 c).leavesExact 13 t = owns (c : Thread nD τ) (ms0_13 t) fullShare ((dats m 0 c).after 13 t) from by
      unfold Dat.leavesExact; rw [liveAt0_13 t], after0_13]
    rw [show (dats m 0 c).leavesExact 14 t = owns (c : Thread nD τ) (ms0_14 t) fullShare ((dats m 0 c).after 14 t) from by
      unfold Dat.leavesExact; rw [liveAt0_14 t], after0_14]
    have hn3 : ¬cond0_3 (grid0.coords t) := fun hh => absurd ((hcond0_3 t).mp hh) (by omega)
    rw [Dat.leavesExact_idle (dats m 0 c) 15 t (idleAt0_15 t hn3) (noFlush0_15 t hn3)]
    rw [Dat.leavesExact_idle (dats m 0 c) 16 t (idleAt0_16 t hn3) (noFlush0_16 t hn3)]
    rw [heldAt_first m c t h]
    unfold heldFirst; (try dsimp only)
    by_cases hz : t.val = 0
    · rw [PhiS_castSucc m c t, PhiS_zero m c _ _ hz, PhiA0_eq]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply ((atFirst m c t h).2.2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [HS0]; · iexact HS0
      isplitl [HS1]; · iexact HS1
      isplitl [HS2]; · iexact HS2
      isplitl [HS3]; · iexact HS3
      iintro ⟨H0, H1, H2, H3, H4, H5, H6, H7, H8, H9, H10, H11, H12, H13, H14, H15, H16, ⟨%es0, HS0⟩, ⟨%es1, HS1⟩, ⟨%es2, HS2⟩, ⟨%es3, HS3⟩⟩
      isplitl [HS0 HS1 HS2 HS3 Hg]
      · isplitr [Hg]
        swap; · iexact Hg
        isplitl [HS0]
        · unfold owns; iexists _; isplitr
          swap; · iexact HS0
          ipureintro; exact View.read_writes_eq_canon _ _ _ (coverFirst_LS0 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_eq_canon _ _ _ (coverFirst_LS1 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [HS2]
        · unfold owns; iexists _; isplitr
          swap; · iexact HS2
          ipureintro; exact View.read_writes_eq_canon _ _ _ (coverFirst_LS2 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact HS3
        ipureintro; exact View.read_writes_eq_canon _ _ _ (coverFirst_LS3 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      iexists _; iexact H16
    · rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply ((atFirst m c t h).2.2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [HS0]; · iexists _; iexact HS0
      isplitl [HS1]; · iexists _; iexact HS1
      isplitl [HS2]; · iexists _; iexact HS2
      isplitl [HS3]; · iexists _; iexact HS3
      iintro ⟨H0, H1, H2, H3, H4, H5, H6, H7, H8, H9, H10, H11, H12, H13, H14, H15, H16, ⟨%es0, HS0⟩, ⟨%es1, HS1⟩, ⟨%es2, HS2⟩, ⟨%es3, HS3⟩⟩
      isplitl [HS0 HS1 HS2 HS3 Hg]
      · isplitr [Hg]
        swap; · iexact Hg
        isplitl [HS0]
        · unfold owns; iexists _; isplitr
          swap; · iexact HS0
          ipureintro; exact View.read_writes_eq_canon _ _ _ (coverFirst_LS0 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_eq_canon _ _ _ (coverFirst_LS1 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [HS2]
        · unfold owns; iexists _; isplitr
          swap; · iexact HS2
          ipureintro; exact View.read_writes_eq_canon _ _ _ (coverFirst_LS2 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact HS3
        ipureintro; exact View.read_writes_eq_canon _ _ _ (coverFirst_LS3 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      iexists _; iexact H16
  · have h0 : ¬t.val % 12 = 0 := h
    have hz : t.val ≠ 0 := fun hz => h (by rw [hz])
    by_cases h1 : t.val % 12 < 4
    · -- 1 <= k <= 3
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [show (dats m 0 c).leavesExact 8 t = owns (c : Thread nD τ) (ms0_8 t) fullShare ((dats m 0 c).after 8 t) from by
        unfold Dat.leavesExact; rw [liveAt0_8 t], after0_8]
      rw [show (dats m 0 c).leavesExact 9 t = owns (c : Thread nD τ) (ms0_9 t) fullShare ((dats m 0 c).after 9 t) from by
        unfold Dat.leavesExact; rw [liveAt0_9 t], after0_9]
      rw [show (dats m 0 c).leavesExact 10 t = owns (c : Thread nD τ) (ms0_10 t) fullShare ((dats m 0 c).after 10 t) from by
        unfold Dat.leavesExact; rw [liveAt0_10 t], after0_10]
      rw [show (dats m 0 c).leavesExact 11 t = owns (c : Thread nD τ) (ms0_11 t) fullShare ((dats m 0 c).after 11 t) from by
        unfold Dat.leavesExact; rw [liveAt0_11 t], after0_11]
      rw [show (dats m 0 c).leavesExact 12 t = owns (c : Thread nD τ) (ms0_12 t) fullShare ((dats m 0 c).after 12 t) from by
        unfold Dat.leavesExact; rw [liveAt0_12 t], after0_12]
      rw [show (dats m 0 c).leavesExact 13 t = owns (c : Thread nD τ) (ms0_13 t) fullShare ((dats m 0 c).after 13 t) from by
        unfold Dat.leavesExact; rw [liveAt0_13 t], after0_13]
      rw [show (dats m 0 c).leavesExact 14 t = owns (c : Thread nD τ) (ms0_14 t) fullShare ((dats m 0 c).after 14 t) from by
        unfold Dat.leavesExact; rw [liveAt0_14 t], after0_14]
      have hn3 : ¬cond0_3 (grid0.coords t) := fun hh => absurd ((hcond0_3 t).mp hh) (by omega)
      rw [Dat.leavesExact_idle (dats m 0 c) 15 t (idleAt0_15 t hn3) (noFlush0_15 t hn3)]
      rw [Dat.leavesExact_idle (dats m 0 c) 16 t (idleAt0_16 t hn3) (noFlush0_16 t hn3)]
      rw [heldAt_input m c t h0 h1]
      unfold heldInput; (try dsimp only)
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply ((atInput m c t h0 h1 _).2.2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [HS0]; · iexact HS0
      isplitl [HS1]; · iexact HS1
      isplitl [HS2]; · iexact HS2
      isplitl [HS3]; · iexact HS3
      iintro ⟨H0, H1, H2, H3, H4, H5, H6, H7, H8, H9, H10, H11, H12, H13, H14, H15, H16, ⟨%es0, HS0⟩, ⟨%es1, HS1⟩, ⟨%es2, HS2⟩, ⟨%es3, HS3⟩⟩
      isplitl [HS0 HS1 HS2 HS3 Hg]
      · isplitr [Hg]
        swap; · iexact Hg
        isplitl [HS0]
        · unfold owns; iexists _; isplitr
          swap; · iexact HS0
          ipureintro; exact View.read_writes_eq_canon _ _ _ (coverInput_LS0 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_eq_canon _ _ _ (coverInput_LS1 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [HS2]
        · unfold owns; iexists _; isplitr
          swap; · iexact HS2
          ipureintro; exact View.read_writes_eq_canon _ _ _ (coverInput_LS2 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact HS3
        ipureintro; exact View.read_writes_eq_canon _ _ _ (coverInput_LS3 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      iexists _; iexact H16
    · by_cases h3 : t.val % 12 = 11
      · -- k = 11
        rw [show (dats m 0 c).leavesExact 0 t = owns (c : Thread nD τ) (ms0_0 t) fullShare ((dats m 0 c).after 0 t) from by
          unfold Dat.leavesExact; rw [liveAt0_0 t], after0_0]
        rw [show (dats m 0 c).leavesExact 1 t = owns (c : Thread nD τ) (ms0_1 t) fullShare ((dats m 0 c).after 1 t) from by
          unfold Dat.leavesExact; rw [liveAt0_1 t], after0_1]
        rw [show (dats m 0 c).leavesExact 2 t = owns (c : Thread nD τ) (ms0_2 t) fullShare ((dats m 0 c).after 2 t) from by
          unfold Dat.leavesExact; rw [liveAt0_2 t], after0_2]
        rw [show (dats m 0 c).leavesExact 3 t = owns (c : Thread nD τ) (ms0_3 t) fullShare ((dats m 0 c).after 3 t) from by
          unfold Dat.leavesExact; rw [liveAt0_3 t], after0_3]
        rw [show (dats m 0 c).leavesExact 4 t = owns (c : Thread nD τ) (ms0_4 t) fullShare ((dats m 0 c).after 4 t) from by
          unfold Dat.leavesExact; rw [liveAt0_4 t], after0_4]
        rw [show (dats m 0 c).leavesExact 5 t = owns (c : Thread nD τ) (ms0_5 t) fullShare ((dats m 0 c).after 5 t) from by
          unfold Dat.leavesExact; rw [liveAt0_5 t], after0_5]
        rw [show (dats m 0 c).leavesExact 6 t = owns (c : Thread nD τ) (ms0_6 t) fullShare ((dats m 0 c).after 6 t) from by
          unfold Dat.leavesExact; rw [liveAt0_6 t], after0_6]
        rw [show (dats m 0 c).leavesExact 7 t = owns (c : Thread nD τ) (ms0_7 t) fullShare ((dats m 0 c).after 7 t) from by
          unfold Dat.leavesExact; rw [liveAt0_7 t], after0_7]
        rw [show (dats m 0 c).leavesExact 8 t = owns (c : Thread nD τ) (ms0_8 t) fullShare ((dats m 0 c).after 8 t) from by
          unfold Dat.leavesExact; rw [liveAt0_8 t], after0_8]
        rw [show (dats m 0 c).leavesExact 9 t = owns (c : Thread nD τ) (ms0_9 t) fullShare ((dats m 0 c).after 9 t) from by
          unfold Dat.leavesExact; rw [liveAt0_9 t], after0_9]
        rw [show (dats m 0 c).leavesExact 10 t = owns (c : Thread nD τ) (ms0_10 t) fullShare ((dats m 0 c).after 10 t) from by
          unfold Dat.leavesExact; rw [liveAt0_10 t], after0_10]
        rw [show (dats m 0 c).leavesExact 11 t = owns (c : Thread nD τ) (ms0_11 t) fullShare ((dats m 0 c).after 11 t) from by
          unfold Dat.leavesExact; rw [liveAt0_11 t], after0_11]
        rw [show (dats m 0 c).leavesExact 12 t = owns (c : Thread nD τ) (ms0_12 t) fullShare ((dats m 0 c).after 12 t) from by
          unfold Dat.leavesExact; rw [liveAt0_12 t], after0_12]
        rw [show (dats m 0 c).leavesExact 13 t = owns (c : Thread nD τ) (ms0_13 t) fullShare ((dats m 0 c).after 13 t) from by
          unfold Dat.leavesExact; rw [liveAt0_13 t], after0_13]
        rw [show (dats m 0 c).leavesExact 14 t = owns (c : Thread nD τ) (ms0_14 t) fullShare ((dats m 0 c).after 14 t) from by
          unfold Dat.leavesExact; rw [liveAt0_14 t], after0_14]
        have hy3 : cond0_3 (grid0.coords t) := (hcond0_3 t).mpr h3
        rw [show (dats m 0 c).leavesExact 15 t = owns (c : Thread nD τ) (ms0_15 t) fullShare ((dats m 0 c).after 15 t) from by
          unfold Dat.leavesExact; rw [liveAt0_15_last t hy3], after0_15]
        rw [show (dats m 0 c).leavesExact 16 t = owns (c : Thread nD τ) (ms0_16 t) fullShare ((dats m 0 c).after 16 t) from by
          unfold Dat.leavesExact; rw [liveAt0_16_last t hy3], after0_16]
        rw [heldAt_last m c t h3]
        unfold heldLast; (try dsimp only)
        rw [PhiS_castSucc m c t, PhiS_pos m c _ _ hz]
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
        iapply ((atLast m c t h3 _).2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexists _; iexact H15
        isplitl [H16]; · iexists _; iexact H16
        isplitl [HS0]; · iexact HS0
        isplitl [HS1]; · iexact HS1
        isplitl [HS2]; · iexact HS2
        isplitl [HS3]; · iexact HS3
        iintro ⟨H0, H1, H2, H3, H4, H5, H6, H7, H8, H9, H10, H11, H12, H13, H14, ⟨%e15, H15⟩, ⟨%e16, H16⟩, ⟨%es0, HS0⟩, ⟨%es1, HS1⟩, ⟨%es2, HS2⟩, ⟨%es3, HS3⟩⟩
        isplitl [HS0 HS1 HS2 HS3 Hg]
        · isplitr [Hg]
          swap; · iexact Hg
          isplitl [HS0]
          · unfold owns; iexists _; isplitr
            swap; · iexact HS0
            ipureintro; exact View.read_writes_eq_canon _ _ _ (coverLast_LS0 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_eq_canon _ _ _ (coverLast_LS1 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_eq_canon _ _ _ (coverLast_LS2 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact HS3
          ipureintro; exact View.read_writes_eq_canon _ _ _ (coverLast_LS3 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]
        · unfold owns; iexists _; isplitr
          swap; · iexact H15
          ipureintro; exact View.read_writes_eq_canon _ _ _ (coverLast_L15 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact H16
        ipureintro; exact View.read_writes_eq_canon _ _ _ (coverLast_L16 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      · -- 4 <= k <= 10
        rw [show (dats m 0 c).leavesExact 0 t = owns (c : Thread nD τ) (ms0_0 t) fullShare ((dats m 0 c).after 0 t) from by
          unfold Dat.leavesExact; rw [liveAt0_0 t], after0_0]
        rw [show (dats m 0 c).leavesExact 1 t = owns (c : Thread nD τ) (ms0_1 t) fullShare ((dats m 0 c).after 1 t) from by
          unfold Dat.leavesExact; rw [liveAt0_1 t], after0_1]
        rw [show (dats m 0 c).leavesExact 2 t = owns (c : Thread nD τ) (ms0_2 t) fullShare ((dats m 0 c).after 2 t) from by
          unfold Dat.leavesExact; rw [liveAt0_2 t], after0_2]
        rw [show (dats m 0 c).leavesExact 3 t = owns (c : Thread nD τ) (ms0_3 t) fullShare ((dats m 0 c).after 3 t) from by
          unfold Dat.leavesExact; rw [liveAt0_3 t], after0_3]
        rw [show (dats m 0 c).leavesExact 4 t = owns (c : Thread nD τ) (ms0_4 t) fullShare ((dats m 0 c).after 4 t) from by
          unfold Dat.leavesExact; rw [liveAt0_4 t], after0_4]
        rw [show (dats m 0 c).leavesExact 5 t = owns (c : Thread nD τ) (ms0_5 t) fullShare ((dats m 0 c).after 5 t) from by
          unfold Dat.leavesExact; rw [liveAt0_5 t], after0_5]
        rw [show (dats m 0 c).leavesExact 6 t = owns (c : Thread nD τ) (ms0_6 t) fullShare ((dats m 0 c).after 6 t) from by
          unfold Dat.leavesExact; rw [liveAt0_6 t], after0_6]
        rw [show (dats m 0 c).leavesExact 7 t = owns (c : Thread nD τ) (ms0_7 t) fullShare ((dats m 0 c).after 7 t) from by
          unfold Dat.leavesExact; rw [liveAt0_7 t], after0_7]
        rw [show (dats m 0 c).leavesExact 8 t = owns (c : Thread nD τ) (ms0_8 t) fullShare ((dats m 0 c).after 8 t) from by
          unfold Dat.leavesExact; rw [liveAt0_8 t], after0_8]
        rw [show (dats m 0 c).leavesExact 9 t = owns (c : Thread nD τ) (ms0_9 t) fullShare ((dats m 0 c).after 9 t) from by
          unfold Dat.leavesExact; rw [liveAt0_9 t], after0_9]
        rw [show (dats m 0 c).leavesExact 10 t = owns (c : Thread nD τ) (ms0_10 t) fullShare ((dats m 0 c).after 10 t) from by
          unfold Dat.leavesExact; rw [liveAt0_10 t], after0_10]
        rw [show (dats m 0 c).leavesExact 11 t = owns (c : Thread nD τ) (ms0_11 t) fullShare ((dats m 0 c).after 11 t) from by
          unfold Dat.leavesExact; rw [liveAt0_11 t], after0_11]
        rw [show (dats m 0 c).leavesExact 12 t = owns (c : Thread nD τ) (ms0_12 t) fullShare ((dats m 0 c).after 12 t) from by
          unfold Dat.leavesExact; rw [liveAt0_12 t], after0_12]
        rw [show (dats m 0 c).leavesExact 13 t = owns (c : Thread nD τ) (ms0_13 t) fullShare ((dats m 0 c).after 13 t) from by
          unfold Dat.leavesExact; rw [liveAt0_13 t], after0_13]
        rw [show (dats m 0 c).leavesExact 14 t = owns (c : Thread nD τ) (ms0_14 t) fullShare ((dats m 0 c).after 14 t) from by
          unfold Dat.leavesExact; rw [liveAt0_14 t], after0_14]
        have hn3 : ¬cond0_3 (grid0.coords t) := fun hh => absurd ((hcond0_3 t).mp hh) (by omega)
        rw [Dat.leavesExact_idle (dats m 0 c) 15 t (idleAt0_15 t hn3) (noFlush0_15 t hn3)]
        rw [Dat.leavesExact_idle (dats m 0 c) 16 t (idleAt0_16 t hn3) (noFlush0_16 t hn3)]
        rw [heldAt_hidden m c t h1 h3]
        unfold heldHidden; (try dsimp only)
        rw [PhiS_castSucc m c t, PhiS_pos m c _ _ hz]
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
        iapply ((atHidden m c t h1 h3 _).2.2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [HS0]; · iexact HS0
        isplitl [HS1]; · iexact HS1
        isplitl [HS2]; · iexact HS2
        isplitl [HS3]; · iexact HS3
        iintro ⟨H0, H1, H2, H3, H4, H5, H6, H7, H8, H9, H10, H11, H12, H13, H14, H15, H16, ⟨%es0, HS0⟩, ⟨%es1, HS1⟩, ⟨%es2, HS2⟩, ⟨%es3, HS3⟩⟩
        isplitl [HS0 HS1 HS2 HS3 Hg]
        · isplitr [Hg]
          swap; · iexact Hg
          isplitl [HS0]
          · unfold owns; iexists _; isplitr
            swap; · iexact HS0
            ipureintro; exact View.read_writes_eq_canon _ _ _ (coverHidden_LS0 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_eq_canon _ _ _ (coverHidden_LS1 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_eq_canon _ _ _ (coverHidden_LS2 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact HS3
          ipureintro; exact View.read_writes_eq_canon _ _ _ (coverHidden_LS3 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexists _; iexact H15
        iexists _; iexact H16

/-- The body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitr [Hg]
  swap; · iexact Hg
  isplitl [HS0]; · iexists _; iexact HS0
  isplitl [HS1]; · iexists _; iexact HS1
  isplitl [HS2]; · iexists _; iexact HS2
  iexists _; iexact HS3

theorem hout (c : Dev nD) : (dats m 0 c).Φ (Fin.last cfg0.N) ⊢ Pipeline.ΦA spec0 c :=
  Phi_out m c _ (by rw [Fin.val_last]; have : cfg0.N = 384 := N_0; omega)

set_option backward.isDefEq.respectTransparency.types false in
/-- Every weakly fair execution of the program on the TensorCores terminates, and the final state has every array of
    the pipeline at what the proof data says and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

end Cert.KernelIdeal.Gen

end
-- ==== Proof.Ideal.Result.lean ====
/-
  The kernel's two result arrays after the run. The pipeline writes result window 15 (and 16) back exactly at the
  points with n mod 12 = 11, one per tile; what such a point writes is the tile of the cell's new state (new output)
  at the tile's rows and columns, and the 32 tiles cover the 4096 x 4096 array. So each result array ends as the
  specification's whole-array function of the fifteen argument arrays, and the arguments end unchanged.
-/
import proofs.«125515_j24756191494330_2_alg».proof.Proof.Ideal.Sums
import proofs.«125515_j24756191494330_2_alg».proof.Proof.Ideal.Body

set_option maxRecDepth 16384

noncomputable section

namespace Cert.KernelIdeal.CellValue

open Idealize.ShloMosaic Idealize.ShloMosaic.TcCoe Idealize.ShloMosaic.ValueIdx Idealize.SL.Sem
open Cert.KernelIdeal Cert.KernelIdeal.Gen Cert.Cell

variable (m : (ℓ : Loc nD τ sig) → Buf (Elt Ideal) ℓ) (ρ : Dev nD → PrngReg)

/-- What a flushing point writes back into the first result: the new state's tile. -/
theorem flushed15 (c : Dev nD) (t : Fin cfg0.N) (hf : (cfg0.win 15).flush t = true) :
    (dats m 0 c).flushed 15 t = ((cfg0.win 15).blk t).view.read (Elt Ideal) (stateArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) := by
  have h3 : t.val % 12 = 11 := (flush0_15 t).mp hf
  have hN : t.val < 384 := lt_of_lt_of_eq t.isLt N_0
  show (cfg0.win 15).cut (grid0.coords t) ((dats m 0 c).after 15 t) = _
  rw [after0_15]
  funext j
  obtain ⟨p, q, rfl⟩ : ∃ (p : Fin 512) (q : Fin 1024), j = ix2 p q := ⟨j 0, j 1, eq_ix2 j⟩
  refine Eq.trans ?_ (Blocks.readOut15 t hN _ p q).symm
  exact state_tile m c t hN h3 p q

/-- What a flushing point writes back into the second result: the new output's tile. -/
theorem flushed16 (c : Dev nD) (t : Fin cfg0.N) (hf : (cfg0.win 16).flush t = true) :
    (dats m 0 c).flushed 16 t = ((cfg0.win 16).blk t).view.read (Elt Ideal) (outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) := by
  have h3 : t.val % 12 = 11 := (flush0_16 t).mp hf
  have hN : t.val < 384 := lt_of_lt_of_eq t.isLt N_0
  show (cfg0.win 16).cut (grid0.coords t) ((dats m 0 c).after 16 t) = _
  rw [after0_16]
  funext j
  obtain ⟨p, q, rfl⟩ : ∃ (p : Fin 512) (q : Fin 1024), j = ix2 p q := ⟨j 0, j 1, eq_ix2 j⟩
  refine Eq.trans ?_ (Blocks.readOut16 t hN _ p q).symm
  exact out_tile m c t hN h3 p q

/-- The first result array after the run. -/
theorem final15 (c : Dev nD) : (dats m 0 c).arrAt 15 cfg0.N = stateArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (dats m 0 c).arrAt_eq_of_cover 15 _ (fun t hf => flushed15 m c t hf) (fun i => Blocks.cover15 i)

/-- The second result array after the run. -/
theorem final16 (c : Dev nD) : (dats m 0 c).arrAt 16 cfg0.N = outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  (dats m 0 c).arrAt_eq_of_cover 16 _ (fun t hf => flushed16 m c t hf) (fun i => Blocks.cover16 i)

/-- The kernel's run, read: both results at the specification of the arguments, the arguments unchanged. -/
theorem run : θ_run defs (onTc (τ := τ) (main (F := Ideal))) ⟨m, fun _ => 0, ρ⟩ fun r => ∀ c : Dev nD,
      r.2.mem ((c.tc : Thread nD τ).loc main_v10_0) = stateArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c.tc : Thread nD τ).loc main_v10_1) = outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun r h c => ⟨((h c).1 15).trans (final15 m c), ((h c).1 16).trans (final16 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 5).trans (((dats m 0 c).arrAt_in 5 rfl _).trans ((A_eq m c 5).trans (V_main_arg5 m c))),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).1 8).trans (((dats m 0 c).arrAt_in 8 rfl _).trans ((A_eq m c 8).trans (V_main_arg8 m c))),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).1 11).trans (((dats m 0 c).arrAt_in 11 rfl _).trans ((A_eq m c 11).trans (V_main_arg11 m c))),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).1 14).trans (((dats m 0 c).arrAt_in 14 rfl _).trans ((A_eq m c 14).trans (V_main_arg14 m c)))⟩)
    (run_main m ρ)

end Cert.KernelIdeal.CellValue

end
-- ==== Proof.LibLogisticForm.lean ====
/-
  The logistic function written as a quotient, over the extended reals.

  A program may apply the logistic function as one operation or spell it `1 / (1 + e^(-z))` with the 32-bit pattern of
  the number one, a negation, an exponential, a sum and a quotient. Over the extended reals the two are the same function:
  the pattern `0x3F800000` denotes one, and the logistic function is defined as that quotient, with the conventions
  `e^(-∞) = 0` and `1 / ∞ = 0` giving the limits `1` at `+∞` and `0` at `-∞`.
-/
import Idealize.ShloMosaic.PureOps.Ideal

noncomputable section

namespace Idealize.ShloMosaic.LogisticForm

open Idealize.ShloMosaic

/-- The bit pattern `0x3F800000` of the 32-bit format denotes the number one. -/
theorem one_f32 : Ideal.ofBits .f32 0x3F800000#32 = 1 := by
  simp [Ideal.ofBits, Ideal.ieee, -EReal.coe_mul]; norm_num

/-- One over one plus the exponential of the negation, in the host's operations and with the number one given by its
    32-bit pattern, is the logistic function. -/
theorem logistic_spelt (z : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf z)))
      = Ideal.logistic z := by
  rw [Ideal.ofBits_def, one_f32]
  rfl

end Idealize.ShloMosaic.LogisticForm

end
-- ==== Proof.RefCell.lean ====
/-
  The reference program of one step of an LSTM cell computes the specification function, index by index.

  The reference forms each gate's pre-activation as (W x + U h) + b with the bias column repeated along the batch
  axis, applies the logistic function spelt as 1 / (1 + e^(-z)) to three of the gates and the hyperbolic tangent to the
  candidate, and combines them: state' = c * f + i * g and out = tanh(state') * o. On the extended reals every stage
  reads at an index as the same operation on its operands at that index, a matrix product reads as the sum over
  the contracted axis, and the spelt logistic is the logistic function; so the two result arrays are the
  specification's arrays.
-/
import proofs.«125515_j24756191494330_2_alg».proof.Proof.Gen.ReferenceIdeal.Read
import proofs.«125515_j24756191494330_2_alg».proof.Proof.CellSpec
import proofs.«125515_j24756191494330_2_alg».proof.Proof.LibLogisticForm

noncomputable section

open scoped BigOperators

namespace Cert.ReferenceIdeal.RefValue

open Cert.ReferenceIdeal Cert.ReferenceIdeal.Gen Cert.ReferenceIdeal.Read Idealize.ShloMosaic Idealize.ShloMosaic.ValueIdx

/-- An array of 2048 by 4096 extended reals. -/
abbrev AX : Type := (⟨S2048x4096, .f32⟩ : BufTy).Contents (Elt Ideal)
/-- An array of 4096 by 4096 extended reals. -/
abbrev AH : Type := (⟨S4096x4096, .f32⟩ : BufTy).Contents (Elt Ideal)
/-- An array of 4096 by 2048 extended reals. -/
abbrev AW : Type := (⟨S4096x2048, .f32⟩ : BufTy).Contents (Elt Ideal)
/-- A column of 4096 extended reals. -/
abbrev AB : Type := (⟨S4096x1, .f32⟩ : BufTy).Contents (Elt Ideal)

/-! ## One gate -/

/-- Term k of the input product at row r, column q: the left operand is read at (r, k), the right at (k, q). -/
theorem in_term (x : AX) (w : AW) (r q : Fin 4096) (k : Fin 2048) :
    w (lidx_main_v0 (ix2 r q) k) * x (ridx_main_v0 (ix2 r q) k) = Cert.Cell.inTerm w x r q k := by
  have hl : lidx_main_v0 (ix2 r q) k = ix2 r k :=
    funext fun a => Fin.ext (by match a with | ⟨0, _⟩ => rfl | ⟨1, _⟩ => rfl)
  have hr : ridx_main_v0 (ix2 r q) k = ix2 k q :=
    funext fun a => Fin.ext (by match a with | ⟨0, _⟩ => rfl | ⟨1, _⟩ => rfl)
  rw [hl, hr]; rfl

/-- Term k of the recurrent product at row r, column q. -/
theorem rec_term (h : AH) (u : AH) (r q : Fin 4096) (k : Fin 4096) :
    u (lidx_main_v1 (ix2 r q) k) * h (ridx_main_v1 (ix2 r q) k) = Cert.Cell.recTerm u h r q k := by
  have hl : lidx_main_v1 (ix2 r q) k = ix2 r k :=
    funext fun a => Fin.ext (by match a with | ⟨0, _⟩ => rfl | ⟨1, _⟩ => rfl)
  have hr : ridx_main_v1 (ix2 r q) k = ix2 k q :=
    funext fun a => Fin.ext (by match a with | ⟨0, _⟩ => rfl | ⟨1, _⟩ => rfl)
  rw [hl, hr]; rfl

/-- The bias column repeated along the batch axis is read at (r, 0). -/
theorem bias_idx (r q : Fin 4096) : idx_main_v3 (ix2 r q) = ix2 r (0 : Fin 1) :=
  funext fun a => Fin.ext (by match a with | ⟨0, _⟩ => rfl | ⟨1, _⟩ => rfl)

/-- A gate's pre-activation, (W x + U h) + b, at row r and column q is the specification's. -/
theorem pre_eq (x : AX) (h : AH) (w : AW) (u : AH) (b : AB) (r q : Fin 4096) :
    val_main_v4 (F := Ideal) x h w u b (ix2 r q) = Cert.Cell.pre w u b x h r q := by
  rw [val_main_v4_apply, val_main_v2_apply, val_main_v3_apply, val_main_v0_apply, val_main_v1_apply,
    Finset.sum_congr rfl (fun k _ => in_term x w r q k), Finset.sum_congr rfl (fun k _ => rec_term h u r q k),
    bias_idx]
  rfl

/-- One over one plus the exponential of the negated pre-activation is the logistic function of it. -/
theorem sig_eq (x : AX) (h : AH) (w : AW) (u : AH) (b : AB) (i : S4096x4096.Idx) :
    val_main_v10 (F := Ideal) x h w u b i = Ideal.logistic (val_main_v4 (F := Ideal) x h w u b i) := by
  rw [val_main_v10_apply, val_main_v9_apply, val_main_cst_0_apply, val_main_v8_apply, val_main_v7_apply,
    val_main_cst_apply, val_main_v6_apply, val_main_v5_apply]
  exact Idealize.ShloMosaic.LogisticForm.logistic_spelt _

/-! ## The four gates are one program text -/

/-- The input gate's pre-activation stages are the forget gate's, on the input gate's weights. -/
theorem pre_i (x : AX) (h : AH) (w : AW) (u : AH) (b : AB) :
    val_main_v15 (F := Ideal) x h w u b = val_main_v4 (F := Ideal) x h w u b := rfl
/-- The input gate's spelt logistic is the forget gate's, on the input gate's weights. -/
theorem sig_i (x : AX) (h : AH) (w : AW) (u : AH) (b : AB) :
    val_main_v21 (F := Ideal) x h w u b = val_main_v10 (F := Ideal) x h w u b := rfl
/-- The candidate's pre-activation stages are the forget gate's, on the candidate's weights. -/
theorem pre_g (x : AX) (h : AH) (w : AW) (u : AH) (b : AB) :
    val_main_v26 (F := Ideal) x h w u b = val_main_v4 (F := Ideal) x h w u b := rfl
/-- The output gate's spelt logistic is the forget gate's, on the output gate's weights. -/
theorem sig_o (x : AX) (h : AH) (w : AW) (u : AH) (b : AB) :
    val_main_v38 (F := Ideal) x h w u b = val_main_v10 (F := Ideal) x h w u b := rfl

/-! ## The two results -/

/-- The first result at row r, column q: c * f + i * g with f, i the logistic and g the hyperbolic tangent of the
    gates' pre-activations. -/
theorem state_at (a0 : (⟨S2048x4096, .f32⟩ : BufTy).Contents (Elt Ideal)) (a1 a2 : (⟨S4096x4096, .f32⟩ : BufTy).Contents (Elt Ideal))
    (a3 : (⟨S4096x2048, .f32⟩ : BufTy).Contents (Elt Ideal)) (a4 : (⟨S4096x4096, .f32⟩ : BufTy).Contents (Elt Ideal)) (a5 : (⟨S4096x1, .f32⟩ : BufTy).Contents (Elt Ideal))
    (a6 : (⟨S4096x2048, .f32⟩ : BufTy).Contents (Elt Ideal)) (a7 : (⟨S4096x4096, .f32⟩ : BufTy).Contents (Elt Ideal)) (a8 : (⟨S4096x1, .f32⟩ : BufTy).Contents (Elt Ideal))
    (a9 : (⟨S4096x2048, .f32⟩ : BufTy).Contents (Elt Ideal)) (a10 : (⟨S4096x4096, .f32⟩ : BufTy).Contents (Elt Ideal)) (a11 : (⟨S4096x1, .f32⟩ : BufTy).Contents (Elt Ideal)) (r q : Fin 4096) :
    val_main_v41 (F := Ideal) a0 a1 a2 a3 a4 a5 a6 a7 a8 a9 a10 a11 (ix2 r q)
      = Cert.Cell.newState a0 a1 a2 a3 a4 a5 a6 a7 a8 a9 a10 a11 r q := by
  rw [val_main_v41_apply, val_main_v39_apply, val_main_v40_apply, val_main_v27_apply, sig_i, pre_g, sig_eq, sig_eq,
    pre_eq, pre_eq, pre_eq]
  rfl

/-- The second result at row r, column q: the hyperbolic tangent of the new state times the logistic of the output
    gate's pre-activation. -/
theorem out_at (a0 : (⟨S2048x4096, .f32⟩ : BufTy).Contents (Elt Ideal)) (a1 a2 : (⟨S4096x4096, .f32⟩ : BufTy).Contents (Elt Ideal))
    (a3 : (⟨S4096x2048, .f32⟩ : BufTy).Contents (Elt Ideal)) (a4 : (⟨S4096x4096, .f32⟩ : BufTy).Contents (Elt Ideal)) (a5 : (⟨S4096x1, .f32⟩ : BufTy).Contents (Elt Ideal))
    (a6 : (⟨S4096x2048, .f32⟩ : BufTy).Contents (Elt Ideal)) (a7 : (⟨S4096x4096, .f32⟩ : BufTy).Contents (Elt Ideal)) (a8 : (⟨S4096x1, .f32⟩ : BufTy).Contents (Elt Ideal))
    (a9 : (⟨S4096x2048, .f32⟩ : BufTy).Contents (Elt Ideal)) (a10 : (⟨S4096x4096, .f32⟩ : BufTy).Contents (Elt Ideal)) (a11 : (⟨S4096x1, .f32⟩ : BufTy).Contents (Elt Ideal))
    (a12 : (⟨S4096x2048, .f32⟩ : BufTy).Contents (Elt Ideal)) (a13 : (⟨S4096x4096, .f32⟩ : BufTy).Contents (Elt Ideal)) (a14 : (⟨S4096x1, .f32⟩ : BufTy).Contents (Elt Ideal)) (r q : Fin 4096) :
    val_main_v43 (F := Ideal) a0 a1 a2 a3 a4 a5 a6 a7 a8 a9 a10 a11 a12 a13 a14 (ix2 r q)
      = Cert.Cell.newOut a0 a1 a2 a3 a4 a5 a6 a7 a8 a9 a10 a11 a12 a13 a14 r q := by
  rw [val_main_v43_apply, val_main_v42_apply, state_at, sig_o, sig_eq, pre_eq]
  rfl

/-- The reference's first result is the specification's new state, as whole arrays. -/
theorem state_eq (a0 : (⟨S2048x4096, .f32⟩ : BufTy).Contents (Elt Ideal)) (a1 a2 : (⟨S4096x4096, .f32⟩ : BufTy).Contents (Elt Ideal))
    (a3 : (⟨S4096x2048, .f32⟩ : BufTy).Contents (Elt Ideal)) (a4 : (⟨S4096x4096, .f32⟩ : BufTy).Contents (Elt Ideal)) (a5 : (⟨S4096x1, .f32⟩ : BufTy).Contents (Elt Ideal))
    (a6 : (⟨S4096x2048, .f32⟩ : BufTy).Contents (Elt Ideal)) (a7 : (⟨S4096x4096, .f32⟩ : BufTy).Contents (Elt Ideal)) (a8 : (⟨S4096x1, .f32⟩ : BufTy).Contents (Elt Ideal))
    (a9 : (⟨S4096x2048, .f32⟩ : BufTy).Contents (Elt Ideal)) (a10 : (⟨S4096x4096, .f32⟩ : BufTy).Contents (Elt Ideal)) (a11 : (⟨S4096x1, .f32⟩ : BufTy).Contents (Elt Ideal)) :
    val_main_v41 (F := Ideal) a0 a1 a2 a3 a4 a5 a6 a7 a8 a9 a10 a11
      = Cert.Cell.stateArr a0 a1 a2 a3 a4 a5 a6 a7 a8 a9 a10 a11 := by
  funext i
  obtain ⟨r, q, rfl⟩ : ∃ r q, i = ix2 r q := ⟨i 0, i 1, eq_ix2 i⟩
  exact state_at a0 a1 a2 a3 a4 a5 a6 a7 a8 a9 a10 a11 r q

/-- The reference's second result is the specification's new output, as whole arrays. -/
theorem out_eq (a0 : (⟨S2048x4096, .f32⟩ : BufTy).Contents (Elt Ideal)) (a1 a2 : (⟨S4096x4096, .f32⟩ : BufTy).Contents (Elt Ideal))
    (a3 : (⟨S4096x2048, .f32⟩ : BufTy).Contents (Elt Ideal)) (a4 : (⟨S4096x4096, .f32⟩ : BufTy).Contents (Elt Ideal)) (a5 : (⟨S4096x1, .f32⟩ : BufTy).Contents (Elt Ideal))
    (a6 : (⟨S4096x2048, .f32⟩ : BufTy).Contents (Elt Ideal)) (a7 : (⟨S4096x4096, .f32⟩ : BufTy).Contents (Elt Ideal)) (a8 : (⟨S4096x1, .f32⟩ : BufTy).Contents (Elt Ideal))
    (a9 : (⟨S4096x2048, .f32⟩ : BufTy).Contents (Elt Ideal)) (a10 : (⟨S4096x4096, .f32⟩ : BufTy).Contents (Elt Ideal)) (a11 : (⟨S4096x1, .f32⟩ : BufTy).Contents (Elt Ideal))
    (a12 : (⟨S4096x2048, .f32⟩ : BufTy).Contents (Elt Ideal)) (a13 : (⟨S4096x4096, .f32⟩ : BufTy).Contents (Elt Ideal)) (a14 : (⟨S4096x1, .f32⟩ : BufTy).Contents (Elt Ideal)) :
    val_main_v43 (F := Ideal) a0 a1 a2 a3 a4 a5 a6 a7 a8 a9 a10 a11 a12 a13 a14
      = Cert.Cell.outArr a0 a1 a2 a3 a4 a5 a6 a7 a8 a9 a10 a11 a12 a13 a14 := by
  funext i
  obtain ⟨r, q, rfl⟩ : ∃ r q, i = ix2 r q := ⟨i 0, i 1, eq_ix2 i⟩
  exact out_at a0 a1 a2 a3 a4 a5 a6 a7 a8 a9 a10 a11 a12 a13 a14 r q

end Cert.ReferenceIdeal.RefValue

end
-- ==== Proof.lean ====
/-
  One step of an LSTM cell: a tiled kernel against the plain formula.

  The kernel walks a grid of 8 row tiles x 4 column tiles x 12 contraction steps. For each tile it keeps four
  512 x 1024 accumulators, one per gate, in scratch memory: at step 0 it clears them, at steps 0..3 it adds a 512-deep
  slice of (input weights) x (input), at steps 4..11 a 512-deep slice of (recurrent weights) x (previous output), and
  at step 11 it adds each gate's bias, applies the logistic function (forget, input, output gates) or the hyperbolic
  tangent (candidate), and stores  state' = c * f + i * g  and  out = tanh(state') * o.  The reference computes the
  same four pre-activations as whole matrix products. On the extended reals the two agree entry by entry: twelve
  slices of 512 added to a total that starts at zero are the two whole sums, by associativity and commutativity of
  addition alone (no finiteness of the inputs is used); a change of float format is the identity; the logistic
  function is 1 / (1 + e^(-z)) however it is spelt.

  Frames: each program terminates on every weakly fair execution, faults nowhere and leaves its arguments unchanged.
  For the kernel (read on machine words and on the extended reals alike) this is the launch of its body over the grid,
  the body run symbolically in each of its four control cases, the accumulators carried from point to point by the
  region's invariant. For the reference it is its run with the results dropped.
-/
import proofs.«125515_j24756191494330_2_alg».proof.Defs
import proofs.«125515_j24756191494330_2_alg».proof.Proof.Gen.Kernel
import proofs.«125515_j24756191494330_2_alg».proof.Proof.Gen.KernelIdeal
import proofs.«125515_j24756191494330_2_alg».proof.Proof.Gen.ReferenceIdeal
import proofs.«125515_j24756191494330_2_alg».proof.Proof.Gen.Pre_finite_inputs
import proofs.«125515_j24756191494330_2_alg».proof.Proof.Gen.ReferenceIdeal.Run
import proofs.«125515_j24756191494330_2_alg».proof.Proof.Gen.ReferenceIdeal.Read
import proofs.«125515_j24756191494330_2_alg».proof.Proof.Bits.Body
import proofs.«125515_j24756191494330_2_alg».proof.Proof.Ideal.Result
import proofs.«125515_j24756191494330_2_alg».proof.Proof.RefCell
import Idealize.ShloMosaic.Adequacy
import Idealize.ShloMosaic.Init

set_option maxRecDepth 16384

noncomputable section

namespace Cert.Proof

open Idealize.ShloMosaic Idealize.ShloMosaic.TcCoe Idealize.SL.Sem

/-- The kernel on machine words: it terminates, faults nowhere, and its arguments end unchanged. -/
theorem frame_kernel : Cert.frame_Kernel := fun m ρ _ =>
  Cert.Kernel.Gen.frame_of m ρ (Cert.Kernel.Gen.dats m) (Cert.Kernel.Gen.A_eq m) (Cert.Kernel.Gen.run_main m ρ)

/-- The same on the extended reals. -/
theorem frame_kernelIdeal : Cert.frame_KernelIdeal := fun m ρ _ =>
  Cert.KernelIdeal.Gen.frame_of m ρ (Cert.KernelIdeal.Gen.dats m) (Cert.KernelIdeal.Gen.A_eq m) (Cert.KernelIdeal.Gen.run_main m ρ)

/-- The reference: its run, the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The ideal reading rewrote no operation of the kernel. -/
theorem preserves : Cert.preserves_Kernel_KernelIdeal := trivial

/-- On the extended reals, from memories that agree on the fifteen arguments, the kernel's two results and the
    reference's are the cell's new state and new output of those arguments, entry by entry. -/
theorem algebraic : Cert.algebraic_KernelIdeal_ReferenceIdeal := by
  intro m ρ m' ρ' _ hagree
  refine ⟨_, _, Cert.KernelIdeal.CellValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8, e9, e10, e11, e12, e13, e14⟩ := hagree c
    rw [Cert.ReferenceIdeal.Read.val_main_v41_eq, Cert.ReferenceIdeal.RefValue.state_eq,
      e0, e1, e2, e3, e4, e5, e6, e7, e8, e9, e10, e11]
  · obtain ⟨e0, e1, e2, e3, e4, e5, e6, e7, e8, e9, e10, e11, e12, e13, e14⟩ := hagree c
    rw [Cert.ReferenceIdeal.Read.val_main_v43_eq, Cert.ReferenceIdeal.RefValue.out_eq,
      e0, e1, e2, e3, e4, e5, e6, e7, e8, e9, e10, e11, e12, e13, e14]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
